-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048 : Shape := ⟨1, ![2048]⟩
abbrev S2x1024x1024 : Shape := ⟨3, ![2, 1024, 1024]⟩
abbrev S2x1024 : Shape := ⟨2, ![2, 1024]⟩
abbrev S4x2x1024x1024 : Shape := ⟨4, ![4, 2, 1024, 1024]⟩
abbrev S4x2x1024 : Shape := ⟨3, ![4, 2, 1024]⟩
abbrev S4x1024x64 : Shape := ⟨3, ![4, 1024, 64]⟩
abbrev S4x64 : Shape := ⟨2, ![4, 64]⟩
abbrev S4x64x1 : Shape := ⟨3, ![4, 64, 1]⟩
abbrev S4x1 : Shape := ⟨2, ![4, 1]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S4x2x1024x1024 : S_.BroadcastsInDim S4x2x1024x1024 (![] : Fin 0 → Fin S4x2x1024x1024.rank)
  reducesTo_S4x2x1024x1024_S_d0_1_2_3 : S4x2x1024x1024.ReducesTo [0, 1, 2, 3] S_
  bcast_S_S4x2x1024 : S_.BroadcastsInDim S4x2x1024 (![] : Fin 0 → Fin S4x2x1024.rank)
  reducesTo_S4x2x1024_S_d0_1_2 : S4x2x1024.ReducesTo [0, 1, 2] S_
  bcast_S_S4x1024x64 : S_.BroadcastsInDim S4x1024x64 (![] : Fin 0 → Fin S4x1024x64.rank)
  reducesTo_S4x1024x64_S_d0_1_2 : S4x1024x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x1 : S_.BroadcastsInDim S4x64x1 (![] : Fin 0 → Fin S4x64x1.rank)
  reducesTo_S4x64x1_S_d0_1_2 : S4x64x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part3 {F : FTy → Type} [FloatOps F] (main_arg12 : FVec F S4x64x1 .f32) (main_arg13 : FVec F S4x1 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64x1 .f32 := Host.absf main_arg12
  let main_cst_20 : FVec F S_ .f32 := constant S_ .f32 0x7F800000#32
  let main_v55 : FVec F S4x64x1 .f32 := broadcastInDim S4x64x1 ![] bcast_S_S4x64x1 main_cst_20
  let main_v56 : IVec S4x64x1 1 := cmpf .olt main_v54 main_v55
  let main_c_21 : IVec S_ 1 := constantI S_ 1 1#1
  let main_v57 : IVec S_ 1 := (fun x v => Host.reduce IntOp.andi x v reducesTo_S4x64x1_S_d0_1_2 h_S_) main_v56 main_c_21
  let main_v58 : IVec S_ 1 := andi main_v53 main_v57
  let main_v59 : FVec F S4x1 .f32 := Host.absf main_arg13
  let main_cst_22 : FVec F S_ .f32 := constant S_ .f32 0x7F800000#32
  let main_v60 : FVec F S4x1 .f32 := broadcastInDim S4x1 ![] bcast_S_S4x1 main_cst_22
  let main_v61 : IVec S4x1 1 := cmpf .olt main_v59 main_v60
  let main_c_23 : IVec S_ 1 := constantI S_ 1 1#1
  let main_v62 : IVec S_ 1 := (fun x v => Host.reduce IntOp.andi x v reducesTo_S4x1_S_d0_1 h_S_) main_v61 main_c_23
  let main_v63 : IVec S_ 1 := andi main_v58 main_v62
  main_v63

def fn_part2 {F : FTy → Type} [FloatOps F] (main_arg8 : FVec F S4x2x1024x1024 .f32) (main_arg9 : FVec F S4x2x1024 .f32) (main_arg10 : FVec F S4x1024x64 .f32) (main_arg11 : FVec F S4x64 .f32) (main_arg12 : FVec F S4x64x1 .f32) (main_arg13 : FVec F S4x1 .f32) (main_v33 : IVec S_ 1) : IVec S_ 1 :=
  let main_v34 : FVec F S4x2x1024x1024 .f32 := Host.absf main_arg8
  let main_cst_12 : FVec F S_ .f32 := constant S_ .f32 0x7F800000#32
  let main_v35 : FVec F S4x2x1024x1024 .f32 := broadcastInDim S4x2x1024x1024 ![] bcast_S_S4x2x1024x1024 main_cst_12
  let main_v36 : IVec S4x2x1024x1024 1 := cmpf .olt main_v34 main_v35
  let main_c_13 : IVec S_ 1 := constantI S_ 1 1#1
  let main_v37 : IVec S_ 1 := (fun x v => Host.reduce IntOp.andi x v reducesTo_S4x2x1024x1024_S_d0_1_2_3 h_S_) main_v36 main_c_13
  let main_v38 : IVec S_ 1 := andi main_v33 main_v37
  let main_v39 : FVec F S4x2x1024 .f32 := Host.absf main_arg9
  let main_cst_14 : FVec F S_ .f32 := constant S_ .f32 0x7F800000#32
  let main_v40 : FVec F S4x2x1024 .f32 := broadcastInDim S4x2x1024 ![] bcast_S_S4x2x1024 main_cst_14
  let main_v41 : IVec S4x2x1024 1 := cmpf .olt main_v39 main_v40
  let main_c_15 : IVec S_ 1 := constantI S_ 1 1#1
  let main_v42 : IVec S_ 1 := (fun x v => Host.reduce IntOp.andi x v reducesTo_S4x2x1024_S_d0_1_2 h_S_) main_v41 main_c_15
  let main_v43 : IVec S_ 1 := andi main_v38 main_v42
  let main_v44 : FVec F S4x1024x64 .f32 := Host.absf main_arg10
  let main_cst_16 : FVec F S_ .f32 := constant S_ .f32 0x7F800000#32
  let main_v45 : FVec F S4x1024x64 .f32 := broadcastInDim S4x1024x64 ![] bcast_S_S4x1024x64 main_cst_16
  let main_v46 : IVec S4x1024x64 1 := cmpf .olt main_v44 main_v45
  let main_c_17 : IVec S_ 1 := constantI S_ 1 1#1
  let main_v47 : IVec S_ 1 := (fun x v => Host.reduce IntOp.andi x v reducesTo_S4x1024x64_S_d0_1_2 h_S_) main_v46 main_c_17
  let main_v48 : IVec S_ 1 := andi main_v43 main_v47
  let main_v49 : FVec F S4x64 .f32 := Host.absf main_arg11
  let main_cst_18 : FVec F S_ .f32 := constant S_ .f32 0x7F800000#32
  let main_v50 : FVec F S4x64 .f32 := broadcastInDim S4x64 ![] bcast_S_S4x64 main_cst_18
  fn_part3 (F := F) main_arg12 main_arg13 main_v48 main_v49 main_v50

def fn_part1 {F : FTy → Type} [FloatOps F] (main_arg5 : FVec F S4x2x1024 .f32) (main_arg6 : FVec F S2x1024x1024 .f32) (main_arg7 : FVec F S2x1024 .f32) (main_arg8 : FVec F S4x2x1024x1024 .f32) (main_arg9 : FVec F S4x2x1024 .f32) (main_arg10 : FVec F S4x1024x64 .f32) (main_arg11 : FVec F S4x64 .f32) (main_arg12 : FVec F S4x64x1 .f32) (main_arg13 : FVec F S4x1 .f32) (main_v13 : IVec S_ 1) (main_v16 : IVec S4x2x1024x1024 1) : IVec S_ 1 :=
  let main_c_5 : IVec S_ 1 := constantI S_ 1 1#1
  let main_v17 : IVec S_ 1 := (fun x v => Host.reduce IntOp.andi x v reducesTo_S4x2x1024x1024_S_d0_1_2_3 h_S_) main_v16 main_c_5
  let main_v18 : IVec S_ 1 := andi main_v13 main_v17
  let main_v19 : FVec F S4x2x1024 .f32 := Host.absf main_arg5
  let main_cst_6 : FVec F S_ .f32 := constant S_ .f32 0x7F800000#32
  let main_v20 : FVec F S4x2x1024 .f32 := broadcastInDim S4x2x1024 ![] bcast_S_S4x2x1024 main_cst_6
  let main_v21 : IVec S4x2x1024 1 := cmpf .olt main_v19 main_v20
  let main_c_7 : IVec S_ 1 := constantI S_ 1 1#1
  let main_v22 : IVec S_ 1 := (fun x v => Host.reduce IntOp.andi x v reducesTo_S4x2x1024_S_d0_1_2 h_S_) main_v21 main_c_7
  let main_v23 : IVec S_ 1 := andi main_v18 main_v22
  let main_v24 : FVec F S2x1024x1024 .f32 := Host.absf main_arg6
  let main_cst_8 : FVec F S_ .f32 := constant S_ .f32 0x7F800000#32
  let main_v25 : FVec F S2x1024x1024 .f32 := broadcastInDim S2x1024x1024 ![] bcast_S_S2x1024x1024 main_cst_8
  let main_v26 : IVec S2x1024x1024 1 := cmpf .olt main_v24 main_v25
  let main_c_9 : IVec S_ 1 := constantI S_ 1 1#1
  let main_v27 : IVec S_ 1 := (fun x v => Host.reduce IntOp.andi x v reducesTo_S2x1024x1024_S_d0_1_2 h_S_) main_v26 main_c_9
  let main_v28 : IVec S_ 1 := andi main_v23 main_v27
  let main_v29 : FVec F S2x1024 .f32 := Host.absf main_arg7
  let main_cst_10 : FVec F S_ .f32 := constant S_ .f32 0x7F800000#32
  let main_v30 : FVec F S2x1024 .f32 := broadcastInDim S2x1024 ![] bcast_S_S2x1024 main_cst_10
  let main_v31 : IVec S2x1024 1 := cmpf .olt main_v29 main_v30
  let main_c_11 : IVec S_ 1 := constantI S_ 1 1#1
  let main_v32 : IVec S_ 1 := (fun x v => Host.reduce IntOp.andi x v reducesTo_S2x1024_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S2048x1024 .f32) (main_arg1 : IVec S2048 32) (main_arg2 : FVec F S2x1024x1024 .f32) (main_arg3 : FVec F S2x1024 .f32) (main_arg4 : FVec F S4x2x1024x1024 .f32) (main_arg5 : FVec F S4x2x1024 .f32) (main_arg6 : FVec F S2x1024x1024 .f32) (main_arg7 : FVec F S2x1024 .f32) (main_arg8 : FVec F S4x2x1024x1024 .f32) (main_arg9 : FVec F S4x2x1024 .f32) (main_arg10 : FVec F S4x1024x64 .f32) (main_arg11 : FVec F S4x64 .f32) (main_arg12 : FVec F S4x64x1 .f32) (main_arg13 : FVec F S4x1 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2x1024x1024 .f32 := Host.absf main_arg2
  let main_cst_0 : FVec F S_ .f32 := constant S_ .f32 0x7F800000#32
  let main_v5 : FVec F S2x1024x1024 .f32 := broadcastInDim S2x1024x1024 ![] bcast_S_S2x1024x1024 main_cst_0
  let main_v6 : IVec S2x1024x1024 1 := cmpf .olt main_v4 main_v5
  let main_c_1 : IVec S_ 1 := constantI S_ 1 1#1
  let main_v7 : IVec S_ 1 := (fun x v => Host.reduce IntOp.andi x v reducesTo_S2x1024x1024_S_d0_1_2 h_S_) main_v6 main_c_1
  let main_v8 : IVec S_ 1 := andi main_v3 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S4x2x1024x1024 .f32 := Host.absf main_arg4
  let main_cst_4 : FVec F S_ .f32 := constant S_ .f32 0x7F800000#32
  let main_v15 : FVec F S4x2x1024x1024 .f32 := broadcastInDim S4x2x1024x1024 ![] bcast_S_S4x2x1024x1024 main_cst_4
  let main_v16 : IVec S4x2x1024x1024 1 := cmpf .olt main_v14 main_v15
  fn_part1 (F := F) main_arg5 main_arg6 main_arg7 main_arg8 main_arg9 main_arg10 main_arg11 main_arg12 main_arg13 main_v13 main_v16
-- ==== Kernel.lean ====
abbrev S2048x1024 : Shape := ⟨2, ![2048, 1024]⟩
abbrev S2048 : Shape := ⟨1, ![2048]⟩
abbrev S2x1024x1024 : Shape := ⟨3, ![2, 1024, 1024]⟩
abbrev S2x1024 : Shape := ⟨2, ![2, 1024]⟩
abbrev S4x2x1024x1024 : Shape := ⟨4, ![4, 2, 1024, 1024]⟩
abbrev S4x2x1024 : Shape := ⟨3, ![4, 2, 1024]⟩
abbrev S4x1024x64 : Shape := ⟨3, ![4, 1024, 64]⟩
abbrev S4x64 : Shape := ⟨2, ![4, 64]⟩
abbrev S4x64x1 : Shape := ⟨3, ![4, 64, 1]⟩
abbrev S4x1 : Shape := ⟨2, ![4, 1]⟩
abbrev S2048x1 : Shape := ⟨2, ![2048, 1]⟩
abbrev S512x1024 : Shape := ⟨2, ![512, 1024]⟩
abbrev S512x1 : Shape := ⟨2, ![512, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x2x1024x1024 : Shape := ⟨4, ![1, 2, 1024, 1024]⟩
abbrev S1x2x1024 : Shape := ⟨3, ![1, 2, 1024]⟩
abbrev S1x1024x64 : Shape := ⟨3, ![1, 1024, 64]⟩
abbrev S1024x64 : Shape := ⟨2, ![1024, 64]⟩
abbrev S512x64 : Shape := ⟨2, ![512, 64]⟩
abbrev S1x64 : Shape := ⟨2, ![1, 64]⟩
abbrev S64 : Shape := ⟨1, ![64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩

abbrev nBuf : Space → Nat
  | .hbm => 23
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S2x1024x1024, .f32⟩
  | .hbm, ⟨3, _⟩ => ⟨S2x1024, .f32⟩
  | .hbm, ⟨4, _⟩ => ⟨S4x2x1024x1024, .f32⟩
  | .hbm, ⟨5, _⟩ => ⟨S4x2x1024, .f32⟩
  | .hbm, ⟨6, _⟩ => ⟨S2x1024x1024, .f32⟩
  | .hbm, ⟨7, _⟩ => ⟨S2x1024, .f32⟩
  | .hbm, ⟨8, _⟩ => ⟨S4x2x1024x1024, .f32⟩
  | .hbm, ⟨9, _⟩ => ⟨S4x2x1024, .f32⟩
  | .hbm, ⟨10, _⟩ => ⟨S4x1024x64, .f32⟩
  | .hbm, ⟨11, _⟩ => ⟨S4x64, .f32⟩
  | .hbm, ⟨12, _⟩ => ⟨S4x64x1, .f32⟩
  | .hbm, ⟨13, _⟩ => ⟨S4x1, .f32⟩
  | .hbm, ⟨14, _⟩ => ⟨S2048x1, .i32⟩
  | .hbm, ⟨15, _⟩ => ⟨S2x1024x1024, .bf16⟩
  | .hbm, ⟨16, _⟩ => ⟨S4x2x1024x1024, .bf16⟩
  | .hbm, ⟨17, _⟩ => ⟨S2x1024x1024, .bf16⟩
  | .hbm, ⟨18, _⟩ => ⟨S4x2x1024x1024, .bf16⟩
  | .hbm, ⟨19, _⟩ => ⟨S4x1024x64, .bf16⟩
  | .hbm, ⟨20, _⟩ => ⟨S4x64x1, .bf16⟩
  | .hbm, ⟨21, _⟩ => ⟨S2048x1024, .f32⟩
  | .hbm, ⟨22, _⟩ => ⟨S2048x1, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S2x1024x1024, .bf16⟩
  | .local _ .vmem, ⟨5, _⟩ => ⟨S2x1024, .f32⟩
  | .local _ .vmem, ⟨6, _⟩ => ⟨S4x2x1024x1024, .bf16⟩
  | .local _ .vmem, ⟨7, _⟩ => ⟨S4x2x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .i32⟩
  | .local _ .vmem, ⟨13, _⟩ => ⟨S512x1, .i32⟩
  | .local _ .vmem, ⟨14, _⟩ => ⟨S2x1024x1024, .bf16⟩
  | .local _ .vmem, ⟨15, _⟩ => ⟨S2x1024, .f32⟩
  | .local _ .vmem, ⟨16, _⟩ => ⟨S4x2x1024x1024, .bf16⟩
  | .local _ .vmem, ⟨17, _⟩ => ⟨S4x2x1024, .f32⟩
  | .local _ .vmem, ⟨18, _⟩ => ⟨S4x1024x64, .bf16⟩
  | .local _ .vmem, ⟨19, _⟩ => ⟨S4x64, .f32⟩
  | .local _ .vmem, ⟨20, _⟩ => ⟨S4x64x1, .bf16⟩
  | .local _ .vmem, ⟨21, _⟩ => ⟨S4x1, .f32⟩
  | .local _ .vmem, ⟨22, _⟩ => ⟨S512x1, .f32⟩
  | .local _ .vmem, ⟨23, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x2x1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x2x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x1024x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x64x1 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S2048_S2048x1 : S2048.ShapeCasts S2048x1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S2x1024x1024_S1x1024x1024_1_0_0 : ∀ a, (![1, 0, 0] : Fin 3 → Nat) a + S1x1024x1024.size a ≤ S2x1024x1024.size a
  inb_S2x1024_S1x1024_1_0 : ∀ a, (![1, 0] : Fin 2 → Nat) a + S1x1024.size a ≤ S2x1024.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S4x2x1024x1024_S1x2x1024x1024_0_0_0_0 : ∀ a, (![0, 0, 0, 0] : Fin 4 → Nat) a + S1x2x1024x1024.size a ≤ S4x2x1024x1024.size a
  h_S1x2x1024x1024 : 0 < S1x2x1024x1024.numel
  shapeCasts_S1x2x1024x1024_S2x1024x1024 : S1x2x1024x1024.ShapeCasts S2x1024x1024
  inb_S4x2x1024_S1x2x1024_0_0_0 : ∀ a, (![0, 0, 0] : Fin 3 → Nat) a + S1x2x1024.size a ≤ S4x2x1024.size a
  h_S1x2x1024 : 0 < S1x2x1024.numel
  shapeCasts_S1x2x1024_S2x1024 : S1x2x1024.ShapeCasts S2x1024
  slices_S2x1024x1024_o0_0_0_S1x1024x1024 : S2x1024x1024.Slices ![0, 0, 0] S1x1024x1024
  slices_S2x1024_o0_0_S1x1024 : S2x1024.Slices ![0, 0] S1x1024
  slices_S2x1024x1024_o1_0_0_S1x1024x1024 : S2x1024x1024.Slices ![1, 0, 0] S1x1024x1024
  slices_S2x1024_o1_0_S1x1024 : S2x1024.Slices ![1, 0] S1x1024
  natLt_1_32 : 1 < 32
  broadcasts_S512x1_S512x1024 : S512x1.Broadcasts S512x1024
  inb_S4x2x1024x1024_S1x2x1024x1024_1_0_0_0 : ∀ a, (![1, 0, 0, 0] : Fin 4 → Nat) a + S1x2x1024x1024.size a ≤ S4x2x1024x1024.size a
  inb_S4x2x1024_S1x2x1024_1_0_0 : ∀ a, (![1, 0, 0] : Fin 3 → Nat) a + S1x2x1024.size a ≤ S4x2x1024.size a
  inb_S4x2x1024x1024_S1x2x1024x1024_2_0_0_0 : ∀ a, (![2, 0, 0, 0] : Fin 4 → Nat) a + S1x2x1024x1024.size a ≤ S4x2x1024x1024.size a
  inb_S4x2x1024_S1x2x1024_2_0_0 : ∀ a, (![2, 0, 0] : Fin 3 → Nat) a + S1x2x1024.size a ≤ S4x2x1024.size a
  inb_S4x2x1024x1024_S1x2x1024x1024_3_0_0_0 : ∀ a, (![3, 0, 0, 0] : Fin 4 → Nat) a + S1x2x1024x1024.size a ≤ S4x2x1024x1024.size a
  inb_S4x2x1024_S1x2x1024_3_0_0 : ∀ a, (![3, 0, 0] : Fin 3 → Nat) a + S1x2x1024.size a ≤ S4x2x1024.size a
  shapeCasts_S512x1024_S512x1024 : S512x1024.ShapeCasts S512x1024
  inb_S4x1024x64_S1x1024x64_0_0_0 : ∀ a, (![0, 0, 0] : Fin 3 → Nat) a + S1x1024x64.size a ≤ S4x1024x64.size a
  h_S1x1024x64 : 0 < S1x1024x64.numel
  shapeCasts_S1x1024x64_S1024x64 : S1x1024x64.ShapeCasts S1024x64
  inb_S4x64_S1x64_0_0 : ∀ a, (![0, 0] : Fin 2 → Nat) a + S1x64.size a ≤ S4x64.size a
  h_S1x64 : 0 < S1x64.numel
  shapeCasts_S1x64_S64 : S1x64.ShapeCasts S64
  shapeCasts_S64_S1x64 : S64.ShapeCasts S1x64
  broadcasts_S1x64_S512x64 : S1x64.Broadcasts S512x64
  inb_S4x64x1_S1x64x1_0_0_0 : ∀ a, (![0, 0, 0] : Fin 3 → Nat) a + S1x64x1.size a ≤ S4x64x1.size a
  h_S1x64x1 : 0 < S1x64x1.numel
  shapeCasts_S1x64x1_S64x1 : S1x64x1.ShapeCasts S64x1
  inb_S4x1_S1x1_0_0 : ∀ a, (![0, 0] : Fin 2 → Nat) a + S1x1.size a ≤ S4x1.size a
  h_S1x1 : 0 < S1x1.numel
  shapeCasts_S1x1_S1 : S1x1.ShapeCasts S1
  shapeCasts_S1_S1x1 : S1.ShapeCasts S1x1
  broadcasts_S1x1_S512x1 : S1x1.Broadcasts S512x1
  inb_S4x1024x64_S1x1024x64_1_0_0 : ∀ a, (![1, 0, 0] : Fin 3 → Nat) a + S1x1024x64.size a ≤ S4x1024x64.size a
  inb_S4x64_S1x64_1_0 : ∀ a, (![1, 0] : Fin 2 → Nat) a + S1x64.size a ≤ S4x64.size a
  inb_S4x64x1_S1x64x1_1_0_0 : ∀ a, (![1, 0, 0] : Fin 3 → Nat) a + S1x64x1.size a ≤ S4x64x1.size a
  inb_S4x1_S1x1_1_0 : ∀ a, (![1, 0] : Fin 2 → Nat) a + S1x1.size a ≤ S4x1.size a
  inb_S4x1024x64_S1x1024x64_2_0_0 : ∀ a, (![2, 0, 0] : Fin 3 → Nat) a + S1x1024x64.size a ≤ S4x1024x64.size a
  inb_S4x64_S1x64_2_0 : ∀ a, (![2, 0] : Fin 2 → Nat) a + S1x64.size a ≤ S4x64.size a
  inb_S4x64x1_S1x64x1_2_0_0 : ∀ a, (![2, 0, 0] : Fin 3 → Nat) a + S1x64x1.size a ≤ S4x64x1.size a
  inb_S4x1_S1x1_2_0 : ∀ a, (![2, 0] : Fin 2 → Nat) a + S1x1.size a ≤ S4x1.size a
  inb_S4x1024x64_S1x1024x64_3_0_0 : ∀ a, (![3, 0, 0] : Fin 3 → Nat) a + S1x1024x64.size a ≤ S4x1024x64.size a
  inb_S4x64_S1x64_3_0 : ∀ a, (![3, 0] : Fin 2 → Nat) a + S1x64.size a ≤ S4x64.size a
  inb_S4x64x1_S1x64x1_3_0_0 : ∀ a, (![3, 0, 0] : Fin 3 → Nat) a + S1x64x1.size a ≤ S4x64x1.size a
  inb_S4x1_S1x1_3_0 : ∀ a, (![3, 0] : Fin 2 → Nat) a + S1x1.size a ≤ S4x1.size a
  dot_S512x1024_S1024x1024_S512x1024_1_0_0_1_n_n_wf : DotDims.WF S512x1024 S1024x1024 S512x1024 [1] [0] [0] [1] [] []
  dot_S512x1024_S1024x64_S512x64_1_0_0_1_n_n_wf : DotDims.WF S512x1024 S1024x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S2048x1.size a
  hwx0_1 : ∀ i : grid0.Coords, EltTy.bits .i32 = 32 ∨ (Rect.block (s := S2048x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024x1024.size a ≤ S2x1024x1024.size a
  hwx0_2 : ∀ i : grid0.Coords, EltTy.bits .bf16 = 32 ∨ (Rect.block (s := S2x1024x1024) S2x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x1024.size a
  hwx0_3 : ∀ i : grid0.Coords, EltTy.bits .f32 = 32 ∨ (Rect.block (s := S2x1024) S2x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x2x1024x1024.size a ≤ S4x2x1024x1024.size a
  hwx0_4 : ∀ i : grid0.Coords, EltTy.bits .bf16 = 32 ∨ (Rect.block (s := S4x2x1024x1024) S4x2x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x2x1024.size a ≤ S4x2x1024.size a
  hwx0_5 : ∀ i : grid0.Coords, EltTy.bits .f32 = 32 ∨ (Rect.block (s := S4x2x1024) S4x2x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S2048x1024.size a
  hwx0_6 : ∀ i : grid0.Coords, EltTy.bits .f32 = 32 ∨ (Rect.block (s := S2048x1024) S512x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S2048x1.size a
  hwx1_1 : ∀ i : grid1.Coords, EltTy.bits .i32 = 32 ∨ (Rect.block (s := S2048x1) S512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1024x1024.size a ≤ S2x1024x1024.size a
  hwx1_2 : ∀ i : grid1.Coords, EltTy.bits .bf16 = 32 ∨ (Rect.block (s := S2x1024x1024) S2x1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x1024.size a ≤ S2x1024.size a
  hwx1_3 : ∀ i : grid1.Coords, EltTy.bits .f32 = 32 ∨ (Rect.block (s := S2x1024) S2x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x2x1024x1024.size a ≤ S4x2x1024x1024.size a
  hwx1_4 : ∀ i : grid1.Coords, EltTy.bits .bf16 = 32 ∨ (Rect.block (s := S4x2x1024x1024) S4x2x1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x2x1024.size a ≤ S4x2x1024.size a
  hwx1_5 : ∀ i : grid1.Coords, EltTy.bits .f32 = 32 ∨ (Rect.block (s := S4x2x1024) S4x2x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x1024x64.size a ≤ S4x1024x64.size a
  hwx1_6 : ∀ i : grid1.Coords, EltTy.bits .bf16 = 32 ∨ (Rect.block (s := S4x1024x64) S4x1024x64.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x64.size a ≤ S4x64.size a
  hwx1_7 : ∀ i : grid1.Coords, EltTy.bits .f32 = 32 ∨ (Rect.block (s := S4x64) S4x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x64x1.size a ≤ S4x64x1.size a
  hwx1_8 : ∀ i : grid1.Coords, EltTy.bits .bf16 = 32 ∨ (Rect.block (s := S4x64x1) S4x64x1.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4x1.size a ≤ S4x1.size a
  hwx1_9 : ∀ i : grid1.Coords, EltTy.bits .f32 = 32 ∨ (Rect.block (s := S4x1) S4x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1.size a ≤ S2048x1.size a
  hwx1_10 : ∀ i : grid1.Coords, EltTy.bits .f32 = 32 ∨ (Rect.block (s := S2048x1) S512x1.size (cc1_transform_10 i) (hinb1_10 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x2x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x2x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v7) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2x1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S2x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S4x2x1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S4x2x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S4x1024x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S4x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6) S4x64x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S4x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8) S512x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S2048 : Shape := ⟨1, ![2048]⟩
abbrev S2x1024x1024 : Shape := ⟨3, ![2, 1024, 1024]⟩
abbrev S2x1024 : Shape := ⟨2, ![2, 1024]⟩
abbrev S4x2x1024x1024 : Shape := ⟨4, ![4, 2, 1024, 1024]⟩
abbrev S4x2x1024 : Shape := ⟨3, ![4, 2, 1024]⟩
abbrev S4x1024x64 : Shape := ⟨3, ![4, 1024, 64]⟩
abbrev S4x64 : Shape := ⟨2, ![4, 64]⟩
abbrev S4x64x1 : Shape := ⟨3, ![4, 64, 1]⟩
abbrev S4x1 : Shape := ⟨2, ![4, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048x1 : Shape := ⟨2, ![2048, 1]⟩
abbrev S1x4 : Shape := ⟨2, ![1, 4]⟩
abbrev S2048x4 : Shape := ⟨2, ![2048, 4]⟩
abbrev S1x1x1024x1024 : Shape := ⟨4, ![1, 1, 1024, 1024]⟩
abbrev S1x1x1024 : Shape := ⟨3, ![1, 1, 1024]⟩
abbrev S1x1024x64 : Shape := ⟨3, ![1, 1024, 64]⟩
abbrev S1024x64 : Shape := ⟨2, ![1024, 64]⟩
abbrev S1x64 : Shape := ⟨2, ![1, 64]⟩
abbrev S64 : Shape := ⟨1, ![64]⟩
abbrev S2048x64 : Shape := ⟨2, ![2048, 64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩

abbrev nBuf : Space → Nat
  | .hbm => 350
  | .vmem => 0
  | .smem => 0
  | _ => 0

abbrev hbmTy0_0 (i : Nat) : BufTy := match i % 128 with
  | 0 => ⟨S2048x1024, .f32⟩
  | 1 => ⟨S2048, .i32⟩
  | 2 => ⟨S2x1024x1024, .f32⟩
  | 3 => ⟨S2x1024, .f32⟩
  | 4 => ⟨S4x2x1024x1024, .f32⟩
  | 5 => ⟨S4x2x1024, .f32⟩
  | 6 => ⟨S2x1024x1024, .f32⟩
  | 7 => ⟨S2x1024, .f32⟩
  | 8 => ⟨S4x2x1024x1024, .f32⟩
  | 9 => ⟨S4x2x1024, .f32⟩
  | 10 => ⟨S4x1024x64, .f32⟩
  | 11 => ⟨S4x64, .f32⟩
  | 12 => ⟨S4x64x1, .f32⟩
  | 13 => ⟨S4x1, .f32⟩
  | 14 => ⟨S1x1024x1024, .f32⟩
  | 15 => ⟨S1024x1024, .f32⟩
  | 16 => ⟨S1x1024, .f32⟩
  | 17 => ⟨S1024, .f32⟩
  | 18 => ⟨S2048x1024, .f32⟩
  | 19 => ⟨S1x1024, .f32⟩
  | 20 => ⟨S2048x1024, .f32⟩
  | 21 => ⟨S2048x1024, .f32⟩
  | 22 => ⟨S_, .f32⟩
  | 23 => ⟨S2048x1024, .f32⟩
  | 24 => ⟨S2048x1024, .f32⟩
  | 25 => ⟨S1x1024x1024, .f32⟩
  | 26 => ⟨S1024x1024, .f32⟩
  | 27 => ⟨S1x1024, .f32⟩
  | 28 => ⟨S1024, .f32⟩
  | 29 => ⟨S2048x1024, .f32⟩
  | 30 => ⟨S1x1024, .f32⟩
  | 31 => ⟨S2048x1024, .f32⟩
  | 32 => ⟨S2048x1024, .f32⟩
  | 33 => ⟨S2048x1, .i32⟩
  | 34 => ⟨S1x4, .i32⟩
  | 35 => ⟨S2048x4, .i32⟩
  | 36 => ⟨S2048x4, .i32⟩
  | 37 => ⟨S2048x4, .i1⟩
  | 38 => ⟨S2048x4, .f32⟩
  | 39 => ⟨S_, .f32⟩
  | 40 => ⟨S2048x1024, .f32⟩
  | 41 => ⟨S_, .f32⟩
  | 42 => ⟨S2048x1024, .f32⟩
  | 43 => ⟨S2048x1024, .f32⟩
  | 44 => ⟨S1x1x1024x1024, .f32⟩
  | 45 => ⟨S1024x1024, .f32⟩
  | 46 => ⟨S1x1x1024, .f32⟩
  | 47 => ⟨S1024, .f32⟩
  | 48 => ⟨S2048x1024, .f32⟩
  | 49 => ⟨S1x1024, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S1x1x1024x1024, .f32⟩
  | 56 => ⟨S1024x1024, .f32⟩
  | 57 => ⟨S1x1x1024, .f32⟩
  | 58 => ⟨S1024, .f32⟩
  | 59 => ⟨S2048x1024, .f32⟩
  | 60 => ⟨S1x1024, .f32⟩
  | 61 => ⟨S2048x1024, .f32⟩
  | 62 => ⟨S2048x1024, .f32⟩
  | 63 => ⟨S2048x1, .f32⟩
  | 64 => ⟨S2048x1024, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S1x1x1024x1024, .f32⟩
  | 71 => ⟨S1024x1024, .f32⟩
  | 72 => ⟨S1x1x1024, .f32⟩
  | 73 => ⟨S1024, .f32⟩
  | 74 => ⟨S2048x1024, .f32⟩
  | 75 => ⟨S1x1024, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S1x1x1024x1024, .f32⟩
  | 82 => ⟨S1024x1024, .f32⟩
  | 83 => ⟨S1x1x1024, .f32⟩
  | 84 => ⟨S1024, .f32⟩
  | 85 => ⟨S2048x1024, .f32⟩
  | 86 => ⟨S1x1024, .f32⟩
  | 87 => ⟨S2048x1024, .f32⟩
  | 88 => ⟨S2048x1024, .f32⟩
  | 89 => ⟨S2048x1, .f32⟩
  | 90 => ⟨S2048x1024, .f32⟩
  | 91 => ⟨S2048x1024, .f32⟩
  | 92 => ⟨S2048x1024, .f32⟩
  | 93 => ⟨S_, .f32⟩
  | 94 => ⟨S2048x1024, .f32⟩
  | 95 => ⟨S2048x1024, .f32⟩
  | 96 => ⟨S1x1x1024x1024, .f32⟩
  | 97 => ⟨S1024x1024, .f32⟩
  | 98 => ⟨S1x1x1024, .f32⟩
  | 99 => ⟨S1024, .f32⟩
  | 100 => ⟨S2048x1024, .f32⟩
  | 101 => ⟨S1x1024, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S1x1x1024x1024, .f32⟩
  | 108 => ⟨S1024x1024, .f32⟩
  | 109 => ⟨S1x1x1024, .f32⟩
  | 110 => ⟨S1024, .f32⟩
  | 111 => ⟨S2048x1024, .f32⟩
  | 112 => ⟨S1x1024, .f32⟩
  | 113 => ⟨S2048x1024, .f32⟩
  | 114 => ⟨S2048x1024, .f32⟩
  | 115 => ⟨S2048x1, .f32⟩
  | 116 => ⟨S2048x1024, .f32⟩
  | 117 => ⟨S2048x1024, .f32⟩
  | 118 => ⟨S2048x1024, .f32⟩
  | 119 => ⟨S_, .f32⟩
  | 120 => ⟨S2048x1024, .f32⟩
  | 121 => ⟨S2048x1024, .f32⟩
  | 122 => ⟨S1x1x1024x1024, .f32⟩
  | 123 => ⟨S1024x1024, .f32⟩
  | 124 => ⟨S1x1x1024, .f32⟩
  | 125 => ⟨S1024, .f32⟩
  | 126 => ⟨S2048x1024, .f32⟩
  | 127 => ⟨S1x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S1x1x1024x1024, .f32⟩
  | 6 => ⟨S1024x1024, .f32⟩
  | 7 => ⟨S1x1x1024, .f32⟩
  | 8 => ⟨S1024, .f32⟩
  | 9 => ⟨S2048x1024, .f32⟩
  | 10 => ⟨S1x1024, .f32⟩
  | 11 => ⟨S2048x1024, .f32⟩
  | 12 => ⟨S2048x1024, .f32⟩
  | 13 => ⟨S2048x1, .f32⟩
  | 14 => ⟨S2048x1024, .f32⟩
  | 15 => ⟨S2048x1024, .f32⟩
  | 16 => ⟨S2048x1024, .f32⟩
  | 17 => ⟨S1x1024x1024, .f32⟩
  | 18 => ⟨S1024x1024, .f32⟩
  | 19 => ⟨S1x1024, .f32⟩
  | 20 => ⟨S1024, .f32⟩
  | 21 => ⟨S2048x1024, .f32⟩
  | 22 => ⟨S1x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S1x1024x1024, .f32⟩
  | 29 => ⟨S1024x1024, .f32⟩
  | 30 => ⟨S1x1024, .f32⟩
  | 31 => ⟨S1024, .f32⟩
  | 32 => ⟨S2048x1024, .f32⟩
  | 33 => ⟨S1x1024, .f32⟩
  | 34 => ⟨S2048x1024, .f32⟩
  | 35 => ⟨S2048x1024, .f32⟩
  | 36 => ⟨S_, .f32⟩
  | 37 => ⟨S2048x1, .f32⟩
  | 38 => ⟨S_, .f32⟩
  | 39 => ⟨S2048x1024, .f32⟩
  | 40 => ⟨S2048x1024, .f32⟩
  | 41 => ⟨S1x1x1024x1024, .f32⟩
  | 42 => ⟨S1024x1024, .f32⟩
  | 43 => ⟨S1x1x1024, .f32⟩
  | 44 => ⟨S1024, .f32⟩
  | 45 => ⟨S2048x1024, .f32⟩
  | 46 => ⟨S1x1024, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S1x1x1024x1024, .f32⟩
  | 53 => ⟨S1024x1024, .f32⟩
  | 54 => ⟨S1x1x1024, .f32⟩
  | 55 => ⟨S1024, .f32⟩
  | 56 => ⟨S2048x1024, .f32⟩
  | 57 => ⟨S1x1024, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S1x1024x64, .f32⟩
  | 64 => ⟨S1024x64, .f32⟩
  | 65 => ⟨S1x64, .f32⟩
  | 66 => ⟨S64, .f32⟩
  | 67 => ⟨S2048x64, .f32⟩
  | 68 => ⟨S1x64, .f32⟩
  | 69 => ⟨S2048x64, .f32⟩
  | 70 => ⟨S2048x64, .f32⟩
  | 71 => ⟨S1x64x1, .f32⟩
  | 72 => ⟨S64x1, .f32⟩
  | 73 => ⟨S1x1, .f32⟩
  | 74 => ⟨S1, .f32⟩
  | 75 => ⟨S2048x1, .f32⟩
  | 76 => ⟨S1x1, .f32⟩
  | 77 => ⟨S2048x1, .f32⟩
  | 78 => ⟨S2048x1, .f32⟩
  | 79 => ⟨S2048x1, .f32⟩
  | 80 => ⟨S2048x1, .f32⟩
  | 81 => ⟨S2048x1, .f32⟩
  | 82 => ⟨S_, .f32⟩
  | 83 => ⟨S2048x1024, .f32⟩
  | 84 => ⟨S2048x1024, .f32⟩
  | 85 => ⟨S1x1x1024x1024, .f32⟩
  | 86 => ⟨S1024x1024, .f32⟩
  | 87 => ⟨S1x1x1024, .f32⟩
  | 88 => ⟨S1024, .f32⟩
  | 89 => ⟨S2048x1024, .f32⟩
  | 90 => ⟨S1x1024, .f32⟩
  | 91 => ⟨S2048x1024, .f32⟩
  | 92 => ⟨S2048x1024, .f32⟩
  | 93 => ⟨S_, .f32⟩
  | 94 => ⟨S2048x1024, .f32⟩
  | 95 => ⟨S2048x1024, .f32⟩
  | 96 => ⟨S1x1x1024x1024, .f32⟩
  | 97 => ⟨S1024x1024, .f32⟩
  | 98 => ⟨S1x1x1024, .f32⟩
  | 99 => ⟨S1024, .f32⟩
  | 100 => ⟨S2048x1024, .f32⟩
  | 101 => ⟨S1x1024, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S1x1024x64, .f32⟩
  | 108 => ⟨S1024x64, .f32⟩
  | 109 => ⟨S1x64, .f32⟩
  | 110 => ⟨S64, .f32⟩
  | 111 => ⟨S2048x64, .f32⟩
  | 112 => ⟨S1x64, .f32⟩
  | 113 => ⟨S2048x64, .f32⟩
  | 114 => ⟨S2048x64, .f32⟩
  | 115 => ⟨S1x64x1, .f32⟩
  | 116 => ⟨S64x1, .f32⟩
  | 117 => ⟨S1x1, .f32⟩
  | 118 => ⟨S1, .f32⟩
  | 119 => ⟨S2048x1, .f32⟩
  | 120 => ⟨S1x1, .f32⟩
  | 121 => ⟨S2048x1, .f32⟩
  | 122 => ⟨S2048x1, .f32⟩
  | 123 => ⟨S2048x1, .f32⟩
  | 124 => ⟨S2048x1, .f32⟩
  | 125 => ⟨S2048x1, .f32⟩
  | 126 => ⟨S_, .f32⟩
  | 127 => ⟨S2048x1024, .f32⟩
  | _ => ⟨S2048x1024, .f32⟩

abbrev hbmTy0_2 (i : Nat) : BufTy := match i % 128 with
  | 0 => ⟨S2048x1024, .f32⟩
  | 1 => ⟨S1x1x1024x1024, .f32⟩
  | 2 => ⟨S1024x1024, .f32⟩
  | 3 => ⟨S1x1x1024, .f32⟩
  | 4 => ⟨S1024, .f32⟩
  | 5 => ⟨S2048x1024, .f32⟩
  | 6 => ⟨S1x1024, .f32⟩
  | 7 => ⟨S2048x1024, .f32⟩
  | 8 => ⟨S2048x1024, .f32⟩
  | 9 => ⟨S_, .f32⟩
  | 10 => ⟨S2048x1024, .f32⟩
  | 11 => ⟨S2048x1024, .f32⟩
  | 12 => ⟨S1x1x1024x1024, .f32⟩
  | 13 => ⟨S1024x1024, .f32⟩
  | 14 => ⟨S1x1x1024, .f32⟩
  | 15 => ⟨S1024, .f32⟩
  | 16 => ⟨S2048x1024, .f32⟩
  | 17 => ⟨S1x1024, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S1x1024x64, .f32⟩
  | 24 => ⟨S1024x64, .f32⟩
  | 25 => ⟨S1x64, .f32⟩
  | 26 => ⟨S64, .f32⟩
  | 27 => ⟨S2048x64, .f32⟩
  | 28 => ⟨S1x64, .f32⟩
  | 29 => ⟨S2048x64, .f32⟩
  | 30 => ⟨S2048x64, .f32⟩
  | 31 => ⟨S1x64x1, .f32⟩
  | 32 => ⟨S64x1, .f32⟩
  | 33 => ⟨S1x1, .f32⟩
  | 34 => ⟨S1, .f32⟩
  | 35 => ⟨S2048x1, .f32⟩
  | 36 => ⟨S1x1, .f32⟩
  | 37 => ⟨S2048x1, .f32⟩
  | 38 => ⟨S2048x1, .f32⟩
  | 39 => ⟨S2048x1, .f32⟩
  | 40 => ⟨S2048x1, .f32⟩
  | 41 => ⟨S2048x1, .f32⟩
  | 42 => ⟨S_, .f32⟩
  | 43 => ⟨S2048x1024, .f32⟩
  | 44 => ⟨S2048x1024, .f32⟩
  | 45 => ⟨S1x1x1024x1024, .f32⟩
  | 46 => ⟨S1024x1024, .f32⟩
  | 47 => ⟨S1x1x1024, .f32⟩
  | 48 => ⟨S1024, .f32⟩
  | 49 => ⟨S2048x1024, .f32⟩
  | 50 => ⟨S1x1024, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S1x1x1024x1024, .f32⟩
  | 57 => ⟨S1024x1024, .f32⟩
  | 58 => ⟨S1x1x1024, .f32⟩
  | 59 => ⟨S1024, .f32⟩
  | 60 => ⟨S2048x1024, .f32⟩
  | 61 => ⟨S1x1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S1x1024x64, .f32⟩
  | 68 => ⟨S1024x64, .f32⟩
  | 69 => ⟨S1x64, .f32⟩
  | 70 => ⟨S64, .f32⟩
  | 71 => ⟨S2048x64, .f32⟩
  | 72 => ⟨S1x64, .f32⟩
  | 73 => ⟨S2048x64, .f32⟩
  | 74 => ⟨S2048x64, .f32⟩
  | 75 => ⟨S1x64x1, .f32⟩
  | 76 => ⟨S64x1, .f32⟩
  | 77 => ⟨S1x1, .f32⟩
  | 78 => ⟨S1, .f32⟩
  | 79 => ⟨S2048x1, .f32⟩
  | 80 => ⟨S1x1, .f32⟩
  | 81 => ⟨S2048x1, .f32⟩
  | 82 => ⟨S2048x1, .f32⟩
  | 83 => ⟨S2048x1, .f32⟩
  | 84 => ⟨S2048x1, .f32⟩
  | 85 => ⟨S2048x1, .f32⟩
  | 86 => ⟨S2048x1, .f32⟩
  | 87 => ⟨S2048x1, .f32⟩
  | 88 => ⟨S_, .f32⟩
  | 89 => ⟨S2048x1, .f32⟩
  | 90 => ⟨S2048x1, .f32⟩
  | 91 => ⟨S_, .f32⟩
  | 92 => ⟨S2048x1, .f32⟩
  | 93 => ⟨S2048x1, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_call2_cst : Ref sig .tc := ⟨.hbm, 41, rfl⟩
abbrev main_call2_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call3_cst : Ref sig .tc := ⟨.hbm, 52, rfl⟩
abbrev main_call3_v0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call4_cst : Ref sig .tc := ⟨.hbm, 67, rfl⟩
abbrev main_call4_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call5_cst : Ref sig .tc := ⟨.hbm, 78, rfl⟩
abbrev main_call5_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call6_cst : Ref sig .tc := ⟨.hbm, 93, rfl⟩
abbrev main_call6_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call7_cst : Ref sig .tc := ⟨.hbm, 104, rfl⟩
abbrev main_call7_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call8_cst : Ref sig .tc := ⟨.hbm, 119, rfl⟩
abbrev main_call8_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_call9_cst : Ref sig .tc := ⟨.hbm, 130, rfl⟩
abbrev main_call9_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_call10_cst : Ref sig .tc := ⟨.hbm, 153, rfl⟩
abbrev main_call10_v0 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_0 : Ref sig .tc := ⟨.hbm, 164, rfl⟩
abbrev main_v124 : Ref sig .tc := ⟨.hbm, 165, rfl⟩
abbrev main_call11_cst : Ref sig .tc := ⟨.hbm, 166, rfl⟩
abbrev main_call11_v0 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_call12_cst : Ref sig .tc := ⟨.hbm, 177, rfl⟩
abbrev main_call12_v0 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_call13_cst : Ref sig .tc := ⟨.hbm, 188, rfl⟩
abbrev main_call13_v0 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_call14_cst : Ref sig .tc := ⟨.hbm, 210, rfl⟩
abbrev main_call14_v0 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_call15_cst : Ref sig .tc := ⟨.hbm, 221, rfl⟩
abbrev main_call15_v0 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_call16_cst : Ref sig .tc := ⟨.hbm, 232, rfl⟩
abbrev main_call16_v0 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_call17_cst : Ref sig .tc := ⟨.hbm, 254, rfl⟩
abbrev main_call17_v0 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_call18_cst : Ref sig .tc := ⟨.hbm, 265, rfl⟩
abbrev main_call18_v0 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_call19_cst : Ref sig .tc := ⟨.hbm, 276, rfl⟩
abbrev main_call19_v0 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_call20_cst : Ref sig .tc := ⟨.hbm, 298, rfl⟩
abbrev main_call20_v0 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_call21_cst : Ref sig .tc := ⟨.hbm, 309, rfl⟩
abbrev main_call21_v0 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_call22_cst : Ref sig .tc := ⟨.hbm, 320, rfl⟩
abbrev main_call22_v0 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_cst_1 : Ref sig .tc := ⟨.hbm, 344, rfl⟩
abbrev main_v279 : Ref sig .tc := ⟨.hbm, 345, rfl⟩
abbrev main_v280 : Ref sig .tc := ⟨.hbm, 346, rfl⟩
abbrev main_cst_2 : Ref sig .tc := ⟨.hbm, 347, rfl⟩
abbrev main_v281 : Ref sig .tc := ⟨.hbm, 348, rfl⟩
abbrev main_v282 : Ref sig .tc := ⟨.hbm, 349, rfl⟩

abbrev nD : Nat := 1
abbrev τ : Topo := Topo.v7x

variable {F : FTy → Type} [FloatOps F]

class Facts₀ : Prop where
  slices_S2x1024x1024_S1x1024x1024_0_0_0 : S2x1024x1024.Slices ![0, 0, 0] S1x1024x1024
  shapeCasts_S1x1024x1024_S1024x1024 : S1x1024x1024.ShapeCasts S1024x1024
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  slices_S2x1024x1024_S1x1024x1024_1_0_0 : S2x1024x1024.Slices ![1, 0, 0] S1x1024x1024
  slices_S2x1024_S1x1024_1_0 : S2x1024.Slices ![1, 0] S1x1024
  bcast_S2048_S2048x1_0 : S2048.BroadcastsInDim S2048x1 (![0] : Fin 1 → Fin S2048x1.rank)
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  slices_S4x2x1024x1024_S1x1x1024x1024_0_0_0_0 : S4x2x1024x1024.Slices ![0, 0, 0, 0] S1x1x1024x1024
  shapeCasts_S1x1x1024x1024_S1024x1024 : S1x1x1024x1024.ShapeCasts S1024x1024
  slices_S4x2x1024_S1x1x1024_0_0_0 : S4x2x1024.Slices ![0, 0, 0] S1x1x1024
  shapeCasts_S1x1x1024_S1024 : S1x1x1024.ShapeCasts S1024
  slices_S4x2x1024x1024_S1x1x1024x1024_0_1_0_0 : S4x2x1024x1024.Slices ![0, 1, 0, 0] S1x1x1024x1024
  slices_S4x2x1024_S1x1x1024_0_1_0 : S4x2x1024.Slices ![0, 1, 0] S1x1x1024
  slices_S2048x4_S2048x1_0_0 : S2048x4.Slices ![0, 0] S2048x1
  bcast_S2048x1_S2048x1024_0_1 : S2048x1.BroadcastsInDim S2048x1024 (![0, 1] : Fin 2 → Fin S2048x1024.rank)
  slices_S4x2x1024x1024_S1x1x1024x1024_1_0_0_0 : S4x2x1024x1024.Slices ![1, 0, 0, 0] S1x1x1024x1024
  slices_S4x2x1024_S1x1x1024_1_0_0 : S4x2x1024.Slices ![1, 0, 0] S1x1x1024
  slices_S4x2x1024x1024_S1x1x1024x1024_1_1_0_0 : S4x2x1024x1024.Slices ![1, 1, 0, 0] S1x1x1024x1024
  slices_S4x2x1024_S1x1x1024_1_1_0 : S4x2x1024.Slices ![1, 1, 0] S1x1x1024
  slices_S2048x4_S2048x1_0_1 : S2048x4.Slices ![0, 1] S2048x1
  slices_S4x2x1024x1024_S1x1x1024x1024_2_0_0_0 : S4x2x1024x1024.Slices ![2, 0, 0, 0] S1x1x1024x1024
  slices_S4x2x1024_S1x1x1024_2_0_0 : S4x2x1024.Slices ![2, 0, 0] S1x1x1024
  slices_S4x2x1024x1024_S1x1x1024x1024_2_1_0_0 : S4x2x1024x1024.Slices ![2, 1, 0, 0] S1x1x1024x1024
  slices_S4x2x1024_S1x1x1024_2_1_0 : S4x2x1024.Slices ![2, 1, 0] S1x1x1024
  slices_S2048x4_S2048x1_0_2 : S2048x4.Slices ![0, 2] S2048x1
  slices_S4x2x1024x1024_S1x1x1024x1024_3_0_0_0 : S4x2x1024x1024.Slices ![3, 0, 0, 0] S1x1x1024x1024
  slices_S4x2x1024_S1x1x1024_3_0_0 : S4x2x1024.Slices ![3, 0, 0] S1x1x1024
  slices_S4x2x1024x1024_S1x1x1024x1024_3_1_0_0 : S4x2x1024x1024.Slices ![3, 1, 0, 0] S1x1x1024x1024
  slices_S4x2x1024_S1x1x1024_3_1_0 : S4x2x1024.Slices ![3, 1, 0] S1x1x1024
  slices_S2048x4_S2048x1_0_3 : S2048x4.Slices ![0, 3] S2048x1
  bcast_S_S2048x1 : S_.BroadcastsInDim S2048x1 (![] : Fin 0 → Fin S2048x1.rank)
  slices_S4x1024x64_S1x1024x64_0_0_0 : S4x1024x64.Slices ![0, 0, 0] S1x1024x64
  shapeCasts_S1x1024x64_S1024x64 : S1x1024x64.ShapeCasts S1024x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  slices_S4x64x1_S1x64x1_0_0_0 : S4x64x1.Slices ![0, 0, 0] S1x64x1
  shapeCasts_S1x64x1_S64x1 : S1x64x1.ShapeCasts S64x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  slices_S4x1024x64_S1x1024x64_1_0_0 : S4x1024x64.Slices ![1, 0, 0] S1x1024x64
  slices_S4x64_S1x64_1_0 : S4x64.Slices ![1, 0] S1x64
  slices_S4x64x1_S1x64x1_1_0_0 : S4x64x1.Slices ![1, 0, 0] S1x64x1
  slices_S4x1_S1x1_1_0 : S4x1.Slices ![1, 0] S1x1
  slices_S4x1024x64_S1x1024x64_2_0_0 : S4x1024x64.Slices ![2, 0, 0] S1x1024x64
  slices_S4x64_S1x64_2_0 : S4x64.Slices ![2, 0] S1x64
  slices_S4x64x1_S1x64x1_2_0_0 : S4x64x1.Slices ![2, 0, 0] S1x64x1
  slices_S4x1_S1x1_2_0 : S4x1.Slices ![2, 0] S1x1
  slices_S4x1024x64_S1x1024x64_3_0_0 : S4x1024x64.Slices ![3, 0, 0] S1x1024x64
  slices_S4x64_S1x64_3_0 : S4x64.Slices ![3, 0] S1x64
  slices_S4x64x1_S1x64x1_3_0_0 : S4x64x1.Slices ![3, 0, 0] S1x64x1
  slices_S4x1_S1x1_3_0 : S4x1.Slices ![3, 0] S1x1
  dot_S2048x1024_S1024x1024_S2048x1024_1_0_0_1_n_n_wf : DotDims.WF S2048x1024 S1024x1024 S2048x1024 [1] [0] [0] [1] [] []
  dot_S2048x1024_S1024x64_S2048x64_1_0_0_1_n_n_wf : DotDims.WF S2048x1024 S1024x64 S2048x64 [1] [0] [0] [1] [] []
  dot_S2048x64_S64x1_S2048x1_1_0_0_1_n_n_wf : DotDims.WF S2048x64 S64x1 S2048x1 [1] [0] [0] [1] [] []

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.KernelRun.lean ====
/-
  The kernel program's run with its result named.

  The kernel program is a few host operations (a reshape of the task vector and changes of float format of the
  weights), then two launches over four blocks of 512 rows each: the first leaves the intermediate activations, the
  second reads them and leaves the result.  Every weakly fair execution terminates without a fault; at the end the
  result buffer holds what the second launch's write-backs leave in its output array, and the argument arrays are as
  launched.
-/
import proofs.«146362_j55078660603958_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer then holds the
    contents the second launch leaves in it, and each argument array is unchanged. -/
theorem run_main : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩)

/-- The result buffer is the second launch's output array after all four of its write-backs. -/
theorem result_eq (c : Dev nD) :
    W3 m ρ c (Proc.devRef .tc main_v8) = (dat1 (V2 m ρ) c).arrAt 10 cfg1.N := W3_arr m ρ c 10

/-- The second launch reads the first launch's output array after all four of its write-backs. -/
theorem mid_eq (c : Dev nD) :
    V2 m ρ c main_v7 = (dat0 (V1 m ρ) c).arrAt 6 cfg0.N := W2_arr m ρ c 6

end Cert.KernelIdeal.RunValue

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«146362_j55078660603958_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«146362_j55078660603958_1_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.LibStackedLayers.lean ====
/-
  Layers cut out of stacked weights, read two ways.

  A load through a unit-stride rectangle of an array is the slice of the array at the rectangle's offsets.
  Task t's layer l of a stack [4, 2, K, C] can be taken in one step — the slice [1, 1, K, C] at (t, l) with the two unit
  axes dropped — or in two: the slab [1, 2, K, C] at t with its unit axis dropped, then the slice [1, K, C] at l of
  that with its unit axis dropped.  Both read entry (k, c) at entry (t, l, k, c) of the stack; the same for the bias
  stacks [4, 2, C].
-/
import Idealize.ShloMosaic.PureOps.Ideal
import Idealize.ShloMosaic.Lib.ValueIdx
import Idealize.ShloMosaic.Lib.Pipeline.Value

noncomputable section

namespace Cert.Layout

open Idealize.ShloMosaic Idealize.ShloMosaic.ValueIdx

/-- A load through a unit-stride rectangle reads the slice at its offsets. -/
theorem ld_unit {Val : EltTy → Type} {S : Shape} {e : EltTy} (X : S.Idx → Val e) (off size : Fin S.rank → Nat)
    (inb : ∀ a, off a + size a ≤ S.size a) (hs : S.Slices off ⟨S.rank, size⟩) :
    View.ld X (Rect.unit off size inb) = extractStridedSlice ⟨S.rank, size⟩ off X hs := by
  funext j
  unfold extractStridedSlice
  show X ((Rect.unit off size inb).idx j) = _
  refine congrArg X (funext fun a => Fin.ext ?_)
  rw [LoadRect.idx_apply]
  show off a + 1 * (j a).val = off a + (j a).val
  rw [Nat.one_mul]

variable {T L K C : Nat}

/-- The two-step reading of task t's layer l, at entry (k, c): entry (t, l, k, c) of the stack. -/
theorem taskW_twoStep_apply {α : Type} (W : (⟨4, ![T, L, K, C]⟩ : Shape).Idx → α) (t l : Nat) (ht : t < T) (hl : l < L)
    (h1 : (⟨4, ![T, L, K, C]⟩ : Shape).Slices ![t, 0, 0, 0] ⟨4, ![1, L, K, C]⟩)
    (h2 : (⟨4, ![1, L, K, C]⟩ : Shape).ShapeCasts ⟨3, ![L, K, C]⟩)
    (h3 : (⟨3, ![L, K, C]⟩ : Shape).Slices ![l, 0, 0] ⟨3, ![1, K, C]⟩)
    (h4 : (⟨3, ![1, K, C]⟩ : Shape).ShapeCasts ⟨2, ![K, C]⟩) (k : Fin K) (c : Fin C) :
    shapeCast ⟨2, ![K, C]⟩ (extractStridedSlice ⟨3, ![1, K, C]⟩ ![l, 0, 0]
      (shapeCast ⟨3, ![L, K, C]⟩ (extractStridedSlice ⟨4, ![1, L, K, C]⟩ ![t, 0, 0, 0] W h1) h2) h3) h4 (ix2 k c)
      = W (ix4 ⟨t, ht⟩ ⟨l, hl⟩ k c) := by
  rw [shapeCast_apply _ h4 (ix2 k c) (ix3 (0 : Fin 1) k c) (by
      rw [Shape.rowMajor_val_three, Shape.rowMajor_val_two]
      show (0 * K + k.val) * C + c.val = k.val * C + c.val
      simp only [Nat.zero_mul, Nat.zero_add, Nat.add_zero]),
    extractStridedSlice_apply _ _ h3 (ix3 (0 : Fin 1) k c) (ix3 (⟨l, hl⟩ : Fin L) k c) (fun a => by
      match a with
      | ⟨0, _⟩ => rfl
      | ⟨1, _⟩ => exact (Nat.zero_add _).symm
      | ⟨2, _⟩ => exact (Nat.zero_add _).symm),
    shapeCast_apply _ h2 (ix3 (⟨l, hl⟩ : Fin L) k c) (ix4 (0 : Fin 1) (⟨l, hl⟩ : Fin L) k c) (by
      rw [Shape.rowMajor_val_four, Shape.rowMajor_val_three]
      show ((0 * L + l) * K + k.val) * C + c.val = (l * K + k.val) * C + c.val
      simp only [Nat.zero_mul, Nat.zero_add, Nat.add_zero]),
    extractStridedSlice_apply _ _ h1 (ix4 (0 : Fin 1) (⟨l, hl⟩ : Fin L) k c) (ix4 (⟨t, ht⟩ : Fin T) (⟨l, hl⟩ : Fin L) k c) (fun a => by
      match a with
      | ⟨0, _⟩ => rfl
      | ⟨1, _⟩ => exact (Nat.zero_add _).symm
      | ⟨2, _⟩ => exact (Nat.zero_add _).symm
      | ⟨3, _⟩ => exact (Nat.zero_add _).symm)]

/-- The one-step reading of task t's layer l, at entry (k, c): entry (t, l, k, c) of the stack. -/
theorem taskW_oneStep_apply {α : Type} (W : (⟨4, ![T, L, K, C]⟩ : Shape).Idx → α) (t l : Nat) (ht : t < T) (hl : l < L)
    (h5 : (⟨4, ![T, L, K, C]⟩ : Shape).Slices ![t, l, 0, 0] ⟨4, ![1, 1, K, C]⟩)
    (h6 : (⟨4, ![1, 1, K, C]⟩ : Shape).ShapeCasts ⟨2, ![K, C]⟩) (k : Fin K) (c : Fin C) :
    shapeCast ⟨2, ![K, C]⟩ (extractStridedSlice ⟨4, ![1, 1, K, C]⟩ ![t, l, 0, 0] W h5) h6 (ix2 k c)
      = W (ix4 ⟨t, ht⟩ ⟨l, hl⟩ k c) := by
  rw [shapeCast_apply _ h6 (ix2 k c) (ix4 (0 : Fin 1) (0 : Fin 1) k c) (by
      rw [Shape.rowMajor_val_four, Shape.rowMajor_val_two]
      show ((0 * 1 + 0) * K + k.val) * C + c.val = k.val * C + c.val
      simp only [Nat.zero_mul, Nat.zero_add, Nat.add_zero]),
    extractStridedSlice_apply _ _ h5 (ix4 (0 : Fin 1) (0 : Fin 1) k c) (ix4 (⟨t, ht⟩ : Fin T) (⟨l, hl⟩ : Fin L) k c) (fun a => by
      match a with
      | ⟨0, _⟩ => rfl
      | ⟨1, _⟩ => rfl
      | ⟨2, _⟩ => exact (Nat.zero_add _).symm
      | ⟨3, _⟩ => exact (Nat.zero_add _).symm)]

/-- Task t's layer l of a stack of weight matrices, taken in two steps or in one, is one matrix. -/
theorem taskW_twoStep_eq {α : Type} (W : (⟨4, ![T, L, K, C]⟩ : Shape).Idx → α) (t l : Nat) (ht : t < T) (hl : l < L)
    (h1 : (⟨4, ![T, L, K, C]⟩ : Shape).Slices ![t, 0, 0, 0] ⟨4, ![1, L, K, C]⟩)
    (h2 : (⟨4, ![1, L, K, C]⟩ : Shape).ShapeCasts ⟨3, ![L, K, C]⟩)
    (h3 : (⟨3, ![L, K, C]⟩ : Shape).Slices ![l, 0, 0] ⟨3, ![1, K, C]⟩)
    (h4 : (⟨3, ![1, K, C]⟩ : Shape).ShapeCasts ⟨2, ![K, C]⟩)
    (h5 : (⟨4, ![T, L, K, C]⟩ : Shape).Slices ![t, l, 0, 0] ⟨4, ![1, 1, K, C]⟩)
    (h6 : (⟨4, ![1, 1, K, C]⟩ : Shape).ShapeCasts ⟨2, ![K, C]⟩) :
    shapeCast ⟨2, ![K, C]⟩ (extractStridedSlice ⟨3, ![1, K, C]⟩ ![l, 0, 0]
      (shapeCast ⟨3, ![L, K, C]⟩ (extractStridedSlice ⟨4, ![1, L, K, C]⟩ ![t, 0, 0, 0] W h1) h2) h3) h4
      = shapeCast ⟨2, ![K, C]⟩ (extractStridedSlice ⟨4, ![1, 1, K, C]⟩ ![t, l, 0, 0] W h5) h6 := by
  funext j
  obtain ⟨k, c, rfl⟩ : ∃ (k : Fin K) (c : Fin C), j = ix2 k c := ⟨j 0, j 1, eq_ix2 j⟩
  rw [taskW_twoStep_apply W t l ht hl h1 h2 h3 h4, taskW_oneStep_apply W t l ht hl h5 h6]

/-- The same for a stack [T, L, C] of bias vectors: entry c of task t's layer l is entry (t, l, c) of the stack. -/
theorem taskB_twoStep_eq {α : Type} (B : (⟨3, ![T, L, C]⟩ : Shape).Idx → α) (t l : Nat) (ht : t < T) (hl : l < L)
    (h1 : (⟨3, ![T, L, C]⟩ : Shape).Slices ![t, 0, 0] ⟨3, ![1, L, C]⟩)
    (h2 : (⟨3, ![1, L, C]⟩ : Shape).ShapeCasts ⟨2, ![L, C]⟩)
    (h3 : (⟨2, ![L, C]⟩ : Shape).Slices ![l, 0] ⟨2, ![1, C]⟩)
    (h4 : (⟨2, ![1, C]⟩ : Shape).ShapeCasts ⟨1, ![C]⟩)
    (h5 : (⟨3, ![T, L, C]⟩ : Shape).Slices ![t, l, 0] ⟨3, ![1, 1, C]⟩)
    (h6 : (⟨3, ![1, 1, C]⟩ : Shape).ShapeCasts ⟨1, ![C]⟩) :
    shapeCast ⟨1, ![C]⟩ (extractStridedSlice ⟨2, ![1, C]⟩ ![l, 0]
      (shapeCast ⟨2, ![L, C]⟩ (extractStridedSlice ⟨3, ![1, L, C]⟩ ![t, 0, 0] B h1) h2) h3) h4
      = shapeCast ⟨1, ![C]⟩ (extractStridedSlice ⟨3, ![1, 1, C]⟩ ![t, l, 0] B h5) h6 := by
  funext j
  obtain ⟨c, rfl⟩ : ∃ c : Fin C, j = ix1 c := ⟨j 0, eq_ix1 j⟩
  have e1 : shapeCast ⟨1, ![C]⟩ (extractStridedSlice ⟨2, ![1, C]⟩ ![l, 0]
      (shapeCast ⟨2, ![L, C]⟩ (extractStridedSlice ⟨3, ![1, L, C]⟩ ![t, 0, 0] B h1) h2) h3) h4 (ix1 c)
      = B (ix3 (⟨t, ht⟩ : Fin T) (⟨l, hl⟩ : Fin L) c) := by
    rw [shapeCast_apply _ h4 (ix1 c) (ix2 (0 : Fin 1) c) (by
        rw [Shape.rowMajor_val_two, Shape.rowMajor_val_one]
        show 0 * C + c.val = c.val
        simp only [Nat.zero_mul, Nat.zero_add, Nat.add_zero]),
      extractStridedSlice_apply _ _ h3 (ix2 (0 : Fin 1) c) (ix2 (⟨l, hl⟩ : Fin L) c) (fun a => by
        match a with
        | ⟨0, _⟩ => rfl
        | ⟨1, _⟩ => exact (Nat.zero_add _).symm),
      shapeCast_apply _ h2 (ix2 (⟨l, hl⟩ : Fin L) c) (ix3 (0 : Fin 1) (⟨l, hl⟩ : Fin L) c) (by
        rw [Shape.rowMajor_val_three, Shape.rowMajor_val_two]
        show (0 * L + l) * C + c.val = l * C + c.val
        simp only [Nat.zero_mul, Nat.zero_add, Nat.add_zero]),
      extractStridedSlice_apply _ _ h1 (ix3 (0 : Fin 1) (⟨l, hl⟩ : Fin L) c) (ix3 (⟨t, ht⟩ : Fin T) (⟨l, hl⟩ : Fin L) c) (fun a => by
        match a with
        | ⟨0, _⟩ => rfl
        | ⟨1, _⟩ => exact (Nat.zero_add _).symm
        | ⟨2, _⟩ => exact (Nat.zero_add _).symm)]
  have e2 : shapeCast ⟨1, ![C]⟩ (extractStridedSlice ⟨3, ![1, 1, C]⟩ ![t, l, 0] B h5) h6 (ix1 c)
      = B (ix3 (⟨t, ht⟩ : Fin T) (⟨l, hl⟩ : Fin L) c) := by
    rw [shapeCast_apply _ h6 (ix1 c) (ix3 (0 : Fin 1) (0 : Fin 1) c) (by
        rw [Shape.rowMajor_val_three, Shape.rowMajor_val_one]
        show (0 * 1 + 0) * C + c.val = c.val
        simp only [Nat.zero_mul, Nat.zero_add, Nat.add_zero]),
      extractStridedSlice_apply _ _ h5 (ix3 (0 : Fin 1) (0 : Fin 1) c) (ix3 (⟨t, ht⟩ : Fin T) (⟨l, hl⟩ : Fin L) c) (fun a => by
        match a with
        | ⟨0, _⟩ => rfl
        | ⟨1, _⟩ => rfl
        | ⟨2, _⟩ => exact (Nat.zero_add _).symm)]
  rw [e1, e2]

end Cert.Layout

end
-- ==== Proof.Network.lean ====
/-
  The network both programs compute, as whole-array functions of the argument arrays, at the ideal values.

  A sample is a row x of 1024 numbers with a task word in {0, 1, 2, 3}.  A dense layer sends a row x to x·W + b.
  The shared block is two dense layers with a maximum with 0 between them.  Task block t applies a maximum with 0
  and a dense layer, twice, with task t's weights.  The first stage sums, over the four tasks, the 0/1 mask "the
  sample's task is t" times task block t of the shared block's result.  The second stage does the same once more on
  the first stage's result, each task branch followed by a head of two dense layers 1024 → 64 → 1 (a maximum with 0
  before the first of them, none between), and applies 1 / (1 + exp (−z)) to the masked sum.
  Layer l of a stack of weights [L, K, C] is the slice at l along the leading axis with that axis dropped; for the
  per-task stacks [4, 2, K, C] the slice at (t, l).  The mask is column t of the one-hot array: the comparison of
  the task word, stretched over four columns, with the counting row 0, 1, 2, 3.
-/
import Idealize.ShloMosaic.PureOps.Ideal
import Idealize.ShloMosaic.PureOps.Ideal.Laws
import Idealize.ShloMosaic.Lib.ValueIdx

noncomputable section

namespace Cert.Network

open Idealize.ShloMosaic

abbrev S_ : Shape := ⟨0, ![]⟩
abbrev SN : Shape := ⟨1, ![2048]⟩
abbrev SNx1 : Shape := ⟨2, ![2048, 1]⟩
abbrev SNx4 : Shape := ⟨2, ![2048, 4]⟩
abbrev S1x4 : Shape := ⟨2, ![1, 4]⟩
abbrev SNxD : Shape := ⟨2, ![2048, 1024]⟩
abbrev SNxH : Shape := ⟨2, ![2048, 64]⟩
abbrev SDxD : Shape := ⟨2, ![1024, 1024]⟩
abbrev S1xDxD : Shape := ⟨3, ![1, 1024, 1024]⟩
abbrev S2xDxD : Shape := ⟨3, ![2, 1024, 1024]⟩
abbrev S1x1xDxD : Shape := ⟨4, ![1, 1, 1024, 1024]⟩
abbrev S4x2xDxD : Shape := ⟨4, ![4, 2, 1024, 1024]⟩
abbrev SD : Shape := ⟨1, ![1024]⟩
abbrev S1xD : Shape := ⟨2, ![1, 1024]⟩
abbrev S2xD : Shape := ⟨2, ![2, 1024]⟩
abbrev S1x1xD : Shape := ⟨3, ![1, 1, 1024]⟩
abbrev S4x2xD : Shape := ⟨3, ![4, 2, 1024]⟩
abbrev SDxH : Shape := ⟨2, ![1024, 64]⟩
abbrev S1xDxH : Shape := ⟨3, ![1, 1024, 64]⟩
abbrev S4xDxH : Shape := ⟨3, ![4, 1024, 64]⟩
abbrev SH : Shape := ⟨1, ![64]⟩
abbrev S1xH : Shape := ⟨2, ![1, 64]⟩
abbrev S4xH : Shape := ⟨2, ![4, 64]⟩
abbrev SHx1 : Shape := ⟨2, ![64, 1]⟩
abbrev S1xHx1 : Shape := ⟨3, ![1, 64, 1]⟩
abbrev S4xHx1 : Shape := ⟨3, ![4, 64, 1]⟩
abbrev S1 : Shape := ⟨1, ![1]⟩
abbrev S1x1 : Shape := ⟨2, ![1, 1]⟩
abbrev S4x1 : Shape := ⟨2, ![4, 1]⟩

/-! ## The slices of the weight stacks -/

theorem sl_sharedW (l : Fin 2) : S2xDxD.Slices ![l.val, 0, 0] S1xDxD := by revert l; decide
theorem sl_sharedB (l : Fin 2) : S2xD.Slices ![l.val, 0] S1xD := by revert l; decide
theorem sl_taskW (t : Fin 4) (l : Fin 2) : S4x2xDxD.Slices ![t.val, l.val, 0, 0] S1x1xDxD := by revert t l; decide
theorem sl_taskB (t : Fin 4) (l : Fin 2) : S4x2xD.Slices ![t.val, l.val, 0] S1x1xD := by revert t l; decide
theorem sl_h1W (t : Fin 4) : S4xDxH.Slices ![t.val, 0, 0] S1xDxH := by revert t; decide
theorem sl_h1B (t : Fin 4) : S4xH.Slices ![t.val, 0] S1xH := by revert t; decide
theorem sl_h2W (t : Fin 4) : S4xHx1.Slices ![t.val, 0, 0] S1xHx1 := by revert t; decide
theorem sl_h2B (t : Fin 4) : S4x1.Slices ![t.val, 0] S1x1 := by revert t; decide
theorem sl_mask (t : Fin 4) : SNx4.Slices ![0, t.val] SNx1 := by revert t; decide

/-- Layer l of a shared stack of weight matrices. -/
def sharedW (W : FVec Ideal S2xDxD .f32) (l : Fin 2) : FVec Ideal SDxD .f32 :=
  shapeCast SDxD (extractStridedSlice S1xDxD ![l.val, 0, 0] W (sl_sharedW l)) (by decide)
/-- Layer l of a shared stack of bias vectors. -/
def sharedB (B : FVec Ideal S2xD .f32) (l : Fin 2) : FVec Ideal SD .f32 :=
  shapeCast SD (extractStridedSlice S1xD ![l.val, 0] B (sl_sharedB l)) (by decide)
/-- Layer l of task t's stack of weight matrices. -/
def taskW (W : FVec Ideal S4x2xDxD .f32) (t : Fin 4) (l : Fin 2) : FVec Ideal SDxD .f32 :=
  shapeCast SDxD (extractStridedSlice S1x1xDxD ![t.val, l.val, 0, 0] W (sl_taskW t l)) (by decide)
/-- Layer l of task t's stack of bias vectors. -/
def taskB (B : FVec Ideal S4x2xD .f32) (t : Fin 4) (l : Fin 2) : FVec Ideal SD .f32 :=
  shapeCast SD (extractStridedSlice S1x1xD ![t.val, l.val, 0] B (sl_taskB t l)) (by decide)
/-- Task t's head matrices and biases. -/
def h1W (W : FVec Ideal S4xDxH .f32) (t : Fin 4) : FVec Ideal SDxH .f32 :=
  shapeCast SDxH (extractStridedSlice S1xDxH ![t.val, 0, 0] W (sl_h1W t)) (by decide)
def h1B (B : FVec Ideal S4xH .f32) (t : Fin 4) : FVec Ideal SH .f32 :=
  shapeCast SH (extractStridedSlice S1xH ![t.val, 0] B (sl_h1B t)) (by decide)
def h2W (W : FVec Ideal S4xHx1 .f32) (t : Fin 4) : FVec Ideal SHx1 .f32 :=
  shapeCast SHx1 (extractStridedSlice S1xHx1 ![t.val, 0, 0] W (sl_h2W t)) (by decide)
def h2B (B : FVec Ideal S4x1 .f32) (t : Fin 4) : FVec Ideal S1 .f32 :=
  shapeCast S1 (extractStridedSlice S1x1 ![t.val, 0] B (sl_h2B t)) (by decide)

/-! ## Layers -/

/-- The maximum with 0, entry by entry. -/
def relu (X : FVec Ideal SNxD .f32) : FVec Ideal SNxD .f32 :=
  maximumf X (broadcastInDim SNxD ![] (by decide) (constant (F := Ideal) S_ .f32 0x00000000#32))

/-- x ↦ x·W + b on every row, 1024 → 1024. -/
def layerD (X : FVec Ideal SNxD .f32) (W : FVec Ideal SDxD .f32) (b : FVec Ideal SD .f32) : FVec Ideal SNxD .f32 :=
  addf (Host.dotGeneral (DotDims.plain 2048 1024 1024) none X W)
    (broadcastInDim SNxD ![0, 1] (by decide) (broadcastInDim S1xD ![1] (by decide) b))
/-- x ↦ x·W + b on every row, 1024 → 64. -/
def layerH (X : FVec Ideal SNxD .f32) (W : FVec Ideal SDxH .f32) (b : FVec Ideal SH .f32) : FVec Ideal SNxH .f32 :=
  addf (Host.dotGeneral (DotDims.plain 2048 1024 64) none X W)
    (broadcastInDim SNxH ![0, 1] (by decide) (broadcastInDim S1xH ![1] (by decide) b))
/-- x ↦ x·W + b on every row, 64 → 1. -/
def layerO (X : FVec Ideal SNxH .f32) (W : FVec Ideal SHx1 .f32) (b : FVec Ideal S1 .f32) : FVec Ideal SNx1 .f32 :=
  addf (Host.dotGeneral (DotDims.plain 2048 64 1) none X W)
    (broadcastInDim SNx1 ![0, 1] (by decide) (broadcastInDim S1x1 ![1] (by decide) b))

/-- The shared block: two dense layers, a maximum with 0 between them. -/
def shared (X : FVec Ideal SNxD .f32) (W : FVec Ideal S2xDxD .f32) (B : FVec Ideal S2xD .f32) : FVec Ideal SNxD .f32 :=
  layerD (relu (layerD X (sharedW W 0) (sharedB B 0))) (sharedW W 1) (sharedB B 1)

/-- Task block t: a maximum with 0 and a dense layer, twice. -/
def task (X : FVec Ideal SNxD .f32) (W : FVec Ideal S4x2xDxD .f32) (B : FVec Ideal S4x2xD .f32) (t : Fin 4) :
    FVec Ideal SNxD .f32 :=
  layerD (relu (layerD (relu X) (taskW W t 0) (taskB B t 0))) (taskW W t 1) (taskB B t 1)

/-! ## The task masks -/

/-- The one-hot array of the task words: entry (i, t) is 1 when sample i's task word is t, else 0. -/
def oneHot (BT : IVec SN 32) : FVec Ideal SNx4 .f32 :=
  uitofp .f32 (cmpi .eq (broadcastInDim SNx4 ![0, 1] (by decide) (broadcastInDim SNx1 ![0] (by decide) BT))
    (broadcastInDim SNx4 ![0, 1] (by decide) (iotaInDim S1x4 32 1)))
/-- Column t of a one-hot array. -/
def maskCol (OH : FVec Ideal SNx4 .f32) (t : Fin 4) : FVec Ideal SNx1 .f32 :=
  extractStridedSlice SNx1 ![0, t.val] OH (sl_mask t)
/-- Column t stretched across the 1024 columns. -/
def maskD (OH : FVec Ideal SNx4 .f32) (t : Fin 4) : FVec Ideal SNxD .f32 :=
  broadcastInDim SNxD ![0, 1] (by decide) (maskCol OH t)

/-! ## The two stages -/

/-- The masked sum over the tasks of the task blocks of X, given the one-hot array of the tasks. -/
def sum1 (X : FVec Ideal SNxD .f32) (OH : FVec Ideal SNx4 .f32) (W2 : FVec Ideal S4x2xDxD .f32) (B2 : FVec Ideal S4x2xD .f32) :
    FVec Ideal SNxD .f32 :=
  addf (addf (addf (addf (broadcastInDim SNxD ![] (by decide) (constant (F := Ideal) S_ .f32 0x00000000#32))
      (mulf (maskD OH 0) (task X W2 B2 0)))
      (mulf (maskD OH 1) (task X W2 B2 1)))
      (mulf (maskD OH 2) (task X W2 B2 2)))
      (mulf (maskD OH 3) (task X W2 B2 3))

/-- The first stage: the masked sum of the task blocks of the shared block's result. -/
def stage1 (X : FVec Ideal SNxD .f32) (BT : IVec SN 32) (W1 : FVec Ideal S2xDxD .f32) (B1 : FVec Ideal S2xD .f32)
    (W2 : FVec Ideal S4x2xDxD .f32) (B2 : FVec Ideal S4x2xD .f32) : FVec Ideal SNxD .f32 :=
  sum1 (shared X W1 B1) (oneHot BT) W2 B2

/-- Task t's branch of the second stage: the task block, then the head 1024 → 64 → 1. -/
def branch2 (X : FVec Ideal SNxD .f32) (W : FVec Ideal S4x2xDxD .f32) (B : FVec Ideal S4x2xD .f32)
    (H1W : FVec Ideal S4xDxH .f32) (H1B : FVec Ideal S4xH .f32) (H2W : FVec Ideal S4xHx1 .f32) (H2B : FVec Ideal S4x1 .f32)
    (t : Fin 4) : FVec Ideal SNx1 .f32 :=
  layerO (layerH (relu (task X W B t)) (h1W H1W t) (h1B H1B t)) (h2W H2W t) (h2B H2B t)

/-- The masked sum of the second stage's branches of X. -/
def sum2 (X : FVec Ideal SNxD .f32) (OH : FVec Ideal SNx4 .f32)
    (W4 : FVec Ideal S4x2xDxD .f32) (B4 : FVec Ideal S4x2xD .f32)
    (H1W : FVec Ideal S4xDxH .f32) (H1B : FVec Ideal S4xH .f32) (H2W : FVec Ideal S4xHx1 .f32) (H2B : FVec Ideal S4x1 .f32) :
    FVec Ideal SNx1 .f32 :=
  addf (addf (addf (addf (broadcastInDim SNx1 ![] (by decide) (constant (F := Ideal) S_ .f32 0x00000000#32))
      (mulf (maskCol OH 0) (branch2 X W4 B4 H1W H1B H2W H2B 0)))
      (mulf (maskCol OH 1) (branch2 X W4 B4 H1W H1B H2W H2B 1)))
      (mulf (maskCol OH 2) (branch2 X W4 B4 H1W H1B H2W H2B 2)))
      (mulf (maskCol OH 3) (branch2 X W4 B4 H1W H1B H2W H2B 3))

/-- z ↦ 1 / (1 + exp (−z)), entry by entry. -/
def squash (Z : FVec Ideal SNx1 .f32) : FVec Ideal SNx1 .f32 :=
  Host.divf (broadcastInDim SNx1 ![] (by decide) (constant (F := Ideal) S_ .f32 0x3F800000#32))
    (addf (broadcastInDim SNx1 ![] (by decide) (constant (F := Ideal) S_ .f32 0x3F800000#32)) (Host.exp (Host.negf Z)))

/-- The second stage: the shared block, the masked sum of the branches, the quotient. -/
def stage2 (Hm : FVec Ideal SNxD .f32) (BT : IVec SN 32) (W3 : FVec Ideal S2xDxD .f32) (B3 : FVec Ideal S2xD .f32)
    (W4 : FVec Ideal S4x2xDxD .f32) (B4 : FVec Ideal S4x2xD .f32)
    (H1W : FVec Ideal S4xDxH .f32) (H1B : FVec Ideal S4xH .f32) (H2W : FVec Ideal S4xHx1 .f32) (H2B : FVec Ideal S4x1 .f32) :
    FVec Ideal SNx1 .f32 :=
  squash (sum2 (shared Hm W3 B3) (oneHot BT) W4 B4 H1W H1B H2W H2B)

/-- The whole network. -/
def network (X : FVec Ideal SNxD .f32) (BT : IVec SN 32) (W1 : FVec Ideal S2xDxD .f32) (B1 : FVec Ideal S2xD .f32)
    (W2 : FVec Ideal S4x2xDxD .f32) (B2 : FVec Ideal S4x2xD .f32) (W3 : FVec Ideal S2xDxD .f32) (B3 : FVec Ideal S2xD .f32)
    (W4 : FVec Ideal S4x2xDxD .f32) (B4 : FVec Ideal S4x2xD .f32)
    (H1W : FVec Ideal S4xDxH .f32) (H1B : FVec Ideal S4xH .f32) (H2W : FVec Ideal S4xHx1 .f32) (H2B : FVec Ideal S4x1 .f32) :
    FVec Ideal SNx1 .f32 :=
  stage2 (stage1 X BT W1 B1 W2 B2) BT W3 B3 W4 B4 H1W H1B H2W H2B

end Cert.Network

end
-- ==== Proof.KernelValue.lean ====
/-
  The kernel program's value: each launch computes, block by block, one stage of the network.

  A launch runs its body once per block of 512 rows.  The body reads its block of the activations and of the task
  column, and the whole weight stacks; what it stores is a chain of dense layers, maxima with 0, task masks and sums
  on the block.  Every one of those operations commutes with taking a block of rows, so the stored block is the
  block of the whole-array stage.  The four blocks tile the 2048 rows, so after the launch the output array is the
  stage of the launch's input arrays.
-/
import proofs.«146362_j55078660603958_1_alg».proof.Proof.Gen.KernelIdeal.Frame
import proofs.«146362_j55078660603958_1_alg».proof.Proof.LibBlockOfWhole
import proofs.«146362_j55078660603958_1_alg».proof.Proof.LibStackedLayers
import proofs.«146362_j55078660603958_1_alg».proof.Proof.Network

set_option maxRecDepth 16384

noncomputable section

namespace Cert.KernelIdeal.NetValue

open Cert.KernelIdeal Cert.KernelIdeal.Gen
open Idealize.ShloMosaic Idealize.ShloMosaic.TcCoe Idealize.ShloMosaic.ValueIdx
open Cert.Blocks Cert.Layout Cert.Network

theorem hz2 : (![0, 0] : Fin 2 → Nat) = fun _ => 0 := funext fun a => by fin_cases a <;> rfl

/-! ## The bodies on a block -/

set_option maxHeartbeats 4000000 in
/-- The first launch's body, run on the block of rows o … o + 511 of the activations and of the task column, stores
    the same block of the first stage. -/
theorem stage1_block (o : Nat) (h : o + 512 ≤ 2048) (X : FVec Ideal SNxD .f32) (BT : IVec SN 32)
    (W1 : FVec Ideal S2xDxD .f32) (B1 : FVec Ideal S2xD .f32) (W2 : FVec Ideal S4x2xDxD .f32) (B2 : FVec Ideal S4x2xD .f32) :
    out0_6 (F := Ideal) (rowBlk o h X) (rowBlk (C := 1) o h (shapeCast SNx1 BT (by decide))) W1 B1 W2 B2
      = rowBlk o h (stage1 X BT W1 B1 W2 B2) := by
  unfold out0_6
  rw [View.canon_unit_zero hz2]
  simp only [View.ld_unit_zero (S := S512x1024) hz2, View.ld_unit_zero (S := S512x1) hz2]
  simp (disch := decide) only [k0_pay1, k0_pay2, k0_pay3, k0_pay4, k0_pay5, k0_pay6, k0_pay7, k0_pay8, k0_pay9, k0_pay10, k0_pay11, k0_pay12,
    ld_unit, truncf_ideal, shapeCast_self,
    taskW_twoStep_eq, taskB_twoStep_eq,
    matmul_rowBlk o h dot_S512x1024_S1024x1024_S512x1024_1_0_0_1_n_n rfl (DotDims.plain 2048 1024 1024) rfl,
    biasRow_rowBlk (N := 2048) o h, splat_rowBlk (N := 2048) o h, colStretch_rowBlk o h,
    fun hlt hs => mask_rowBlk o h BT 0 (by decide) 0#32 rfl hlt hs (by decide) (by decide) (by decide) (by decide),
    fun hlt hs => mask_rowBlk o h BT 1 (by decide) 1#32 rfl hlt hs (by decide) (by decide) (by decide) (by decide),
    fun hlt hs => mask_rowBlk o h BT 2 (by decide) 2#32 rfl hlt hs (by decide) (by decide) (by decide) (by decide),
    fun hlt hs => mask_rowBlk o h BT 3 (by decide) 3#32 rfl hlt hs (by decide) (by decide) (by decide) (by decide),
    addf_rowBlk, mulf_rowBlk, maximumf_rowBlk]
  rfl

set_option maxHeartbeats 8000000 in
/-- The second launch's body, run on the block of rows o … o + 511 of the first stage's result and of the task
    column, stores the same block of the second stage. -/
theorem stage2_block (o : Nat) (h : o + 512 ≤ 2048) (Hm : FVec Ideal SNxD .f32) (BT : IVec SN 32)
    (W3 : FVec Ideal S2xDxD .f32) (B3 : FVec Ideal S2xD .f32) (W4 : FVec Ideal S4x2xDxD .f32) (B4 : FVec Ideal S4x2xD .f32)
    (H1W : FVec Ideal S4xDxH .f32) (H1B : FVec Ideal S4xH .f32) (H2W : FVec Ideal S4xHx1 .f32) (H2B : FVec Ideal S4x1 .f32) :
    out1_10 (F := Ideal) (rowBlk o h Hm) (rowBlk (C := 1) o h (shapeCast SNx1 BT (by decide))) W3 B3 W4 B4 H1W H1B H2W H2B
      = rowBlk (C := 1) o h (stage2 Hm BT W3 B3 W4 B4 H1W H1B H2W H2B) := by
  unfold out1_10
  rw [View.canon_unit_zero hz2]
  simp only [View.ld_unit_zero (S := S512x1024) hz2, View.ld_unit_zero (S := S512x1) hz2]
  simp (disch := decide) only [k1_pay1, k1_pay2, k1_pay3, k1_pay4, k1_pay5, k1_pay6, k1_pay7, k1_pay8, k1_pay9, k1_pay10,
    k1_pay11, k1_pay12, k1_pay13, k1_pay14, k1_pay15, k1_pay16, k1_pay17,
    ld_unit, truncf_ideal, shapeCast_self,
    taskW_twoStep_eq, taskB_twoStep_eq,
    matmul_rowBlk o h dot_S512x1024_S1024x1024_S512x1024_1_0_0_1_n_n rfl (DotDims.plain 2048 1024 1024) rfl,
    matmul_rowBlk o h dot_S512x1024_S1024x64_S512x64_1_0_0_1_n_n rfl (DotDims.plain 2048 1024 64) rfl,
    matmul_rowBlk o h dot_S512x64_S64x1_S512x1_1_0_0_1_n_n rfl (DotDims.plain 2048 64 1) rfl,
    biasRow_rowBlk (N := 2048) o h, splat_rowBlk (N := 2048) o h,
    fun hlt hs => mask_rowBlk o h BT 0 (by decide) 0#32 rfl hlt hs (by decide) (by decide) (by decide) (by decide),
    fun hlt hs => mask_rowBlk o h BT 1 (by decide) 1#32 rfl hlt hs (by decide) (by decide) (by decide) (by decide),
    fun hlt hs => mask_rowBlk o h BT 2 (by decide) 2#32 rfl hlt hs (by decide) (by decide) (by decide) (by decide),
    fun hlt hs => mask_rowBlk o h BT 3 (by decide) 3#32 rfl hlt hs (by decide) (by decide) (by decide) (by decide),
    addf_rowBlk, mulf_rowBlk, maximumf_rowBlk, logistic_rowBlk (N := 2048) o h]
  rfl

/-! ## The windows' blocks -/

/-- The launch's index maps over its four points: a row-blocked window takes block t at point t; every weight window
    takes its whole array at every point. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 3) = 0
    ∧ win0_2.index t (1 : Fin 3) = 0
    ∧ win0_2.index t (2 : Fin 3) = 0
    ∧ win0_3.index t (0 : Fin 2) = 0
    ∧ win0_3.index t (1 : Fin 2) = 0
    ∧ win0_4.index t (0 : Fin 4) = 0
    ∧ win0_4.index t (1 : Fin 4) = 0
    ∧ win0_4.index t (2 : Fin 4) = 0
    ∧ win0_4.index t (3 : Fin 4) = 0
    ∧ win0_5.index t (0 : Fin 3) = 0
    ∧ win0_5.index t (1 : Fin 3) = 0
    ∧ win0_5.index t (2 : Fin 3) = 0
    ∧ win0_6.index t (0 : Fin 2) = t.val
    ∧ win0_6.index t (1 : Fin 2) = 0 :=
  (by decide +kernel : ∀ t : Fin grid0.N, _)

/-- The launch's index maps over its four points: a row-blocked window takes block t at point t; every weight window
    takes its whole array at every point. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 3) = 0
    ∧ win1_2.index t (1 : Fin 3) = 0
    ∧ win1_2.index t (2 : Fin 3) = 0
    ∧ win1_3.index t (0 : Fin 2) = 0
    ∧ win1_3.index t (1 : Fin 2) = 0
    ∧ win1_4.index t (0 : Fin 4) = 0
    ∧ win1_4.index t (1 : Fin 4) = 0
    ∧ win1_4.index t (2 : Fin 4) = 0
    ∧ win1_4.index t (3 : Fin 4) = 0
    ∧ win1_5.index t (0 : Fin 3) = 0
    ∧ win1_5.index t (1 : Fin 3) = 0
    ∧ win1_5.index t (2 : Fin 3) = 0
    ∧ win1_6.index t (0 : Fin 3) = 0
    ∧ win1_6.index t (1 : Fin 3) = 0
    ∧ win1_6.index t (2 : Fin 3) = 0
    ∧ win1_7.index t (0 : Fin 2) = 0
    ∧ win1_7.index t (1 : Fin 2) = 0
    ∧ win1_8.index t (0 : Fin 3) = 0
    ∧ win1_8.index t (1 : Fin 3) = 0
    ∧ win1_8.index t (2 : Fin 3) = 0
    ∧ win1_9.index t (0 : Fin 2) = 0
    ∧ win1_9.index t (1 : Fin 2) = 0
    ∧ win1_10.index t (0 : Fin 2) = t.val
    ∧ win1_10.index t (1 : Fin 2) = 0 :=
  (by decide +kernel : ∀ t : Fin grid1.N, _)

section Blocks
variable (V : (c : Dev nD) → (b : Ref sig .tc) → Buf (Elt Ideal) ((c : Thread nD τ).loc b))

/-- Window 0's block at point t is rows 512 t … 512 t + 511 of its array. -/
theorem blk0_0 (c : Dev nD) (t : Fin cfg0.N) (ht : 512 * t.val + 512 ≤ 2048) :
    iblk0 V c 0 t = rowBlk (R := 512) (N := 2048) (C := 1024) (512 * t.val) ht (V c main_arg0) := by
  obtain ⟨f0, f1, -, -, -, -, -, -, -, -, -, -, -, -, -, -, -, -⟩ := idx0 t
  funext j
  show V c main_arg0 (((cfg0.win 0).blk t).view.emb j) = V c main_arg0 (shiftRow (R := 512) (N := 2048) (C := 1024) (512 * t.val) ht j)
  refine congrArg _ (funext fun a => Fin.ext ?_)
  match a with
  | ⟨0, _⟩ =>
    show win0_0.index t (0 : Fin 2) * 512 + 1 * (j 0).val = 512 * t.val + (j 0).val
    omega
  | ⟨1, _⟩ =>
    show win0_0.index t (1 : Fin 2) * 1024 + 1 * (j 1).val = (j 1).val
    omega

/-- Window 1's block at point t is rows 512 t … 512 t + 511 of its array. -/
theorem blk0_1 (c : Dev nD) (t : Fin cfg0.N) (ht : 512 * t.val + 512 ≤ 2048) :
    iblk0 V c 1 t = rowBlk (R := 512) (N := 2048) (C := 1) (512 * t.val) ht (V c main_v0) := by
  obtain ⟨-, -, f0, f1, -, -, -, -, -, -, -, -, -, -, -, -, -, -⟩ := idx0 t
  funext j
  show V c main_v0 (((cfg0.win 1).blk t).view.emb j) = V c main_v0 (shiftRow (R := 512) (N := 2048) (C := 1) (512 * t.val) ht j)
  refine congrArg _ (funext fun a => Fin.ext ?_)
  match a with
  | ⟨0, _⟩ =>
    show win0_1.index t (0 : Fin 2) * 512 + 1 * (j 0).val = 512 * t.val + (j 0).val
    omega
  | ⟨1, _⟩ =>
    show win0_1.index t (1 : Fin 2) * 1 + 1 * (j 1).val = (j 1).val
    omega

/-- Window 2's block at every point is its whole array. -/
theorem blk0_2 (c : Dev nD) (t : Fin cfg0.N) : iblk0 V c 2 t = V c main_v1 := by
  obtain ⟨-, -, -, -, f0, f1, f2, -, -, -, -, -, -, -, -, -, -, -⟩ := idx0 t
  funext j
  show V c main_v1 (((cfg0.win 2).blk t).view.emb j) = V c main_v1 j
  refine congrArg _ (funext fun a => Fin.ext ?_)
  match a with
  | ⟨0, _⟩ =>
    show win0_2.index t (0 : Fin 3) * 2 + 1 * (j 0).val = (j 0).val
    omega
  | ⟨1, _⟩ =>
    show win0_2.index t (1 : Fin 3) * 1024 + 1 * (j 1).val = (j 1).val
    omega
  | ⟨2, _⟩ =>
    show win0_2.index t (2 : Fin 3) * 1024 + 1 * (j 2).val = (j 2).val
    omega

/-- Window 3's block at every point is its whole array. -/
theorem blk0_3 (c : Dev nD) (t : Fin cfg0.N) : iblk0 V c 3 t = V c main_arg3 := by
  obtain ⟨-, -, -, -, -, -, -, f0, f1, -, -, -, -, -, -, -, -, -⟩ := idx0 t
  funext j
  show V c main_arg3 (((cfg0.win 3).blk t).view.emb j) = V c main_arg3 j
  refine congrArg _ (funext fun a => Fin.ext ?_)
  match a with
  | ⟨0, _⟩ =>
    show win0_3.index t (0 : Fin 2) * 2 + 1 * (j 0).val = (j 0).val
    omega
  | ⟨1, _⟩ =>
    show win0_3.index t (1 : Fin 2) * 1024 + 1 * (j 1).val = (j 1).val
    omega

/-- Window 4's block at every point is its whole array. -/
theorem blk0_4 (c : Dev nD) (t : Fin cfg0.N) : iblk0 V c 4 t = V c main_v2 := by
  obtain ⟨-, -, -, -, -, -, -, -, -, f0, f1, f2, f3, -, -, -, -, -⟩ := idx0 t
  funext j
  show V c main_v2 (((cfg0.win 4).blk t).view.emb j) = V c main_v2 j
  refine congrArg _ (funext fun a => Fin.ext ?_)
  match a with
  | ⟨0, _⟩ =>
    show win0_4.index t (0 : Fin 4) * 4 + 1 * (j 0).val = (j 0).val
    omega
  | ⟨1, _⟩ =>
    show win0_4.index t (1 : Fin 4) * 2 + 1 * (j 1).val = (j 1).val
    omega
  | ⟨2, _⟩ =>
    show win0_4.index t (2 : Fin 4) * 1024 + 1 * (j 2).val = (j 2).val
    omega
  | ⟨3, _⟩ =>
    show win0_4.index t (3 : Fin 4) * 1024 + 1 * (j 3).val = (j 3).val
    omega

/-- Window 5's block at every point is its whole array. -/
theorem blk0_5 (c : Dev nD) (t : Fin cfg0.N) : iblk0 V c 5 t = V c main_arg5 := by
  obtain ⟨-, -, -, -, -, -, -, -, -, -, -, -, -, f0, f1, f2, -, -⟩ := idx0 t
  funext j
  show V c main_arg5 (((cfg0.win 5).blk t).view.emb j) = V c main_arg5 j
  refine congrArg _ (funext fun a => Fin.ext ?_)
  match a with
  | ⟨0, _⟩ =>
    show win0_5.index t (0 : Fin 3) * 4 + 1 * (j 0).val = (j 0).val
    omega
  | ⟨1, _⟩ =>
    show win0_5.index t (1 : Fin 3) * 2 + 1 * (j 1).val = (j 1).val
    omega
  | ⟨2, _⟩ =>
    show win0_5.index t (2 : Fin 3) * 1024 + 1 * (j 2).val = (j 2).val
    omega

/-- Window 0's block at point t is rows 512 t … 512 t + 511 of its array. -/
theorem blk1_0 (c : Dev nD) (t : Fin cfg1.N) (ht : 512 * t.val + 512 ≤ 2048) :
    iblk1 V c 0 t = rowBlk (R := 512) (N := 2048) (C := 1024) (512 * t.val) ht (V c main_v7) := by
  obtain ⟨f0, f1, -, -, -, -, -, -, -, -, -, -, -, -, -, -, -, -, -, -, -, -, -, -, -, -, -, -⟩ := idx1 t
  funext j
  show V c main_v7 (((cfg1.win 0).blk t).view.emb j) = V c main_v7 (shiftRow (R := 512) (N := 2048) (C := 1024) (512 * t.val) ht j)
  refine congrArg _ (funext fun a => Fin.ext ?_)
  match a with
  | ⟨0, _⟩ =>
    show win1_0.index t (0 : Fin 2) * 512 + 1 * (j 0).val = 512 * t.val + (j 0).val
    omega
  | ⟨1, _⟩ =>
    show win1_0.index t (1 : Fin 2) * 1024 + 1 * (j 1).val = (j 1).val
    omega

/-- Window 1's block at point t is rows 512 t … 512 t + 511 of its array. -/
theorem blk1_1 (c : Dev nD) (t : Fin cfg1.N) (ht : 512 * t.val + 512 ≤ 2048) :
    iblk1 V c 1 t = rowBlk (R := 512) (N := 2048) (C := 1) (512 * t.val) ht (V c main_v0) := by
  obtain ⟨-, -, f0, f1, -, -, -, -, -, -, -, -, -, -, -, -, -, -, -, -, -, -, -, -, -, -, -, -⟩ := idx1 t
  funext j
  show V c main_v0 (((cfg1.win 1).blk t).view.emb j) = V c main_v0 (shiftRow (R := 512) (N := 2048) (C := 1) (512 * t.val) ht j)
  refine congrArg _ (funext fun a => Fin.ext ?_)
  match a with
  | ⟨0, _⟩ =>
    show win1_1.index t (0 : Fin 2) * 512 + 1 * (j 0).val = 512 * t.val + (j 0).val
    omega
  | ⟨1, _⟩ =>
    show win1_1.index t (1 : Fin 2) * 1 + 1 * (j 1).val = (j 1).val
    omega

/-- Window 2's block at every point is its whole array. -/
theorem blk1_2 (c : Dev nD) (t : Fin cfg1.N) : iblk1 V c 2 t = V c main_v3 := by
  obtain ⟨-, -, -, -, f0, f1, f2, -, -, -, -, -, -, -, -, -, -, -, -, -, -, -, -, -, -, -, -, -⟩ := idx1 t
  funext j
  show V c main_v3 (((cfg1.win 2).blk t).view.emb j) = V c main_v3 j
  refine congrArg _ (funext fun a => Fin.ext ?_)
  match a with
  | ⟨0, _⟩ =>
    show win1_2.index t (0 : Fin 3) * 2 + 1 * (j 0).val = (j 0).val
    omega
  | ⟨1, _⟩ =>
    show win1_2.index t (1 : Fin 3) * 1024 + 1 * (j 1).val = (j 1).val
    omega
  | ⟨2, _⟩ =>
    show win1_2.index t (2 : Fin 3) * 1024 + 1 * (j 2).val = (j 2).val
    omega

/-- Window 3's block at every point is its whole array. -/
theorem blk1_3 (c : Dev nD) (t : Fin cfg1.N) : iblk1 V c 3 t = V c main_arg7 := by
  obtain ⟨-, -, -, -, -, -, -, f0, f1, -, -, -, -, -, -, -, -, -, -, -, -, -, -, -, -, -, -, -⟩ := idx1 t
  funext j
  show V c main_arg7 (((cfg1.win 3).blk t).view.emb j) = V c main_arg7 j
  refine congrArg _ (funext fun a => Fin.ext ?_)
  match a with
  | ⟨0, _⟩ =>
    show win1_3.index t (0 : Fin 2) * 2 + 1 * (j 0).val = (j 0).val
    omega
  | ⟨1, _⟩ =>
    show win1_3.index t (1 : Fin 2) * 1024 + 1 * (j 1).val = (j 1).val
    omega

/-- Window 4's block at every point is its whole array. -/
theorem blk1_4 (c : Dev nD) (t : Fin cfg1.N) : iblk1 V c 4 t = V c main_v4 := by
  obtain ⟨-, -, -, -, -, -, -, -, -, f0, f1, f2, f3, -, -, -, -, -, -, -, -, -, -, -, -, -, -, -⟩ := idx1 t
  funext j
  show V c main_v4 (((cfg1.win 4).blk t).view.emb j) = V c main_v4 j
  refine congrArg _ (funext fun a => Fin.ext ?_)
  match a with
  | ⟨0, _⟩ =>
    show win1_4.index t (0 : Fin 4) * 4 + 1 * (j 0).val = (j 0).val
    omega
  | ⟨1, _⟩ =>
    show win1_4.index t (1 : Fin 4) * 2 + 1 * (j 1).val = (j 1).val
    omega
  | ⟨2, _⟩ =>
    show win1_4.index t (2 : Fin 4) * 1024 + 1 * (j 2).val = (j 2).val
    omega
  | ⟨3, _⟩ =>
    show win1_4.index t (3 : Fin 4) * 1024 + 1 * (j 3).val = (j 3).val
    omega

/-- Window 5's block at every point is its whole array. -/
theorem blk1_5 (c : Dev nD) (t : Fin cfg1.N) : iblk1 V c 5 t = V c main_arg9 := by
  obtain ⟨-, -, -, -, -, -, -, -, -, -, -, -, -, f0, f1, f2, -, -, -, -, -, -, -, -, -, -, -, -⟩ := idx1 t
  funext j
  show V c main_arg9 (((cfg1.win 5).blk t).view.emb j) = V c main_arg9 j
  refine congrArg _ (funext fun a => Fin.ext ?_)
  match a with
  | ⟨0, _⟩ =>
    show win1_5.index t (0 : Fin 3) * 4 + 1 * (j 0).val = (j 0).val
    omega
  | ⟨1, _⟩ =>
    show win1_5.index t (1 : Fin 3) * 2 + 1 * (j 1).val = (j 1).val
    omega
  | ⟨2, _⟩ =>
    show win1_5.index t (2 : Fin 3) * 1024 + 1 * (j 2).val = (j 2).val
    omega

/-- Window 6's block at every point is its whole array. -/
theorem blk1_6 (c : Dev nD) (t : Fin cfg1.N) : iblk1 V c 6 t = V c main_v5 := by
  obtain ⟨-, -, -, -, -, -, -, -, -, -, -, -, -, -, -, -, f0, f1, f2, -, -, -, -, -, -, -, -, -⟩ := idx1 t
  funext j
  show V c main_v5 (((cfg1.win 6).blk t).view.emb j) = V c main_v5 j
  refine congrArg _ (funext fun a => Fin.ext ?_)
  match a with
  | ⟨0, _⟩ =>
    show win1_6.index t (0 : Fin 3) * 4 + 1 * (j 0).val = (j 0).val
    omega
  | ⟨1, _⟩ =>
    show win1_6.index t (1 : Fin 3) * 1024 + 1 * (j 1).val = (j 1).val
    omega
  | ⟨2, _⟩ =>
    show win1_6.index t (2 : Fin 3) * 64 + 1 * (j 2).val = (j 2).val
    omega

/-- Window 7's block at every point is its whole array. -/
theorem blk1_7 (c : Dev nD) (t : Fin cfg1.N) : iblk1 V c 7 t = V c main_arg11 := by
  obtain ⟨-, -, -, -, -, -, -, -, -, -, -, -, -, -, -, -, -, -, -, f0, f1, -, -, -, -, -, -, -⟩ := idx1 t
  funext j
  show V c main_arg11 (((cfg1.win 7).blk t).view.emb j) = V c main_arg11 j
  refine congrArg _ (funext fun a => Fin.ext ?_)
  match a with
  | ⟨0, _⟩ =>
    show win1_7.index t (0 : Fin 2) * 4 + 1 * (j 0).val = (j 0).val
    omega
  | ⟨1, _⟩ =>
    show win1_7.index t (1 : Fin 2) * 64 + 1 * (j 1).val = (j 1).val
    omega

/-- Window 8's block at every point is its whole array. -/
theorem blk1_8 (c : Dev nD) (t : Fin cfg1.N) : iblk1 V c 8 t = V c main_v6 := by
  obtain ⟨-, -, -, -, -, -, -, -, -, -, -, -, -, -, -, -, -, -, -, -, -, f0, f1, f2, -, -, -, -⟩ := idx1 t
  funext j
  show V c main_v6 (((cfg1.win 8).blk t).view.emb j) = V c main_v6 j
  refine congrArg _ (funext fun a => Fin.ext ?_)
  match a with
  | ⟨0, _⟩ =>
    show win1_8.index t (0 : Fin 3) * 4 + 1 * (j 0).val = (j 0).val
    omega
  | ⟨1, _⟩ =>
    show win1_8.index t (1 : Fin 3) * 64 + 1 * (j 1).val = (j 1).val
    omega
  | ⟨2, _⟩ =>
    show win1_8.index t (2 : Fin 3) * 1 + 1 * (j 2).val = (j 2).val
    omega

/-- Window 9's block at every point is its whole array. -/
theorem blk1_9 (c : Dev nD) (t : Fin cfg1.N) : iblk1 V c 9 t = V c main_arg13 := by
  obtain ⟨-, -, -, -, -, -, -, -, -, -, -, -, -, -, -, -, -, -, -, -, -, -, -, -, f0, f1, -, -⟩ := idx1 t
  funext j
  show V c main_arg13 (((cfg1.win 9).blk t).view.emb j) = V c main_arg13 j
  refine congrArg _ (funext fun a => Fin.ext ?_)
  match a with
  | ⟨0, _⟩ =>
    show win1_9.index t (0 : Fin 2) * 4 + 1 * (j 0).val = (j 0).val
    omega
  | ⟨1, _⟩ =>
    show win1_9.index t (1 : Fin 2) * 1 + 1 * (j 1).val = (j 1).val
    omega

end Blocks

/-! ## The arrays as the launches find them -/

section Run
variable (m : (ℓ : Loc nD τ sig) → Buf (Elt Ideal) ℓ) (ρ : Dev nD → PrngReg)

/-- Before the first launch the host has only reshaped the task vector and changed the weights' float format, which
    is the identity on the extended reals. -/
theorem V1_main_arg0 (c : Dev nD) : V1 m ρ c main_arg0 = m ((c : Thread nD τ).loc main_arg0) := by
  show StableHlo.after hostOps0 (W0 m ρ c) (Proc.devRef .tc main_arg0) = _
  dsimp only [hostOps0]
  after_results
  all_goals rfl

/-- Before the first launch the host has only reshaped the task vector and changed the weights' float format, which
    is the identity on the extended reals. -/
theorem V1_main_v0 (c : Dev nD) : V1 m ρ c main_v0 = shapeCast S2048x1 (m ((c : Thread nD τ).loc main_arg1)) shapeCasts_S2048_S2048x1 := by
  show StableHlo.after hostOps0 (W0 m ρ c) (Proc.devRef .tc main_v0) = _
  dsimp only [hostOps0]
  after_results
  all_goals rfl

/-- Before the first launch the host has only reshaped the task vector and changed the weights' float format, which
    is the identity on the extended reals. -/
theorem V1_main_v1 (c : Dev nD) : V1 m ρ c main_v1 = m ((c : Thread nD τ).loc main_arg2) := by
  show StableHlo.after hostOps0 (W0 m ρ c) (Proc.devRef .tc main_v1) = _
  dsimp only [hostOps0]
  after_results
  all_goals rfl

/-- Before the first launch the host has only reshaped the task vector and changed the weights' float format, which
    is the identity on the extended reals. -/
theorem V1_main_arg3 (c : Dev nD) : V1 m ρ c main_arg3 = m ((c : Thread nD τ).loc main_arg3) := by
  show StableHlo.after hostOps0 (W0 m ρ c) (Proc.devRef .tc main_arg3) = _
  dsimp only [hostOps0]
  after_results
  all_goals rfl

/-- Before the first launch the host has only reshaped the task vector and changed the weights' float format, which
    is the identity on the extended reals. -/
theorem V1_main_v2 (c : Dev nD) : V1 m ρ c main_v2 = m ((c : Thread nD τ).loc main_arg4) := by
  show StableHlo.after hostOps0 (W0 m ρ c) (Proc.devRef .tc main_v2) = _
  dsimp only [hostOps0]
  after_results
  all_goals rfl

/-- Before the first launch the host has only reshaped the task vector and changed the weights' float format, which
    is the identity on the extended reals. -/
theorem V1_main_arg5 (c : Dev nD) : V1 m ρ c main_arg5 = m ((c : Thread nD τ).loc main_arg5) := by
  show StableHlo.after hostOps0 (W0 m ρ c) (Proc.devRef .tc main_arg5) = _
  dsimp only [hostOps0]
  after_results
  all_goals rfl

/-- Before the first launch the host has only reshaped the task vector and changed the weights' float format, which
    is the identity on the extended reals. -/
theorem V1_main_v3 (c : Dev nD) : V1 m ρ c main_v3 = m ((c : Thread nD τ).loc main_arg6) := by
  show StableHlo.after hostOps0 (W0 m ρ c) (Proc.devRef .tc main_v3) = _
  dsimp only [hostOps0]
  after_results
  all_goals rfl

/-- Before the first launch the host has only reshaped the task vector and changed the weights' float format, which
    is the identity on the extended reals. -/
theorem V1_main_arg7 (c : Dev nD) : V1 m ρ c main_arg7 = m ((c : Thread nD τ).loc main_arg7) := by
  show StableHlo.after hostOps0 (W0 m ρ c) (Proc.devRef .tc main_arg7) = _
  dsimp only [hostOps0]
  after_results
  all_goals rfl

/-- Before the first launch the host has only reshaped the task vector and changed the weights' float format, which
    is the identity on the extended reals. -/
theorem V1_main_v4 (c : Dev nD) : V1 m ρ c main_v4 = m ((c : Thread nD τ).loc main_arg8) := by
  show StableHlo.after hostOps0 (W0 m ρ c) (Proc.devRef .tc main_v4) = _
  dsimp only [hostOps0]
  after_results
  all_goals rfl

/-- Before the first launch the host has only reshaped the task vector and changed the weights' float format, which
    is the identity on the extended reals. -/
theorem V1_main_arg9 (c : Dev nD) : V1 m ρ c main_arg9 = m ((c : Thread nD τ).loc main_arg9) := by
  show StableHlo.after hostOps0 (W0 m ρ c) (Proc.devRef .tc main_arg9) = _
  dsimp only [hostOps0]
  after_results
  all_goals rfl

/-- Before the first launch the host has only reshaped the task vector and changed the weights' float format, which
    is the identity on the extended reals. -/
theorem V1_main_v5 (c : Dev nD) : V1 m ρ c main_v5 = m ((c : Thread nD τ).loc main_arg10) := by
  show StableHlo.after hostOps0 (W0 m ρ c) (Proc.devRef .tc main_v5) = _
  dsimp only [hostOps0]
  after_results
  all_goals rfl

/-- Before the first launch the host has only reshaped the task vector and changed the weights' float format, which
    is the identity on the extended reals. -/
theorem V1_main_arg11 (c : Dev nD) : V1 m ρ c main_arg11 = m ((c : Thread nD τ).loc main_arg11) := by
  show StableHlo.after hostOps0 (W0 m ρ c) (Proc.devRef .tc main_arg11) = _
  dsimp only [hostOps0]
  after_results
  all_goals rfl

/-- Before the first launch the host has only reshaped the task vector and changed the weights' float format, which
    is the identity on the extended reals. -/
theorem V1_main_v6 (c : Dev nD) : V1 m ρ c main_v6 = m ((c : Thread nD τ).loc main_arg12) := by
  show StableHlo.after hostOps0 (W0 m ρ c) (Proc.devRef .tc main_v6) = _
  dsimp only [hostOps0]
  after_results
  all_goals rfl

/-- Before the first launch the host has only reshaped the task vector and changed the weights' float format, which
    is the identity on the extended reals. -/
theorem V1_main_arg13 (c : Dev nD) : V1 m ρ c main_arg13 = m ((c : Thread nD τ).loc main_arg13) := by
  show StableHlo.after hostOps0 (W0 m ρ c) (Proc.devRef .tc main_arg13) = _
  dsimp only [hostOps0]
  after_results
  all_goals rfl

/-- The first stage of the argument arrays. -/
abbrev G1 (c : Dev nD) : FVec Ideal SNxD .f32 :=
  stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The network of the argument arrays. -/
abbrev G2 (c : Dev nD) : FVec Ideal SNx1 .f32 :=
  network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13))

/-! ## The first launch -/

set_option maxHeartbeats 4000000 in
/-- What point t of the first launch writes back is block t of the first stage of the argument arrays. -/
theorem flushed0 (c : Dev nD) (t : Fin cfg0.N) :
    (dat0 (V1 m ρ) c).flushed 6 t = ((cfg0.win 6).blk t).view.read (Elt Ideal) (G1 m c) := by
  have h4 : t.val < 4 := lt_of_lt_of_eq t.isLt N_0
  have ht : 512 * t.val + 512 ≤ 2048 := by omega
  show (cfg0.win 6).cut (grid0.coords t) ((dat0 (V1 m ρ) c).after 6 t) = _
  rw [after0_6, blk0_0 _ c t ht, blk0_1 _ c t ht, blk0_2, blk0_3, blk0_4, blk0_5,
    V1_main_arg0, V1_main_v0, V1_main_v1, V1_main_arg3, V1_main_v2, V1_main_arg5, stage1_block]
  obtain ⟨-, -, -, -, -, -, -, -, -, -, -, -, -, -, -, -, f0, f1⟩ := idx0 t
  funext j
  show G1 m c (shiftRow (R := 512) (N := 2048) (C := 1024) (512 * t.val) ht j) = G1 m c (((cfg0.win 6).blk t).view.emb j)
  refine congrArg _ (funext fun a => Fin.ext ?_)
  match a with
  | ⟨0, _⟩ =>
    show 512 * t.val + (j 0).val = win0_6.index t (0 : Fin 2) * 512 + 1 * (j 0).val
    omega
  | ⟨1, _⟩ =>
    show (j 1).val = win0_6.index t (1 : Fin 2) * 1024 + 1 * (j 1).val
    omega

/-- An index of the first launch's output array is in point t's block iff each coordinate is in the block's range. -/
theorem mem_blk0 (t : Fin cfg0.N) (i : S2048x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7).slice (win0_6.rect t)).set ↔ _
  rw [View.set_slice_whole, Rect.mem_set_unit]
  exact Iff.rfl

/-- The four blocks of 512 rows tile the 2048 rows: row r is in block r / 512. -/
theorem cover0 (i : S2048x1024.Idx) :
    ∃ t : Fin cfg0.N, (cfg0.win 6).flush t = true ∧ i ∈ ((cfg0.win 6).blk t).view.set := by
  have hi0 : (i 0).val < 2048 := (i 0).isLt
  have hi1 : (i 1).val < 1024 := (i 1).isLt
  have hN : grid0.N = 4 := N_0
  have hq : (i 0).val / 512 < grid0.N := by rw [hN]; omega
  refine ⟨⟨(i 0).val / 512, hq⟩, flush0_6 _, ?_⟩
  rw [mem_blk0]
  obtain ⟨-, -, -, -, -, -, -, -, -, -, -, -, -, -, -, -, f0, f1⟩ := idx0 ⟨(i 0).val / 512, hq⟩
  intro a
  match a with
  | ⟨0, _⟩ =>
    show win0_6.index ⟨(i 0).val / 512, hq⟩ (0 : Fin 2) * 512 ≤ (i 0).val ∧ (i 0).val < win0_6.index ⟨(i 0).val / 512, hq⟩ (0 : Fin 2) * 512 + 512
    rw [f0]
    show (i 0).val / 512 * 512 ≤ (i 0).val ∧ (i 0).val < (i 0).val / 512 * 512 + 512
    omega
  | ⟨1, _⟩ =>
    show win0_6.index ⟨(i 0).val / 512, hq⟩ (1 : Fin 2) * 1024 ≤ (i 1).val ∧ (i 1).val < win0_6.index ⟨(i 0).val / 512, hq⟩ (1 : Fin 2) * 1024 + 1024
    rw [f1]
    omega

/-- After the first launch its output array holds the first stage of the argument arrays. -/
theorem final0 (c : Dev nD) : (dat0 (V1 m ρ) c).arrAt 6 cfg0.N = G1 m c :=
  (dat0 (V1 m ρ) c).arrAt_eq_of_cover 6 (G1 m c) (fun t _ => flushed0 m ρ c t) cover0

/-! ## The second launch -/

/-- The second launch finds the first launch's output array as the first launch left it. -/
theorem V2_main_v7 (c : Dev nD) : V2 m ρ c main_v7 = G1 m c := (W2_arr m ρ c 6).trans (final0 m ρ c)
/-- The task column was only read by the first launch. -/
theorem V2_main_v0 (c : Dev nD) : V2 m ρ c main_v0 = V1 m ρ c main_v0 :=
  (W2_arr m ρ c 1).trans (((dat0 (V1 m ρ) c).arrAt_in 1 rfl _).trans (A_eq0 (V1 m ρ) c 1))
/-- The first launch does not touch the second launch's weights. -/
theorem V2_main_v3 (c : Dev nD) : V2 m ρ c main_v3 = V1 m ρ c main_v3 := W2_of_ne m ρ c main_v3 (by decide)
/-- The first launch does not touch the second launch's weights. -/
theorem V2_main_arg7 (c : Dev nD) : V2 m ρ c main_arg7 = V1 m ρ c main_arg7 := W2_of_ne m ρ c main_arg7 (by decide)
/-- The first launch does not touch the second launch's weights. -/
theorem V2_main_v4 (c : Dev nD) : V2 m ρ c main_v4 = V1 m ρ c main_v4 := W2_of_ne m ρ c main_v4 (by decide)
/-- The first launch does not touch the second launch's weights. -/
theorem V2_main_arg9 (c : Dev nD) : V2 m ρ c main_arg9 = V1 m ρ c main_arg9 := W2_of_ne m ρ c main_arg9 (by decide)
/-- The first launch does not touch the second launch's weights. -/
theorem V2_main_v5 (c : Dev nD) : V2 m ρ c main_v5 = V1 m ρ c main_v5 := W2_of_ne m ρ c main_v5 (by decide)
/-- The first launch does not touch the second launch's weights. -/
theorem V2_main_arg11 (c : Dev nD) : V2 m ρ c main_arg11 = V1 m ρ c main_arg11 := W2_of_ne m ρ c main_arg11 (by decide)
/-- The first launch does not touch the second launch's weights. -/
theorem V2_main_v6 (c : Dev nD) : V2 m ρ c main_v6 = V1 m ρ c main_v6 := W2_of_ne m ρ c main_v6 (by decide)
/-- The first launch does not touch the second launch's weights. -/
theorem V2_main_arg13 (c : Dev nD) : V2 m ρ c main_arg13 = V1 m ρ c main_arg13 := W2_of_ne m ρ c main_arg13 (by decide)

set_option maxHeartbeats 4000000 in
/-- What point t of the second launch writes back is block t of the network of the argument arrays. -/
theorem flushed1 (c : Dev nD) (t : Fin cfg1.N) :
    (dat1 (V2 m ρ) c).flushed 10 t = ((cfg1.win 10).blk t).view.read (Elt Ideal) (G2 m c) := by
  have h4 : t.val < 4 := lt_of_lt_of_eq t.isLt N_1
  have ht : 512 * t.val + 512 ≤ 2048 := by omega
  show (cfg1.win 10).cut (grid1.coords t) ((dat1 (V2 m ρ) c).after 10 t) = _
  rw [after1_10, blk1_0 _ c t ht, blk1_1 _ c t ht, blk1_2, blk1_3, blk1_4, blk1_5, blk1_6, blk1_7, blk1_8, blk1_9,
    V2_main_v7, V2_main_v0, V2_main_v3, V2_main_arg7, V2_main_v4, V2_main_arg9, V2_main_v5, V2_main_arg11, V2_main_v6, V2_main_arg13,
    V1_main_v0, V1_main_v3, V1_main_arg7, V1_main_v4, V1_main_arg9, V1_main_v5, V1_main_arg11, V1_main_v6, V1_main_arg13,
    stage2_block]
  obtain ⟨-, -, -, -, -, -, -, -, -, -, -, -, -, -, -, -, -, -, -, -, -, -, -, -, -, -, f0, f1⟩ := idx1 t
  funext j
  show G2 m c (shiftRow (R := 512) (N := 2048) (C := 1) (512 * t.val) ht j) = G2 m c (((cfg1.win 10).blk t).view.emb j)
  refine congrArg _ (funext fun a => Fin.ext ?_)
  match a with
  | ⟨0, _⟩ =>
    show 512 * t.val + (j 0).val = win1_10.index t (0 : Fin 2) * 512 + 1 * (j 0).val
    omega
  | ⟨1, _⟩ =>
    show (j 1).val = win1_10.index t (1 : Fin 2) * 1 + 1 * (j 1).val
    omega

/-- An index of the second launch's output array is in point t's block iff each coordinate is in the block's range. -/
theorem mem_blk1 (t : Fin cfg1.N) (i : S2048x1.Idx) :
    i ∈ ((cfg1.win 10).blk t).view.set ↔ ∀ a : Fin 2, win1_10.index t a * S512x1.size a ≤ (i a).val ∧ (i a).val < win1_10.index t a * S512x1.size a + S512x1.size a := by
  show i ∈ ((View.whole main_v8).slice (win1_10.rect t)).set ↔ _
  rw [View.set_slice_whole, Rect.mem_set_unit]
  exact Iff.rfl

/-- The four blocks of 512 rows tile the 2048 rows. -/
theorem cover1 (i : S2048x1.Idx) :
    ∃ t : Fin cfg1.N, (cfg1.win 10).flush t = true ∧ i ∈ ((cfg1.win 10).blk t).view.set := by
  have hi0 : (i 0).val < 2048 := (i 0).isLt
  have hi1 : (i 1).val < 1 := (i 1).isLt
  have hN : grid1.N = 4 := N_1
  have hq : (i 0).val / 512 < grid1.N := by rw [hN]; omega
  refine ⟨⟨(i 0).val / 512, hq⟩, flush1_10 _, ?_⟩
  rw [mem_blk1]
  obtain ⟨-, -, -, -, -, -, -, -, -, -, -, -, -, -, -, -, -, -, -, -, -, -, -, -, -, -, f0, f1⟩ := idx1 ⟨(i 0).val / 512, hq⟩
  intro a
  match a with
  | ⟨0, _⟩ =>
    show win1_10.index ⟨(i 0).val / 512, hq⟩ (0 : Fin 2) * 512 ≤ (i 0).val ∧ (i 0).val < win1_10.index ⟨(i 0).val / 512, hq⟩ (0 : Fin 2) * 512 + 512
    rw [f0]
    show (i 0).val / 512 * 512 ≤ (i 0).val ∧ (i 0).val < (i 0).val / 512 * 512 + 512
    omega
  | ⟨1, _⟩ =>
    show win1_10.index ⟨(i 0).val / 512, hq⟩ (1 : Fin 2) * 1 ≤ (i 1).val ∧ (i 1).val < win1_10.index ⟨(i 0).val / 512, hq⟩ (1 : Fin 2) * 1 + 1
    rw [f1]
    omega

/-- After the second launch its output array holds the network of the argument arrays. -/
theorem final1 (c : Dev nD) : (dat1 (V2 m ρ) c).arrAt 10 cfg1.N = G2 m c :=
  (dat1 (V2 m ρ) c).arrAt_eq_of_cover 10 (G2 m c) (fun t _ => flushed1 m ρ c t) cover1

end Run

end Cert.KernelIdeal.NetValue

end
-- ==== Proof.RefOps.lean ====
/-
  The reference program as a list of host operations.  The operations are listed in short runs; five stretches are
  made of them: the shared block on the input rows; the one-hot array of the task words; the masked sum over the
  four tasks of the task blocks; the second shared block; the second masked sum with the heads and the quotient
  1 / (1 + exp (−z)).  The program is the sequence of the five stretches one after the other.
-/
import proofs.«146362_j55078660603958_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in short runs -/

set_option maxRecDepth 8192 in
set_option maxHeartbeats 4000000 in
/-- Operations 1 to 19 of the reference, in program order. -/
def run0 : List (HloOp τ sig (Elt F)) :=
  [ unary main_arg2 main_v0 ((extractStridedSlice S1x1024x1024 ![0, 0, 0] · slices_S2x1024x1024_S1x1024x1024_0_0_0) : (⟨S2x1024x1024, .f32⟩ : BufTy).Contents (Elt F) → (⟨S1x1024x1024, .f32⟩ : BufTy).Contents (Elt F)),
    reshape main_v0 main_v1 rfl shapeCasts_S1x1024x1024_S1024x1024,
    unary main_arg3 main_v2 ((extractStridedSlice S1x1024 ![0, 0] · slices_S2x1024_S1x1024_0_0) : (⟨S2x1024, .f32⟩ : BufTy).Contents (Elt F) → (⟨S1x1024, .f32⟩ : BufTy).Contents (Elt F)),
    reshape main_v2 main_v3 rfl shapeCasts_S1x1024_S1024,
    binary main_arg0 main_v1 main_v4 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v3 main_v5 (broadcastInDim S1x1024 ![1] bcast_S1024_S1x1024_1 : (⟨S1024, .f32⟩ : BufTy).Contents (Elt F) → (⟨S1x1024, .f32⟩ : BufTy).Contents (Elt F)),
    unary main_v5 main_v6 (broadcastInDim S2048x1024 ![0, 1] bcast_S1x1024_S2048x1024_0_1 : (⟨S1x1024, .f32⟩ : BufTy).Contents (Elt F) → (⟨S2048x1024, .f32⟩ : BufTy).Contents (Elt F)),
    binary main_v4 main_v6 main_v7 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x1024, .f32⟩) main_call0_v0) (broadcastInDim S2048x1024 ![] bcast_S_S2048x1024),
    TRef.binary (TRef.of (T := ⟨S2048x1024, .f32⟩) main_v7) (TRef.of (T := ⟨S2048x1024, .f32⟩) main_call0_v0) (TRef.of (T := ⟨S2048x1024, .f32⟩) main_v8) maximumf,
    unary main_arg2 main_v9 ((extractStridedSlice S1x1024x1024 ![1, 0, 0] · slices_S2x1024x1024_S1x1024x1024_1_0_0) : (⟨S2x1024x1024, .f32⟩ : BufTy).Contents (Elt F) → (⟨S1x1024x1024, .f32⟩ : BufTy).Contents (Elt F)),
    reshape main_v9 main_v10 rfl shapeCasts_S1x1024x1024_S1024x1024,
    unary main_arg3 main_v11 ((extractStridedSlice S1x1024 ![1, 0] · slices_S2x1024_S1x1024_1_0) : (⟨S2x1024, .f32⟩ : BufTy).Contents (Elt F) → (⟨S1x1024, .f32⟩ : BufTy).Contents (Elt F)),
    reshape main_v11 main_v12 rfl shapeCasts_S1x1024_S1024,
    binary main_v8 main_v10 main_v13 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v12 main_v14 (broadcastInDim S1x1024 ![1] bcast_S1024_S1x1024_1 : (⟨S1024, .f32⟩ : BufTy).Contents (Elt F) → (⟨S1x1024, .f32⟩ : BufTy).Contents (Elt F)),
    unary main_v14 main_v15 (broadcastInDim S2048x1024 ![0, 1] bcast_S1x1024_S2048x1024_0_1 : (⟨S1x1024, .f32⟩ : BufTy).Contents (Elt F) → (⟨S2048x1024, .f32⟩ : BufTy).Contents (Elt F)),
    binary main_v13 main_v15 main_v16 (addf : (⟨S2048x1024, .f32⟩ : BufTy).Contents (Elt F) → (⟨S2048x1024, .f32⟩ : BufTy).Contents (Elt F) → (⟨S2048x1024, .f32⟩ : BufTy).Contents (Elt F)) ]

set_option maxRecDepth 8192 in
set_option maxHeartbeats 4000000 in
/-- Operations 20 to 25 of the reference, in program order. -/
def run1 : List (HloOp τ sig (Elt F)) :=
  [ TRef.unary (TRef.of (T := ⟨S2048, .i32⟩) main_arg1) (TRef.of (T := ⟨S2048x1, .i32⟩) main_call1_v0) (broadcastInDim S2048x1 ![0] bcast_S2048_S2048x1_0),
    TRef.nullary (TRef.of (T := ⟨S1x4, .i32⟩) main_call1_v1) (iotaInDim S1x4 32 1),
    TRef.unary (TRef.of (T := ⟨S2048x1, .i32⟩) main_call1_v0) (TRef.of (T := ⟨S2048x4, .i32⟩) main_call1_v2) (broadcastInDim S2048x4 ![0, 1] bcast_S2048x1_S2048x4_0_1),
    TRef.unary (TRef.of (T := ⟨S1x4, .i32⟩) main_call1_v1) (TRef.of (T := ⟨S2048x4, .i32⟩) main_call1_v3) (broadcastInDim S2048x4 ![0, 1] bcast_S1x4_S2048x4_0_1),
    TRef.binary (TRef.of (T := ⟨S2048x4, .i32⟩) main_call1_v2) (TRef.of (T := ⟨S2048x4, .i32⟩) main_call1_v3) (TRef.of (T := ⟨S2048x4, .i1⟩) main_call1_v4) (cmpi .eq),
    TRef.unary (TRef.of (T := ⟨S2048x4, .i1⟩) main_call1_v4) (TRef.of (T := ⟨S2048x4, .f32⟩) main_v17) (uitofp .f32) ]

set_option maxRecDepth 8192 in
set_option maxHeartbeats 4000000 in
/-- Operations 26 to 50 of the reference, in program order. -/
def run2 : List (HloOp τ sig (Elt F)) :=
  [ nullary main_cst (constant S_ .f32 0x00000000#32),
    unary main_cst main_v18 (broadcastInDim S2048x1024 ![] bcast_S_S2048x1024 : (⟨S_, .f32⟩ : BufTy).Contents (Elt F) → (⟨S2048x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S2048x1024, .f32⟩) main_call2_v0) (broadcastInDim S2048x1024 ![] bcast_S_S2048x1024),
    TRef.binary (TRef.of (T := ⟨S2048x1024, .f32⟩) main_v16) (TRef.of (T := ⟨S2048x1024, .f32⟩) main_call2_v0) (TRef.of (T := ⟨S2048x1024, .f32⟩) main_v19) maximumf,
    unary main_arg4 main_v20 ((extractStridedSlice S1x1x1024x1024 ![0, 0, 0, 0] · slices_S4x2x1024x1024_S1x1x1024x1024_0_0_0_0) : (⟨S4x2x1024x1024, .f32⟩ : BufTy).Contents (Elt F) → (⟨S1x1x1024x1024, .f32⟩ : BufTy).Contents (Elt F)),
    reshape main_v20 main_v21 rfl shapeCasts_S1x1x1024x1024_S1024x1024,
    unary main_arg5 main_v22 ((extractStridedSlice S1x1x1024 ![0, 0, 0] · slices_S4x2x1024_S1x1x1024_0_0_0) : (⟨S4x2x1024, .f32⟩ : BufTy).Contents (Elt F) → (⟨S1x1x1024, .f32⟩ : BufTy).Contents (Elt F)),
    reshape main_v22 main_v23 rfl shapeCasts_S1x1x1024_S1024,
    binary main_v19 main_v21 main_v24 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v23 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S2048x1024 ![0, 1] bcast_S1x1024_S2048x1024_0_1 : (⟨S1x1024, .f32⟩ : BufTy).Contents (Elt F) → (⟨S2048x1024, .f32⟩ : BufTy).Contents (Elt F)),
    binary main_v24 main_v26 main_v27 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2048x1024, .f32⟩) main_call3_v0) (broadcastInDim S2048x1024 ![] bcast_S_S2048x1024),
    TRef.binary (TRef.of (T := ⟨S2048x1024, .f32⟩) main_v27) (TRef.of (T := ⟨S2048x1024, .f32⟩) main_call3_v0) (TRef.of (T := ⟨S2048x1024, .f32⟩) main_v28) maximumf,
    unary main_arg4 main_v29 ((extractStridedSlice S1x1x1024x1024 ![0, 1, 0, 0] · slices_S4x2x1024x1024_S1x1x1024x1024_0_1_0_0) : (⟨S4x2x1024x1024, .f32⟩ : BufTy).Contents (Elt F) → (⟨S1x1x1024x1024, .f32⟩ : BufTy).Contents (Elt F)),
    reshape main_v29 main_v30 rfl shapeCasts_S1x1x1024x1024_S1024x1024,
    unary main_arg5 main_v31 ((extractStridedSlice S1x1x1024 ![0, 1, 0] · slices_S4x2x1024_S1x1x1024_0_1_0) : (⟨S4x2x1024, .f32⟩ : BufTy).Contents (Elt F) → (⟨S1x1x1024, .f32⟩ : BufTy).Contents (Elt F)),
    reshape main_v31 main_v32 rfl shapeCasts_S1x1x1024_S1024,
    binary main_v28 main_v30 main_v33 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v32 main_v34 (broadcastInDim S1x1024 ![1] bcast_S1024_S1x1024_1 : (⟨S1024, .f32⟩ : BufTy).Contents (Elt F) → (⟨S1x1024, .f32⟩ : BufTy).Contents (Elt F)),
    unary main_v34 main_v35 (broadcastInDim S2048x1024 ![0, 1] bcast_S1x1024_S2048x1024_0_1 : (⟨S1x1024, .f32⟩ : BufTy).Contents (Elt F) → (⟨S2048x1024, .f32⟩ : BufTy).Contents (Elt F)),
    binary main_v33 main_v35 main_v36 (addf : (⟨S2048x1024, .f32⟩ : BufTy).Contents (Elt F) → (⟨S2048x1024, .f32⟩ : BufTy).Contents (Elt F) → (⟨S2048x1024, .f32⟩ : BufTy).Contents (Elt F)),
    unary main_v17 main_v37 ((extractStridedSlice S2048x1 ![0, 0] · slices_S2048x4_S2048x1_0_0) : (⟨S2048x4, .f32⟩ : BufTy).Contents (Elt F) → (⟨S2048x1, .f32⟩ : BufTy).Contents (Elt F)) ]

set_option maxRecDepth 8192 in
set_option maxHeartbeats 4000000 in
/-- Operations 51 to 75 of the reference, in program order. -/
def run3 : List (HloOp τ sig (Elt F)) :=
  [ unary main_v37 main_v38 (broadcastInDim S2048x1024 ![0, 1] bcast_S2048x1_S2048x1024_0_1 : (⟨S2048x1, .f32⟩ : BufTy).Contents (Elt F) → (⟨S2048x1024, .f32⟩ : BufTy).Contents (Elt F)),
    binary main_v38 main_v36 main_v39 (mulf : (⟨S2048x1024, .f32⟩ : BufTy).Contents (Elt F) → (⟨S2048x1024, .f32⟩ : BufTy).Contents (Elt F) → (⟨S2048x1024, .f32⟩ : BufTy).Contents (Elt F)),
    binary main_v18 main_v39 main_v40 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048x1024, .f32⟩) main_call4_v0) (broadcastInDim S2048x1024 ![] bcast_S_S2048x1024),
    TRef.binary (TRef.of (T := ⟨S2048x1024, .f32⟩) main_v16) (TRef.of (T := ⟨S2048x1024, .f32⟩) main_call4_v0) (TRef.of (T := ⟨S2048x1024, .f32⟩) main_v41) maximumf,
    unary main_arg4 main_v42 ((extractStridedSlice S1x1x1024x1024 ![1, 0, 0, 0] · slices_S4x2x1024x1024_S1x1x1024x1024_1_0_0_0) : (⟨S4x2x1024x1024, .f32⟩ : BufTy).Contents (Elt F) → (⟨S1x1x1024x1024, .f32⟩ : BufTy).Contents (Elt F)),
    reshape main_v42 main_v43 rfl shapeCasts_S1x1x1024x1024_S1024x1024,
    unary main_arg5 main_v44 ((extractStridedSlice S1x1x1024 ![1, 0, 0] · slices_S4x2x1024_S1x1x1024_1_0_0) : (⟨S4x2x1024, .f32⟩ : BufTy).Contents (Elt F) → (⟨S1x1x1024, .f32⟩ : BufTy).Contents (Elt F)),
    reshape main_v44 main_v45 rfl shapeCasts_S1x1x1024_S1024,
    binary main_v41 main_v43 main_v46 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v45 main_v47 (broadcastInDim S1x1024 ![1] bcast_S1024_S1x1024_1 : (⟨S1024, .f32⟩ : BufTy).Contents (Elt F) → (⟨S1x1024, .f32⟩ : BufTy).Contents (Elt F)),
    unary main_v47 main_v48 (broadcastInDim S2048x1024 ![0, 1] bcast_S1x1024_S2048x1024_0_1 : (⟨S1x1024, .f32⟩ : BufTy).Contents (Elt F) → (⟨S2048x1024, .f32⟩ : BufTy).Contents (Elt F)),
    binary main_v46 main_v48 main_v49 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S2048x1024, .f32⟩) main_call5_v0) (broadcastInDim S2048x1024 ![] bcast_S_S2048x1024),
    TRef.binary (TRef.of (T := ⟨S2048x1024, .f32⟩) main_v49) (TRef.of (T := ⟨S2048x1024, .f32⟩) main_call5_v0) (TRef.of (T := ⟨S2048x1024, .f32⟩) main_v50) maximumf,
    unary main_arg4 main_v51 ((extractStridedSlice S1x1x1024x1024 ![1, 1, 0, 0] · slices_S4x2x1024x1024_S1x1x1024x1024_1_1_0_0) : (⟨S4x2x1024x1024, .f32⟩ : BufTy).Contents (Elt F) → (⟨S1x1x1024x1024, .f32⟩ : BufTy).Contents (Elt F)),
    reshape main_v51 main_v52 rfl shapeCasts_S1x1x1024x1024_S1024x1024,
    unary main_arg5 main_v53 ((extractStridedSlice S1x1x1024 ![1, 1, 0] · slices_S4x2x1024_S1x1x1024_1_1_0) : (⟨S4x2x1024, .f32⟩ : BufTy).Contents (Elt F) → (⟨S1x1x1024, .f32⟩ : BufTy).Contents (Elt F)),
    reshape main_v53 main_v54 rfl shapeCasts_S1x1x1024_S1024,
    binary main_v50 main_v52 main_v55 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v54 main_v56 (broadcastInDim S1x1024 ![1] bcast_S1024_S1x1024_1 : (⟨S1024, .f32⟩ : BufTy).Contents (Elt F) → (⟨S1x1024, .f32⟩ : BufTy).Contents (Elt F)),
    unary main_v56 main_v57 (broadcastInDim S2048x1024 ![0, 1] bcast_S1x1024_S2048x1024_0_1 : (⟨S1x1024, .f32⟩ : BufTy).Contents (Elt F) → (⟨S2048x1024, .f32⟩ : BufTy).Contents (Elt F)),
    binary main_v55 main_v57 main_v58 (addf : (⟨S2048x1024, .f32⟩ : BufTy).Contents (Elt F) → (⟨S2048x1024, .f32⟩ : BufTy).Contents (Elt F) → (⟨S2048x1024, .f32⟩ : BufTy).Contents (Elt F)) ]

set_option maxRecDepth 8192 in
set_option maxHeartbeats 4000000 in
/-- Operations 76 to 103 of the reference, in program order. -/
def run4 : List (HloOp τ sig (Elt F)) :=
  [ unary main_v17 main_v59 ((extractStridedSlice S2048x1 ![0, 1] · slices_S2048x4_S2048x1_0_1) : (⟨S2048x4, .f32⟩ : BufTy).Contents (Elt F) → (⟨S2048x1, .f32⟩ : BufTy).Contents (Elt F)),
    unary main_v59 main_v60 (broadcastInDim S2048x1024 ![0, 1] bcast_S2048x1_S2048x1024_0_1 : (⟨S2048x1, .f32⟩ : BufTy).Contents (Elt F) → (⟨S2048x1024, .f32⟩ : BufTy).Contents (Elt F)),
    binary main_v60 main_v58 main_v61 (mulf : (⟨S2048x1024, .f32⟩ : BufTy).Contents (Elt F) → (⟨S2048x1024, .f32⟩ : BufTy).Contents (Elt F) → (⟨S2048x1024, .f32⟩ : BufTy).Contents (Elt F)),
    binary main_v40 main_v61 main_v62 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S2048x1024, .f32⟩) main_call6_v0) (broadcastInDim S2048x1024 ![] bcast_S_S2048x1024),
    TRef.binary (TRef.of (T := ⟨S2048x1024, .f32⟩) main_v16) (TRef.of (T := ⟨S2048x1024, .f32⟩) main_call6_v0) (TRef.of (T := ⟨S2048x1024, .f32⟩) main_v63) maximumf,
    unary main_arg4 main_v64 ((extractStridedSlice S1x1x1024x1024 ![2, 0, 0, 0] · slices_S4x2x1024x1024_S1x1x1024x1024_2_0_0_0) : (⟨S4x2x1024x1024, .f32⟩ : BufTy).Contents (Elt F) → (⟨S1x1x1024x1024, .f32⟩ : BufTy).Contents (Elt F)),
    reshape main_v64 main_v65 rfl shapeCasts_S1x1x1024x1024_S1024x1024,
    unary main_arg5 main_v66 ((extractStridedSlice S1x1x1024 ![2, 0, 0] · slices_S4x2x1024_S1x1x1024_2_0_0) : (⟨S4x2x1024, .f32⟩ : BufTy).Contents (Elt F) → (⟨S1x1x1024, .f32⟩ : BufTy).Contents (Elt F)),
    reshape main_v66 main_v67 rfl shapeCasts_S1x1x1024_S1024,
    binary main_v63 main_v65 main_v68 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v67 main_v69 (broadcastInDim S1x1024 ![1] bcast_S1024_S1x1024_1 : (⟨S1024, .f32⟩ : BufTy).Contents (Elt F) → (⟨S1x1024, .f32⟩ : BufTy).Contents (Elt F)),
    unary main_v69 main_v70 (broadcastInDim S2048x1024 ![0, 1] bcast_S1x1024_S2048x1024_0_1 : (⟨S1x1024, .f32⟩ : BufTy).Contents (Elt F) → (⟨S2048x1024, .f32⟩ : BufTy).Contents (Elt F)),
    binary main_v68 main_v70 main_v71 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S2048x1024, .f32⟩) main_call7_v0) (broadcastInDim S2048x1024 ![] bcast_S_S2048x1024),
    TRef.binary (TRef.of (T := ⟨S2048x1024, .f32⟩) main_v71) (TRef.of (T := ⟨S2048x1024, .f32⟩) main_call7_v0) (TRef.of (T := ⟨S2048x1024, .f32⟩) main_v72) maximumf,
    unary main_arg4 main_v73 ((extractStridedSlice S1x1x1024x1024 ![2, 1, 0, 0] · slices_S4x2x1024x1024_S1x1x1024x1024_2_1_0_0) : (⟨S4x2x1024x1024, .f32⟩ : BufTy).Contents (Elt F) → (⟨S1x1x1024x1024, .f32⟩ : BufTy).Contents (Elt F)),
    reshape main_v73 main_v74 rfl shapeCasts_S1x1x1024x1024_S1024x1024,
    unary main_arg5 main_v75 ((extractStridedSlice S1x1x1024 ![2, 1, 0] · slices_S4x2x1024_S1x1x1024_2_1_0) : (⟨S4x2x1024, .f32⟩ : BufTy).Contents (Elt F) → (⟨S1x1x1024, .f32⟩ : BufTy).Contents (Elt F)),
    reshape main_v75 main_v76 rfl shapeCasts_S1x1x1024_S1024,
    binary main_v72 main_v74 main_v77 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v76 main_v78 (broadcastInDim S1x1024 ![1] bcast_S1024_S1x1024_1 : (⟨S1024, .f32⟩ : BufTy).Contents (Elt F) → (⟨S1x1024, .f32⟩ : BufTy).Contents (Elt F)),
    unary main_v78 main_v79 (broadcastInDim S2048x1024 ![0, 1] bcast_S1x1024_S2048x1024_0_1 : (⟨S1x1024, .f32⟩ : BufTy).Contents (Elt F) → (⟨S2048x1024, .f32⟩ : BufTy).Contents (Elt F)),
    binary main_v77 main_v79 main_v80 (addf : (⟨S2048x1024, .f32⟩ : BufTy).Contents (Elt F) → (⟨S2048x1024, .f32⟩ : BufTy).Contents (Elt F) → (⟨S2048x1024, .f32⟩ : BufTy).Contents (Elt F)),
    unary main_v17 main_v81 ((extractStridedSlice S2048x1 ![0, 2] · slices_S2048x4_S2048x1_0_2) : (⟨S2048x4, .f32⟩ : BufTy).Contents (Elt F) → (⟨S2048x1, .f32⟩ : BufTy).Contents (Elt F)),
    unary main_v81 main_v82 (broadcastInDim S2048x1024 ![0, 1] bcast_S2048x1_S2048x1024_0_1 : (⟨S2048x1, .f32⟩ : BufTy).Contents (Elt F) → (⟨S2048x1024, .f32⟩ : BufTy).Contents (Elt F)) ]

set_option maxRecDepth 8192 in
set_option maxHeartbeats 4000000 in
/-- Operations 104 to 131 of the reference, in program order. -/
def run5 : List (HloOp τ sig (Elt F)) :=
  [ binary main_v82 main_v80 main_v83 (mulf : (⟨S2048x1024, .f32⟩ : BufTy).Contents (Elt F) → (⟨S2048x1024, .f32⟩ : BufTy).Contents (Elt F) → (⟨S2048x1024, .f32⟩ : BufTy).Contents (Elt F)),
    binary main_v62 main_v83 main_v84 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S2048x1024, .f32⟩) main_call8_v0) (broadcastInDim S2048x1024 ![] bcast_S_S2048x1024),
    TRef.binary (TRef.of (T := ⟨S2048x1024, .f32⟩) main_v16) (TRef.of (T := ⟨S2048x1024, .f32⟩) main_call8_v0) (TRef.of (T := ⟨S2048x1024, .f32⟩) main_v85) maximumf,
    unary main_arg4 main_v86 ((extractStridedSlice S1x1x1024x1024 ![3, 0, 0, 0] · slices_S4x2x1024x1024_S1x1x1024x1024_3_0_0_0) : (⟨S4x2x1024x1024, .f32⟩ : BufTy).Contents (Elt F) → (⟨S1x1x1024x1024, .f32⟩ : BufTy).Contents (Elt F)),
    reshape main_v86 main_v87 rfl shapeCasts_S1x1x1024x1024_S1024x1024,
    unary main_arg5 main_v88 ((extractStridedSlice S1x1x1024 ![3, 0, 0] · slices_S4x2x1024_S1x1x1024_3_0_0) : (⟨S4x2x1024, .f32⟩ : BufTy).Contents (Elt F) → (⟨S1x1x1024, .f32⟩ : BufTy).Contents (Elt F)),
    reshape main_v88 main_v89 rfl shapeCasts_S1x1x1024_S1024,
    binary main_v85 main_v87 main_v90 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v89 main_v91 (broadcastInDim S1x1024 ![1] bcast_S1024_S1x1024_1 : (⟨S1024, .f32⟩ : BufTy).Contents (Elt F) → (⟨S1x1024, .f32⟩ : BufTy).Contents (Elt F)),
    unary main_v91 main_v92 (broadcastInDim S2048x1024 ![0, 1] bcast_S1x1024_S2048x1024_0_1 : (⟨S1x1024, .f32⟩ : BufTy).Contents (Elt F) → (⟨S2048x1024, .f32⟩ : BufTy).Contents (Elt F)),
    binary main_v90 main_v92 main_v93 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S2048x1024, .f32⟩) main_call9_v0) (broadcastInDim S2048x1024 ![] bcast_S_S2048x1024),
    TRef.binary (TRef.of (T := ⟨S2048x1024, .f32⟩) main_v93) (TRef.of (T := ⟨S2048x1024, .f32⟩) main_call9_v0) (TRef.of (T := ⟨S2048x1024, .f32⟩) main_v94) maximumf,
    unary main_arg4 main_v95 ((extractStridedSlice S1x1x1024x1024 ![3, 1, 0, 0] · slices_S4x2x1024x1024_S1x1x1024x1024_3_1_0_0) : (⟨S4x2x1024x1024, .f32⟩ : BufTy).Contents (Elt F) → (⟨S1x1x1024x1024, .f32⟩ : BufTy).Contents (Elt F)),
    reshape main_v95 main_v96 rfl shapeCasts_S1x1x1024x1024_S1024x1024,
    unary main_arg5 main_v97 ((extractStridedSlice S1x1x1024 ![3, 1, 0] · slices_S4x2x1024_S1x1x1024_3_1_0) : (⟨S4x2x1024, .f32⟩ : BufTy).Contents (Elt F) → (⟨S1x1x1024, .f32⟩ : BufTy).Contents (Elt F)),
    reshape main_v97 main_v98 rfl shapeCasts_S1x1x1024_S1024,
    binary main_v94 main_v96 main_v99 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v98 main_v100 (broadcastInDim S1x1024 ![1] bcast_S1024_S1x1024_1 : (⟨S1024, .f32⟩ : BufTy).Contents (Elt F) → (⟨S1x1024, .f32⟩ : BufTy).Contents (Elt F)),
    unary main_v100 main_v101 (broadcastInDim S2048x1024 ![0, 1] bcast_S1x1024_S2048x1024_0_1 : (⟨S1x1024, .f32⟩ : BufTy).Contents (Elt F) → (⟨S2048x1024, .f32⟩ : BufTy).Contents (Elt F)),
    binary main_v99 main_v101 main_v102 (addf : (⟨S2048x1024, .f32⟩ : BufTy).Contents (Elt F) → (⟨S2048x1024, .f32⟩ : BufTy).Contents (Elt F) → (⟨S2048x1024, .f32⟩ : BufTy).Contents (Elt F)),
    unary main_v17 main_v103 ((extractStridedSlice S2048x1 ![0, 3] · slices_S2048x4_S2048x1_0_3) : (⟨S2048x4, .f32⟩ : BufTy).Contents (Elt F) → (⟨S2048x1, .f32⟩ : BufTy).Contents (Elt F)),
    unary main_v103 main_v104 (broadcastInDim S2048x1024 ![0, 1] bcast_S2048x1_S2048x1024_0_1 : (⟨S2048x1, .f32⟩ : BufTy).Contents (Elt F) → (⟨S2048x1024, .f32⟩ : BufTy).Contents (Elt F)),
    binary main_v104 main_v102 main_v105 (mulf : (⟨S2048x1024, .f32⟩ : BufTy).Contents (Elt F) → (⟨S2048x1024, .f32⟩ : BufTy).Contents (Elt F) → (⟨S2048x1024, .f32⟩ : BufTy).Contents (Elt F)),
    binary main_v84 main_v105 main_v106 (addf : (⟨S2048x1024, .f32⟩ : BufTy).Contents (Elt F) → (⟨S2048x1024, .f32⟩ : BufTy).Contents (Elt F) → (⟨S2048x1024, .f32⟩ : BufTy).Contents (Elt F)) ]

set_option maxRecDepth 8192 in
set_option maxHeartbeats 4000000 in
/-- Operations 132 to 145 of the reference, in program order. -/
def run6 : List (HloOp τ sig (Elt F)) :=
  [ unary main_arg6 main_v107 ((extractStridedSlice S1x1024x1024 ![0, 0, 0] · slices_S2x1024x1024_S1x1024x1024_0_0_0) : (⟨S2x1024x1024, .f32⟩ : BufTy).Contents (Elt F) → (⟨S1x1024x1024, .f32⟩ : BufTy).Contents (Elt F)),
    reshape main_v107 main_v108 rfl shapeCasts_S1x1024x1024_S1024x1024,
    unary main_arg7 main_v109 ((extractStridedSlice S1x1024 ![0, 0] · slices_S2x1024_S1x1024_0_0) : (⟨S2x1024, .f32⟩ : BufTy).Contents (Elt F) → (⟨S1x1024, .f32⟩ : BufTy).Contents (Elt F)),
    reshape main_v109 main_v110 rfl shapeCasts_S1x1024_S1024,
    binary main_v106 main_v108 main_v111 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v110 main_v112 (broadcastInDim S1x1024 ![1] bcast_S1024_S1x1024_1 : (⟨S1024, .f32⟩ : BufTy).Contents (Elt F) → (⟨S1x1024, .f32⟩ : BufTy).Contents (Elt F)),
    unary main_v112 main_v113 (broadcastInDim S2048x1024 ![0, 1] bcast_S1x1024_S2048x1024_0_1 : (⟨S1x1024, .f32⟩ : BufTy).Contents (Elt F) → (⟨S2048x1024, .f32⟩ : BufTy).Contents (Elt F)),
    binary main_v111 main_v113 main_v114 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S2048x1024, .f32⟩) main_call10_v0) (broadcastInDim S2048x1024 ![] bcast_S_S2048x1024),
    TRef.binary (TRef.of (T := ⟨S2048x1024, .f32⟩) main_v114) (TRef.of (T := ⟨S2048x1024, .f32⟩) main_call10_v0) (TRef.of (T := ⟨S2048x1024, .f32⟩) main_v115) maximumf,
    unary main_arg6 main_v116 ((extractStridedSlice S1x1024x1024 ![1, 0, 0] · slices_S2x1024x1024_S1x1024x1024_1_0_0) : (⟨S2x1024x1024, .f32⟩ : BufTy).Contents (Elt F) → (⟨S1x1024x1024, .f32⟩ : BufTy).Contents (Elt F)),
    reshape main_v116 main_v117 rfl shapeCasts_S1x1024x1024_S1024x1024,
    unary main_arg7 main_v118 ((extractStridedSlice S1x1024 ![1, 0] · slices_S2x1024_S1x1024_1_0) : (⟨S2x1024, .f32⟩ : BufTy).Contents (Elt F) → (⟨S1x1024, .f32⟩ : BufTy).Contents (Elt F)) ]

set_option maxRecDepth 8192 in
set_option maxHeartbeats 4000000 in
/-- Operations 146 to 150 of the reference, in program order. -/
def run7 : List (HloOp τ sig (Elt F)) :=
  [ reshape main_v118 main_v119 rfl shapeCasts_S1x1024_S1024,
    binary main_v115 main_v117 main_v120 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v119 main_v121 (broadcastInDim S1x1024 ![1] bcast_S1024_S1x1024_1 : (⟨S1024, .f32⟩ : BufTy).Contents (Elt F) → (⟨S1x1024, .f32⟩ : BufTy).Contents (Elt F)),
    unary main_v121 main_v122 (broadcastInDim S2048x1024 ![0, 1] bcast_S1x1024_S2048x1024_0_1 : (⟨S1x1024, .f32⟩ : BufTy).Contents (Elt F) → (⟨S2048x1024, .f32⟩ : BufTy).Contents (Elt F)),
    binary main_v120 main_v122 main_v123 (addf : (⟨S2048x1024, .f32⟩ : BufTy).Contents (Elt F) → (⟨S2048x1024, .f32⟩ : BufTy).Contents (Elt F) → (⟨S2048x1024, .f32⟩ : BufTy).Contents (Elt F)) ]

set_option maxRecDepth 8192 in
set_option maxHeartbeats 4000000 in
/-- Operations 151 to 172 of the reference, in program order. -/
def run8 : List (HloOp τ sig (Elt F)) :=
  [ nullary main_cst_0 (constant S_ .f32 0x00000000#32),
    unary main_cst_0 main_v124 (broadcastInDim S2048x1 ![] bcast_S_S2048x1 : (⟨S_, .f32⟩ : BufTy).Contents (Elt F) → (⟨S2048x1, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S2048x1024, .f32⟩) main_call11_v0) (broadcastInDim S2048x1024 ![] bcast_S_S2048x1024),
    TRef.binary (TRef.of (T := ⟨S2048x1024, .f32⟩) main_v123) (TRef.of (T := ⟨S2048x1024, .f32⟩) main_call11_v0) (TRef.of (T := ⟨S2048x1024, .f32⟩) main_v125) maximumf,
    unary main_arg8 main_v126 ((extractStridedSlice S1x1x1024x1024 ![0, 0, 0, 0] · slices_S4x2x1024x1024_S1x1x1024x1024_0_0_0_0) : (⟨S4x2x1024x1024, .f32⟩ : BufTy).Contents (Elt F) → (⟨S1x1x1024x1024, .f32⟩ : BufTy).Contents (Elt F)),
    reshape main_v126 main_v127 rfl shapeCasts_S1x1x1024x1024_S1024x1024,
    unary main_arg9 main_v128 ((extractStridedSlice S1x1x1024 ![0, 0, 0] · slices_S4x2x1024_S1x1x1024_0_0_0) : (⟨S4x2x1024, .f32⟩ : BufTy).Contents (Elt F) → (⟨S1x1x1024, .f32⟩ : BufTy).Contents (Elt F)),
    reshape main_v128 main_v129 rfl shapeCasts_S1x1x1024_S1024,
    binary main_v125 main_v127 main_v130 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v129 main_v131 (broadcastInDim S1x1024 ![1] bcast_S1024_S1x1024_1 : (⟨S1024, .f32⟩ : BufTy).Contents (Elt F) → (⟨S1x1024, .f32⟩ : BufTy).Contents (Elt F)),
    unary main_v131 main_v132 (broadcastInDim S2048x1024 ![0, 1] bcast_S1x1024_S2048x1024_0_1 : (⟨S1x1024, .f32⟩ : BufTy).Contents (Elt F) → (⟨S2048x1024, .f32⟩ : BufTy).Contents (Elt F)),
    binary main_v130 main_v132 main_v133 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S2048x1024, .f32⟩) main_call12_v0) (broadcastInDim S2048x1024 ![] bcast_S_S2048x1024),
    TRef.binary (TRef.of (T := ⟨S2048x1024, .f32⟩) main_v133) (TRef.of (T := ⟨S2048x1024, .f32⟩) main_call12_v0) (TRef.of (T := ⟨S2048x1024, .f32⟩) main_v134) maximumf,
    unary main_arg8 main_v135 ((extractStridedSlice S1x1x1024x1024 ![0, 1, 0, 0] · slices_S4x2x1024x1024_S1x1x1024x1024_0_1_0_0) : (⟨S4x2x1024x1024, .f32⟩ : BufTy).Contents (Elt F) → (⟨S1x1x1024x1024, .f32⟩ : BufTy).Contents (Elt F)),
    reshape main_v135 main_v136 rfl shapeCasts_S1x1x1024x1024_S1024x1024,
    unary main_arg9 main_v137 ((extractStridedSlice S1x1x1024 ![0, 1, 0] · slices_S4x2x1024_S1x1x1024_0_1_0) : (⟨S4x2x1024, .f32⟩ : BufTy).Contents (Elt F) → (⟨S1x1x1024, .f32⟩ : BufTy).Contents (Elt F)),
    reshape main_v137 main_v138 rfl shapeCasts_S1x1x1024_S1024,
    binary main_v134 main_v136 main_v139 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v138 main_v140 (broadcastInDim S1x1024 ![1] bcast_S1024_S1x1024_1 : (⟨S1024, .f32⟩ : BufTy).Contents (Elt F) → (⟨S1x1024, .f32⟩ : BufTy).Contents (Elt F)) ]

set_option maxRecDepth 8192 in
set_option maxHeartbeats 4000000 in
/-- Operations 173 to 193 of the reference, in program order. -/
def run9 : List (HloOp τ sig (Elt F)) :=
  [ unary main_v140 main_v141 (broadcastInDim S2048x1024 ![0, 1] bcast_S1x1024_S2048x1024_0_1 : (⟨S1x1024, .f32⟩ : BufTy).Contents (Elt F) → (⟨S2048x1024, .f32⟩ : BufTy).Contents (Elt F)),
    binary main_v139 main_v141 main_v142 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S2048x1024, .f32⟩) main_call13_v0) (broadcastInDim S2048x1024 ![] bcast_S_S2048x1024),
    TRef.binary (TRef.of (T := ⟨S2048x1024, .f32⟩) main_v142) (TRef.of (T := ⟨S2048x1024, .f32⟩) main_call13_v0) (TRef.of (T := ⟨S2048x1024, .f32⟩) main_v143) maximumf,
    unary main_arg10 main_v144 ((extractStridedSlice S1x1024x64 ![0, 0, 0] · slices_S4x1024x64_S1x1024x64_0_0_0) : (⟨S4x1024x64, .f32⟩ : BufTy).Contents (Elt F) → (⟨S1x1024x64, .f32⟩ : BufTy).Contents (Elt F)),
    reshape main_v144 main_v145 rfl shapeCasts_S1x1024x64_S1024x64,
    unary main_arg11 main_v146 ((extractStridedSlice S1x64 ![0, 0] · slices_S4x64_S1x64_0_0) : (⟨S4x64, .f32⟩ : BufTy).Contents (Elt F) → (⟨S1x64, .f32⟩ : BufTy).Contents (Elt F)),
    reshape main_v146 main_v147 rfl shapeCasts_S1x64_S64,
    binary main_v143 main_v145 main_v148 ((fun l r => Host.dotGeneral dot_S2048x1024_S1024x64_S2048x64_1_0_0_1_n_n none l r) : (⟨S2048x1024, .f32⟩ : BufTy).Contents (Elt F) → (⟨S1024x64, .f32⟩ : BufTy).Contents (Elt F) → (⟨S2048x64, .f32⟩ : BufTy).Contents (Elt F)),
    unary main_v147 main_v149 (broadcastInDim S1x64 ![1] bcast_S64_S1x64_1 : (⟨S64, .f32⟩ : BufTy).Contents (Elt F) → (⟨S1x64, .f32⟩ : BufTy).Contents (Elt F)),
    unary main_v149 main_v150 (broadcastInDim S2048x64 ![0, 1] bcast_S1x64_S2048x64_0_1 : (⟨S1x64, .f32⟩ : BufTy).Contents (Elt F) → (⟨S2048x64, .f32⟩ : BufTy).Contents (Elt F)),
    binary main_v148 main_v150 main_v151 (addf : (⟨S2048x64, .f32⟩ : BufTy).Contents (Elt F) → (⟨S2048x64, .f32⟩ : BufTy).Contents (Elt F) → (⟨S2048x64, .f32⟩ : BufTy).Contents (Elt F)),
    unary main_arg12 main_v152 ((extractStridedSlice S1x64x1 ![0, 0, 0] · slices_S4x64x1_S1x64x1_0_0_0) : (⟨S4x64x1, .f32⟩ : BufTy).Contents (Elt F) → (⟨S1x64x1, .f32⟩ : BufTy).Contents (Elt F)),
    reshape main_v152 main_v153 rfl shapeCasts_S1x64x1_S64x1,
    unary main_arg13 main_v154 ((extractStridedSlice S1x1 ![0, 0] · slices_S4x1_S1x1_0_0) : (⟨S4x1, .f32⟩ : BufTy).Contents (Elt F) → (⟨S1x1, .f32⟩ : BufTy).Contents (Elt F)),
    reshape main_v154 main_v155 rfl shapeCasts_S1x1_S1,
    binary main_v151 main_v153 main_v156 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)),
    unary main_v155 main_v157 (broadcastInDim S1x1 ![1] bcast_S1_S1x1_1 : (⟨S1, .f32⟩ : BufTy).Contents (Elt F) → (⟨S1x1, .f32⟩ : BufTy).Contents (Elt F)),
    unary main_v157 main_v158 (broadcastInDim S2048x1 ![0, 1] bcast_S1x1_S2048x1_0_1 : (⟨S1x1, .f32⟩ : BufTy).Contents (Elt F) → (⟨S2048x1, .f32⟩ : BufTy).Contents (Elt F)),
    binary main_v156 main_v158 main_v159 (addf : (⟨S2048x1, .f32⟩ : BufTy).Contents (Elt F) → (⟨S2048x1, .f32⟩ : BufTy).Contents (Elt F) → (⟨S2048x1, .f32⟩ : BufTy).Contents (Elt F)) ]

set_option maxRecDepth 8192 in
set_option maxHeartbeats 4000000 in
/-- Operations 194 to 215 of the reference, in program order. -/
def run10 : List (HloOp τ sig (Elt F)) :=
  [ unary main_v17 main_v160 ((extractStridedSlice S2048x1 ![0, 0] · slices_S2048x4_S2048x1_0_0) : (⟨S2048x4, .f32⟩ : BufTy).Contents (Elt F) → (⟨S2048x1, .f32⟩ : BufTy).Contents (Elt F)),
    binary main_v160 main_v159 main_v161 (mulf : (⟨S2048x1, .f32⟩ : BufTy).Contents (Elt F) → (⟨S2048x1, .f32⟩ : BufTy).Contents (Elt F) → (⟨S2048x1, .f32⟩ : BufTy).Contents (Elt F)),
    binary main_v124 main_v161 main_v162 (addf : (⟨S2048x1, .f32⟩ : BufTy).Contents (Elt F) → (⟨S2048x1, .f32⟩ : BufTy).Contents (Elt F) → (⟨S2048x1, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S2048x1024, .f32⟩) main_call14_v0) (broadcastInDim S2048x1024 ![] bcast_S_S2048x1024),
    TRef.binary (TRef.of (T := ⟨S2048x1024, .f32⟩) main_v123) (TRef.of (T := ⟨S2048x1024, .f32⟩) main_call14_v0) (TRef.of (T := ⟨S2048x1024, .f32⟩) main_v163) maximumf,
    unary main_arg8 main_v164 ((extractStridedSlice S1x1x1024x1024 ![1, 0, 0, 0] · slices_S4x2x1024x1024_S1x1x1024x1024_1_0_0_0) : (⟨S4x2x1024x1024, .f32⟩ : BufTy).Contents (Elt F) → (⟨S1x1x1024x1024, .f32⟩ : BufTy).Contents (Elt F)),
    reshape main_v164 main_v165 rfl shapeCasts_S1x1x1024x1024_S1024x1024,
    unary main_arg9 main_v166 ((extractStridedSlice S1x1x1024 ![1, 0, 0] · slices_S4x2x1024_S1x1x1024_1_0_0) : (⟨S4x2x1024, .f32⟩ : BufTy).Contents (Elt F) → (⟨S1x1x1024, .f32⟩ : BufTy).Contents (Elt F)),
    reshape main_v166 main_v167 rfl shapeCasts_S1x1x1024_S1024,
    binary main_v163 main_v165 main_v168 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v167 main_v169 (broadcastInDim S1x1024 ![1] bcast_S1024_S1x1024_1 : (⟨S1024, .f32⟩ : BufTy).Contents (Elt F) → (⟨S1x1024, .f32⟩ : BufTy).Contents (Elt F)),
    unary main_v169 main_v170 (broadcastInDim S2048x1024 ![0, 1] bcast_S1x1024_S2048x1024_0_1 : (⟨S1x1024, .f32⟩ : BufTy).Contents (Elt F) → (⟨S2048x1024, .f32⟩ : BufTy).Contents (Elt F)),
    binary main_v168 main_v170 main_v171 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S2048x1024, .f32⟩) main_call15_v0) (broadcastInDim S2048x1024 ![] bcast_S_S2048x1024),
    TRef.binary (TRef.of (T := ⟨S2048x1024, .f32⟩) main_v171) (TRef.of (T := ⟨S2048x1024, .f32⟩) main_call15_v0) (TRef.of (T := ⟨S2048x1024, .f32⟩) main_v172) maximumf,
    unary main_arg8 main_v173 ((extractStridedSlice S1x1x1024x1024 ![1, 1, 0, 0] · slices_S4x2x1024x1024_S1x1x1024x1024_1_1_0_0) : (⟨S4x2x1024x1024, .f32⟩ : BufTy).Contents (Elt F) → (⟨S1x1x1024x1024, .f32⟩ : BufTy).Contents (Elt F)),
    reshape main_v173 main_v174 rfl shapeCasts_S1x1x1024x1024_S1024x1024,
    unary main_arg9 main_v175 ((extractStridedSlice S1x1x1024 ![1, 1, 0] · slices_S4x2x1024_S1x1x1024_1_1_0) : (⟨S4x2x1024, .f32⟩ : BufTy).Contents (Elt F) → (⟨S1x1x1024, .f32⟩ : BufTy).Contents (Elt F)),
    reshape main_v175 main_v176 rfl shapeCasts_S1x1x1024_S1024,
    binary main_v172 main_v174 main_v177 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)) ]

set_option maxRecDepth 8192 in
set_option maxHeartbeats 4000000 in
/-- Operations 216 to 238 of the reference, in program order. -/
def run11 : List (HloOp τ sig (Elt F)) :=
  [ unary main_v176 main_v178 (broadcastInDim S1x1024 ![1] bcast_S1024_S1x1024_1 : (⟨S1024, .f32⟩ : BufTy).Contents (Elt F) → (⟨S1x1024, .f32⟩ : BufTy).Contents (Elt F)),
    unary main_v178 main_v179 (broadcastInDim S2048x1024 ![0, 1] bcast_S1x1024_S2048x1024_0_1 : (⟨S1x1024, .f32⟩ : BufTy).Contents (Elt F) → (⟨S2048x1024, .f32⟩ : BufTy).Contents (Elt F)),
    binary main_v177 main_v179 main_v180 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S2048x1024, .f32⟩) main_call16_v0) (broadcastInDim S2048x1024 ![] bcast_S_S2048x1024),
    TRef.binary (TRef.of (T := ⟨S2048x1024, .f32⟩) main_v180) (TRef.of (T := ⟨S2048x1024, .f32⟩) main_call16_v0) (TRef.of (T := ⟨S2048x1024, .f32⟩) main_v181) maximumf,
    unary main_arg10 main_v182 ((extractStridedSlice S1x1024x64 ![1, 0, 0] · slices_S4x1024x64_S1x1024x64_1_0_0) : (⟨S4x1024x64, .f32⟩ : BufTy).Contents (Elt F) → (⟨S1x1024x64, .f32⟩ : BufTy).Contents (Elt F)),
    reshape main_v182 main_v183 rfl shapeCasts_S1x1024x64_S1024x64,
    unary main_arg11 main_v184 ((extractStridedSlice S1x64 ![1, 0] · slices_S4x64_S1x64_1_0) : (⟨S4x64, .f32⟩ : BufTy).Contents (Elt F) → (⟨S1x64, .f32⟩ : BufTy).Contents (Elt F)),
    reshape main_v184 main_v185 rfl shapeCasts_S1x64_S64,
    binary main_v181 main_v183 main_v186 ((fun l r => Host.dotGeneral dot_S2048x1024_S1024x64_S2048x64_1_0_0_1_n_n none l r) : (⟨S2048x1024, .f32⟩ : BufTy).Contents (Elt F) → (⟨S1024x64, .f32⟩ : BufTy).Contents (Elt F) → (⟨S2048x64, .f32⟩ : BufTy).Contents (Elt F)),
    unary main_v185 main_v187 (broadcastInDim S1x64 ![1] bcast_S64_S1x64_1 : (⟨S64, .f32⟩ : BufTy).Contents (Elt F) → (⟨S1x64, .f32⟩ : BufTy).Contents (Elt F)),
    unary main_v187 main_v188 (broadcastInDim S2048x64 ![0, 1] bcast_S1x64_S2048x64_0_1 : (⟨S1x64, .f32⟩ : BufTy).Contents (Elt F) → (⟨S2048x64, .f32⟩ : BufTy).Contents (Elt F)),
    binary main_v186 main_v188 main_v189 (addf : (⟨S2048x64, .f32⟩ : BufTy).Contents (Elt F) → (⟨S2048x64, .f32⟩ : BufTy).Contents (Elt F) → (⟨S2048x64, .f32⟩ : BufTy).Contents (Elt F)),
    unary main_arg12 main_v190 ((extractStridedSlice S1x64x1 ![1, 0, 0] · slices_S4x64x1_S1x64x1_1_0_0) : (⟨S4x64x1, .f32⟩ : BufTy).Contents (Elt F) → (⟨S1x64x1, .f32⟩ : BufTy).Contents (Elt F)),
    reshape main_v190 main_v191 rfl shapeCasts_S1x64x1_S64x1,
    unary main_arg13 main_v192 ((extractStridedSlice S1x1 ![1, 0] · slices_S4x1_S1x1_1_0) : (⟨S4x1, .f32⟩ : BufTy).Contents (Elt F) → (⟨S1x1, .f32⟩ : BufTy).Contents (Elt F)),
    reshape main_v192 main_v193 rfl shapeCasts_S1x1_S1,
    binary main_v189 main_v191 main_v194 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)),
    unary main_v193 main_v195 (broadcastInDim S1x1 ![1] bcast_S1_S1x1_1 : (⟨S1, .f32⟩ : BufTy).Contents (Elt F) → (⟨S1x1, .f32⟩ : BufTy).Contents (Elt F)),
    unary main_v195 main_v196 (broadcastInDim S2048x1 ![0, 1] bcast_S1x1_S2048x1_0_1 : (⟨S1x1, .f32⟩ : BufTy).Contents (Elt F) → (⟨S2048x1, .f32⟩ : BufTy).Contents (Elt F)),
    binary main_v194 main_v196 main_v197 (addf : (⟨S2048x1, .f32⟩ : BufTy).Contents (Elt F) → (⟨S2048x1, .f32⟩ : BufTy).Contents (Elt F) → (⟨S2048x1, .f32⟩ : BufTy).Contents (Elt F)),
    unary main_v17 main_v198 ((extractStridedSlice S2048x1 ![0, 1] · slices_S2048x4_S2048x1_0_1) : (⟨S2048x4, .f32⟩ : BufTy).Contents (Elt F) → (⟨S2048x1, .f32⟩ : BufTy).Contents (Elt F)) ]

set_option maxRecDepth 8192 in
set_option maxHeartbeats 4000000 in
/-- Operations 239 to 260 of the reference, in program order. -/
def run12 : List (HloOp τ sig (Elt F)) :=
  [ binary main_v198 main_v197 main_v199 (mulf : (⟨S2048x1, .f32⟩ : BufTy).Contents (Elt F) → (⟨S2048x1, .f32⟩ : BufTy).Contents (Elt F) → (⟨S2048x1, .f32⟩ : BufTy).Contents (Elt F)),
    binary main_v162 main_v199 main_v200 (addf : (⟨S2048x1, .f32⟩ : BufTy).Contents (Elt F) → (⟨S2048x1, .f32⟩ : BufTy).Contents (Elt F) → (⟨S2048x1, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S2048x1024, .f32⟩) main_call17_v0) (broadcastInDim S2048x1024 ![] bcast_S_S2048x1024),
    TRef.binary (TRef.of (T := ⟨S2048x1024, .f32⟩) main_v123) (TRef.of (T := ⟨S2048x1024, .f32⟩) main_call17_v0) (TRef.of (T := ⟨S2048x1024, .f32⟩) main_v201) maximumf,
    unary main_arg8 main_v202 ((extractStridedSlice S1x1x1024x1024 ![2, 0, 0, 0] · slices_S4x2x1024x1024_S1x1x1024x1024_2_0_0_0) : (⟨S4x2x1024x1024, .f32⟩ : BufTy).Contents (Elt F) → (⟨S1x1x1024x1024, .f32⟩ : BufTy).Contents (Elt F)),
    reshape main_v202 main_v203 rfl shapeCasts_S1x1x1024x1024_S1024x1024,
    unary main_arg9 main_v204 ((extractStridedSlice S1x1x1024 ![2, 0, 0] · slices_S4x2x1024_S1x1x1024_2_0_0) : (⟨S4x2x1024, .f32⟩ : BufTy).Contents (Elt F) → (⟨S1x1x1024, .f32⟩ : BufTy).Contents (Elt F)),
    reshape main_v204 main_v205 rfl shapeCasts_S1x1x1024_S1024,
    binary main_v201 main_v203 main_v206 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v205 main_v207 (broadcastInDim S1x1024 ![1] bcast_S1024_S1x1024_1 : (⟨S1024, .f32⟩ : BufTy).Contents (Elt F) → (⟨S1x1024, .f32⟩ : BufTy).Contents (Elt F)),
    unary main_v207 main_v208 (broadcastInDim S2048x1024 ![0, 1] bcast_S1x1024_S2048x1024_0_1 : (⟨S1x1024, .f32⟩ : BufTy).Contents (Elt F) → (⟨S2048x1024, .f32⟩ : BufTy).Contents (Elt F)),
    binary main_v206 main_v208 main_v209 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S2048x1024, .f32⟩) main_call18_v0) (broadcastInDim S2048x1024 ![] bcast_S_S2048x1024),
    TRef.binary (TRef.of (T := ⟨S2048x1024, .f32⟩) main_v209) (TRef.of (T := ⟨S2048x1024, .f32⟩) main_call18_v0) (TRef.of (T := ⟨S2048x1024, .f32⟩) main_v210) maximumf,
    unary main_arg8 main_v211 ((extractStridedSlice S1x1x1024x1024 ![2, 1, 0, 0] · slices_S4x2x1024x1024_S1x1x1024x1024_2_1_0_0) : (⟨S4x2x1024x1024, .f32⟩ : BufTy).Contents (Elt F) → (⟨S1x1x1024x1024, .f32⟩ : BufTy).Contents (Elt F)),
    reshape main_v211 main_v212 rfl shapeCasts_S1x1x1024x1024_S1024x1024,
    unary main_arg9 main_v213 ((extractStridedSlice S1x1x1024 ![2, 1, 0] · slices_S4x2x1024_S1x1x1024_2_1_0) : (⟨S4x2x1024, .f32⟩ : BufTy).Contents (Elt F) → (⟨S1x1x1024, .f32⟩ : BufTy).Contents (Elt F)),
    reshape main_v213 main_v214 rfl shapeCasts_S1x1x1024_S1024,
    binary main_v210 main_v212 main_v215 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v214 main_v216 (broadcastInDim S1x1024 ![1] bcast_S1024_S1x1024_1 : (⟨S1024, .f32⟩ : BufTy).Contents (Elt F) → (⟨S1x1024, .f32⟩ : BufTy).Contents (Elt F)) ]

set_option maxRecDepth 8192 in
set_option maxHeartbeats 4000000 in
/-- Operations 261 to 283 of the reference, in program order. -/
def run13 : List (HloOp τ sig (Elt F)) :=
  [ unary main_v216 main_v217 (broadcastInDim S2048x1024 ![0, 1] bcast_S1x1024_S2048x1024_0_1 : (⟨S1x1024, .f32⟩ : BufTy).Contents (Elt F) → (⟨S2048x1024, .f32⟩ : BufTy).Contents (Elt F)),
    binary main_v215 main_v217 main_v218 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S2048x1024, .f32⟩) main_call19_v0) (broadcastInDim S2048x1024 ![] bcast_S_S2048x1024),
    TRef.binary (TRef.of (T := ⟨S2048x1024, .f32⟩) main_v218) (TRef.of (T := ⟨S2048x1024, .f32⟩) main_call19_v0) (TRef.of (T := ⟨S2048x1024, .f32⟩) main_v219) maximumf,
    unary main_arg10 main_v220 ((extractStridedSlice S1x1024x64 ![2, 0, 0] · slices_S4x1024x64_S1x1024x64_2_0_0) : (⟨S4x1024x64, .f32⟩ : BufTy).Contents (Elt F) → (⟨S1x1024x64, .f32⟩ : BufTy).Contents (Elt F)),
    reshape main_v220 main_v221 rfl shapeCasts_S1x1024x64_S1024x64,
    unary main_arg11 main_v222 ((extractStridedSlice S1x64 ![2, 0] · slices_S4x64_S1x64_2_0) : (⟨S4x64, .f32⟩ : BufTy).Contents (Elt F) → (⟨S1x64, .f32⟩ : BufTy).Contents (Elt F)),
    reshape main_v222 main_v223 rfl shapeCasts_S1x64_S64,
    binary main_v219 main_v221 main_v224 ((fun l r => Host.dotGeneral dot_S2048x1024_S1024x64_S2048x64_1_0_0_1_n_n none l r) : (⟨S2048x1024, .f32⟩ : BufTy).Contents (Elt F) → (⟨S1024x64, .f32⟩ : BufTy).Contents (Elt F) → (⟨S2048x64, .f32⟩ : BufTy).Contents (Elt F)),
    unary main_v223 main_v225 (broadcastInDim S1x64 ![1] bcast_S64_S1x64_1 : (⟨S64, .f32⟩ : BufTy).Contents (Elt F) → (⟨S1x64, .f32⟩ : BufTy).Contents (Elt F)),
    unary main_v225 main_v226 (broadcastInDim S2048x64 ![0, 1] bcast_S1x64_S2048x64_0_1 : (⟨S1x64, .f32⟩ : BufTy).Contents (Elt F) → (⟨S2048x64, .f32⟩ : BufTy).Contents (Elt F)),
    binary main_v224 main_v226 main_v227 (addf : (⟨S2048x64, .f32⟩ : BufTy).Contents (Elt F) → (⟨S2048x64, .f32⟩ : BufTy).Contents (Elt F) → (⟨S2048x64, .f32⟩ : BufTy).Contents (Elt F)),
    unary main_arg12 main_v228 ((extractStridedSlice S1x64x1 ![2, 0, 0] · slices_S4x64x1_S1x64x1_2_0_0) : (⟨S4x64x1, .f32⟩ : BufTy).Contents (Elt F) → (⟨S1x64x1, .f32⟩ : BufTy).Contents (Elt F)),
    reshape main_v228 main_v229 rfl shapeCasts_S1x64x1_S64x1,
    unary main_arg13 main_v230 ((extractStridedSlice S1x1 ![2, 0] · slices_S4x1_S1x1_2_0) : (⟨S4x1, .f32⟩ : BufTy).Contents (Elt F) → (⟨S1x1, .f32⟩ : BufTy).Contents (Elt F)),
    reshape main_v230 main_v231 rfl shapeCasts_S1x1_S1,
    binary main_v227 main_v229 main_v232 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)),
    unary main_v231 main_v233 (broadcastInDim S1x1 ![1] bcast_S1_S1x1_1 : (⟨S1, .f32⟩ : BufTy).Contents (Elt F) → (⟨S1x1, .f32⟩ : BufTy).Contents (Elt F)),
    unary main_v233 main_v234 (broadcastInDim S2048x1 ![0, 1] bcast_S1x1_S2048x1_0_1 : (⟨S1x1, .f32⟩ : BufTy).Contents (Elt F) → (⟨S2048x1, .f32⟩ : BufTy).Contents (Elt F)),
    binary main_v232 main_v234 main_v235 (addf : (⟨S2048x1, .f32⟩ : BufTy).Contents (Elt F) → (⟨S2048x1, .f32⟩ : BufTy).Contents (Elt F) → (⟨S2048x1, .f32⟩ : BufTy).Contents (Elt F)),
    unary main_v17 main_v236 ((extractStridedSlice S2048x1 ![0, 2] · slices_S2048x4_S2048x1_0_2) : (⟨S2048x4, .f32⟩ : BufTy).Contents (Elt F) → (⟨S2048x1, .f32⟩ : BufTy).Contents (Elt F)),
    binary main_v236 main_v235 main_v237 (mulf : (⟨S2048x1, .f32⟩ : BufTy).Contents (Elt F) → (⟨S2048x1, .f32⟩ : BufTy).Contents (Elt F) → (⟨S2048x1, .f32⟩ : BufTy).Contents (Elt F)) ]

set_option maxRecDepth 8192 in
set_option maxHeartbeats 4000000 in
/-- Operations 284 to 310 of the reference, in program order. -/
def run14 : List (HloOp τ sig (Elt F)) :=
  [ binary main_v200 main_v237 main_v238 (addf : (⟨S2048x1, .f32⟩ : BufTy).Contents (Elt F) → (⟨S2048x1, .f32⟩ : BufTy).Contents (Elt F) → (⟨S2048x1, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S2048x1024, .f32⟩) main_call20_v0) (broadcastInDim S2048x1024 ![] bcast_S_S2048x1024),
    TRef.binary (TRef.of (T := ⟨S2048x1024, .f32⟩) main_v123) (TRef.of (T := ⟨S2048x1024, .f32⟩) main_call20_v0) (TRef.of (T := ⟨S2048x1024, .f32⟩) main_v239) maximumf,
    unary main_arg8 main_v240 ((extractStridedSlice S1x1x1024x1024 ![3, 0, 0, 0] · slices_S4x2x1024x1024_S1x1x1024x1024_3_0_0_0) : (⟨S4x2x1024x1024, .f32⟩ : BufTy).Contents (Elt F) → (⟨S1x1x1024x1024, .f32⟩ : BufTy).Contents (Elt F)),
    reshape main_v240 main_v241 rfl shapeCasts_S1x1x1024x1024_S1024x1024,
    unary main_arg9 main_v242 ((extractStridedSlice S1x1x1024 ![3, 0, 0] · slices_S4x2x1024_S1x1x1024_3_0_0) : (⟨S4x2x1024, .f32⟩ : BufTy).Contents (Elt F) → (⟨S1x1x1024, .f32⟩ : BufTy).Contents (Elt F)),
    reshape main_v242 main_v243 rfl shapeCasts_S1x1x1024_S1024,
    binary main_v239 main_v241 main_v244 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v243 main_v245 (broadcastInDim S1x1024 ![1] bcast_S1024_S1x1024_1 : (⟨S1024, .f32⟩ : BufTy).Contents (Elt F) → (⟨S1x1024, .f32⟩ : BufTy).Contents (Elt F)),
    unary main_v245 main_v246 (broadcastInDim S2048x1024 ![0, 1] bcast_S1x1024_S2048x1024_0_1 : (⟨S1x1024, .f32⟩ : BufTy).Contents (Elt F) → (⟨S2048x1024, .f32⟩ : BufTy).Contents (Elt F)),
    binary main_v244 main_v246 main_v247 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S2048x1024, .f32⟩) main_call21_v0) (broadcastInDim S2048x1024 ![] bcast_S_S2048x1024),
    TRef.binary (TRef.of (T := ⟨S2048x1024, .f32⟩) main_v247) (TRef.of (T := ⟨S2048x1024, .f32⟩) main_call21_v0) (TRef.of (T := ⟨S2048x1024, .f32⟩) main_v248) maximumf,
    unary main_arg8 main_v249 ((extractStridedSlice S1x1x1024x1024 ![3, 1, 0, 0] · slices_S4x2x1024x1024_S1x1x1024x1024_3_1_0_0) : (⟨S4x2x1024x1024, .f32⟩ : BufTy).Contents (Elt F) → (⟨S1x1x1024x1024, .f32⟩ : BufTy).Contents (Elt F)),
    reshape main_v249 main_v250 rfl shapeCasts_S1x1x1024x1024_S1024x1024,
    unary main_arg9 main_v251 ((extractStridedSlice S1x1x1024 ![3, 1, 0] · slices_S4x2x1024_S1x1x1024_3_1_0) : (⟨S4x2x1024, .f32⟩ : BufTy).Contents (Elt F) → (⟨S1x1x1024, .f32⟩ : BufTy).Contents (Elt F)),
    reshape main_v251 main_v252 rfl shapeCasts_S1x1x1024_S1024,
    binary main_v248 main_v250 main_v253 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    unary main_v252 main_v254 (broadcastInDim S1x1024 ![1] bcast_S1024_S1x1024_1 : (⟨S1024, .f32⟩ : BufTy).Contents (Elt F) → (⟨S1x1024, .f32⟩ : BufTy).Contents (Elt F)),
    unary main_v254 main_v255 (broadcastInDim S2048x1024 ![0, 1] bcast_S1x1024_S2048x1024_0_1 : (⟨S1x1024, .f32⟩ : BufTy).Contents (Elt F) → (⟨S2048x1024, .f32⟩ : BufTy).Contents (Elt F)),
    binary main_v253 main_v255 main_v256 (addf : (⟨S2048x1024, .f32⟩ : BufTy).Contents (Elt F) → (⟨S2048x1024, .f32⟩ : BufTy).Contents (Elt F) → (⟨S2048x1024, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S2048x1024, .f32⟩) main_call22_v0) (broadcastInDim S2048x1024 ![] bcast_S_S2048x1024),
    TRef.binary (TRef.of (T := ⟨S2048x1024, .f32⟩) main_v256) (TRef.of (T := ⟨S2048x1024, .f32⟩) main_call22_v0) (TRef.of (T := ⟨S2048x1024, .f32⟩) main_v257) maximumf,
    unary main_arg10 main_v258 ((extractStridedSlice S1x1024x64 ![3, 0, 0] · slices_S4x1024x64_S1x1024x64_3_0_0) : (⟨S4x1024x64, .f32⟩ : BufTy).Contents (Elt F) → (⟨S1x1024x64, .f32⟩ : BufTy).Contents (Elt F)) ]

set_option maxRecDepth 8192 in
set_option maxHeartbeats 4000000 in
/-- Operations 311 to 336 of the reference, in program order. -/
def run15 : List (HloOp τ sig (Elt F)) :=
  [ reshape main_v258 main_v259 rfl shapeCasts_S1x1024x64_S1024x64,
    unary main_arg11 main_v260 ((extractStridedSlice S1x64 ![3, 0] · slices_S4x64_S1x64_3_0) : (⟨S4x64, .f32⟩ : BufTy).Contents (Elt F) → (⟨S1x64, .f32⟩ : BufTy).Contents (Elt F)),
    reshape main_v260 main_v261 rfl shapeCasts_S1x64_S64,
    binary main_v257 main_v259 main_v262 ((fun l r => Host.dotGeneral dot_S2048x1024_S1024x64_S2048x64_1_0_0_1_n_n none l r) : (⟨S2048x1024, .f32⟩ : BufTy).Contents (Elt F) → (⟨S1024x64, .f32⟩ : BufTy).Contents (Elt F) → (⟨S2048x64, .f32⟩ : BufTy).Contents (Elt F)),
    unary main_v261 main_v263 (broadcastInDim S1x64 ![1] bcast_S64_S1x64_1 : (⟨S64, .f32⟩ : BufTy).Contents (Elt F) → (⟨S1x64, .f32⟩ : BufTy).Contents (Elt F)),
    unary main_v263 main_v264 (broadcastInDim S2048x64 ![0, 1] bcast_S1x64_S2048x64_0_1 : (⟨S1x64, .f32⟩ : BufTy).Contents (Elt F) → (⟨S2048x64, .f32⟩ : BufTy).Contents (Elt F)),
    binary main_v262 main_v264 main_v265 (addf : (⟨S2048x64, .f32⟩ : BufTy).Contents (Elt F) → (⟨S2048x64, .f32⟩ : BufTy).Contents (Elt F) → (⟨S2048x64, .f32⟩ : BufTy).Contents (Elt F)),
    unary main_arg12 main_v266 ((extractStridedSlice S1x64x1 ![3, 0, 0] · slices_S4x64x1_S1x64x1_3_0_0) : (⟨S4x64x1, .f32⟩ : BufTy).Contents (Elt F) → (⟨S1x64x1, .f32⟩ : BufTy).Contents (Elt F)),
    reshape main_v266 main_v267 rfl shapeCasts_S1x64x1_S64x1,
    unary main_arg13 main_v268 ((extractStridedSlice S1x1 ![3, 0] · slices_S4x1_S1x1_3_0) : (⟨S4x1, .f32⟩ : BufTy).Contents (Elt F) → (⟨S1x1, .f32⟩ : BufTy).Contents (Elt F)),
    reshape main_v268 main_v269 rfl shapeCasts_S1x1_S1,
    binary main_v265 main_v267 main_v270 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)),
    unary main_v269 main_v271 (broadcastInDim S1x1 ![1] bcast_S1_S1x1_1 : (⟨S1, .f32⟩ : BufTy).Contents (Elt F) → (⟨S1x1, .f32⟩ : BufTy).Contents (Elt F)),
    unary main_v271 main_v272 (broadcastInDim S2048x1 ![0, 1] bcast_S1x1_S2048x1_0_1 : (⟨S1x1, .f32⟩ : BufTy).Contents (Elt F) → (⟨S2048x1, .f32⟩ : BufTy).Contents (Elt F)),
    binary main_v270 main_v272 main_v273 (addf : (⟨S2048x1, .f32⟩ : BufTy).Contents (Elt F) → (⟨S2048x1, .f32⟩ : BufTy).Contents (Elt F) → (⟨S2048x1, .f32⟩ : BufTy).Contents (Elt F)),
    unary main_v17 main_v274 ((extractStridedSlice S2048x1 ![0, 3] · slices_S2048x4_S2048x1_0_3) : (⟨S2048x4, .f32⟩ : BufTy).Contents (Elt F) → (⟨S2048x1, .f32⟩ : BufTy).Contents (Elt F)),
    binary main_v274 main_v273 main_v275 (mulf : (⟨S2048x1, .f32⟩ : BufTy).Contents (Elt F) → (⟨S2048x1, .f32⟩ : BufTy).Contents (Elt F) → (⟨S2048x1, .f32⟩ : BufTy).Contents (Elt F)),
    binary main_v238 main_v275 main_v276 (addf : (⟨S2048x1, .f32⟩ : BufTy).Contents (Elt F) → (⟨S2048x1, .f32⟩ : BufTy).Contents (Elt F) → (⟨S2048x1, .f32⟩ : BufTy).Contents (Elt F)),
    unary main_v276 main_v277 (Host.negf : (⟨S2048x1, .f32⟩ : BufTy).Contents (Elt F) → (⟨S2048x1, .f32⟩ : BufTy).Contents (Elt F)),
    unary main_v277 main_v278 (Host.exp : (⟨S2048x1, .f32⟩ : BufTy).Contents (Elt F) → (⟨S2048x1, .f32⟩ : BufTy).Contents (Elt F)),
    nullary main_cst_1 (constant S_ .f32 0x3F800000#32),
    unary main_cst_1 main_v279 (broadcastInDim S2048x1 ![] bcast_S_S2048x1 : (⟨S_, .f32⟩ : BufTy).Contents (Elt F) → (⟨S2048x1, .f32⟩ : BufTy).Contents (Elt F)),
    binary main_v279 main_v278 main_v280 (addf : (⟨S2048x1, .f32⟩ : BufTy).Contents (Elt F) → (⟨S2048x1, .f32⟩ : BufTy).Contents (Elt F) → (⟨S2048x1, .f32⟩ : BufTy).Contents (Elt F)),
    nullary main_cst_2 (constant S_ .f32 0x3F800000#32),
    unary main_cst_2 main_v281 (broadcastInDim S2048x1 ![] bcast_S_S2048x1 : (⟨S_, .f32⟩ : BufTy).Contents (Elt F) → (⟨S2048x1, .f32⟩ : BufTy).Contents (Elt F)),
    binary main_v281 main_v280 main_v282 (Host.divf : (⟨S2048x1, .f32⟩ : BufTy).Contents (Elt F) → (⟨S2048x1, .f32⟩ : BufTy).Contents (Elt F) → (⟨S2048x1, .f32⟩ : BufTy).Contents (Elt F)) ]

/-! ## The five stretches -/

/-- The shared block on the input rows: two dense layers and the maximum with 0 between them. -/
def opsA : List (HloOp τ sig (Elt F)) := run0

/-- The one-hot array of the task words. -/
def opsB : List (HloOp τ sig (Elt F)) := run1

/-- The masked sum over the four tasks of the task blocks of the shared block's result. -/
def opsC : List (HloOp τ sig (Elt F)) := run2 ++ run3 ++ run4 ++ run5

/-- The second shared block, on the first masked sum. -/
def opsD : List (HloOp τ sig (Elt F)) := run6 ++ run7

/-- The second masked sum: per task the task block and the head, then the quotient 1 / (1 + exp (−z)). -/
def opsE : List (HloOp τ sig (Elt F)) := run8 ++ run9 ++ run10 ++ run11 ++ run12 ++ run13 ++ run14 ++ run15

/-- The reference's operations in program order. -/
def ops : List (HloOp τ sig (Elt F)) := opsA ++ opsB ++ opsC ++ opsD ++ opsE

set_option maxRecDepth 8192 in
set_option maxHeartbeats 4000000 in
/-- The reference program is the sequence of those operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefFacts.lean ====
/-
  Side facts of the reference's operations: each reads and writes host-visible buffers only, each determines its
  result, and running two stretches one after the other is running the second from what the first leaves.
-/
import proofs.«146362_j55078660603958_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Every operation touches host-visible buffers only and determines its result -/

set_option maxRecDepth 8192 in
set_option maxHeartbeats 4000000 in
theorem sub_run0 : (run0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub ..⟩
set_option maxRecDepth 8192 in
set_option maxHeartbeats 4000000 in
theorem fresh_run0 : ∀ op ∈ (run0 : List (HloOp τ sig (Elt F))), op.fresh = ∅ := by
  intro _ h; unfold run0 at h; (repeat (cases h with | head => rfl | tail _ h => ?_)); exact nomatch h

set_option maxRecDepth 8192 in
set_option maxHeartbeats 4000000 in
theorem sub_run1 : (run1 : List (HloOp τ sig (Elt F))).Forall fun op => op.bufs ⊆ tcRefs τ sig :=
  ⟨unary_bufs_sub .., nullary_bufs_sub .., unary_bufs_sub .., unary_bufs_sub .., binary_bufs_sub .., unary_bufs_sub ..⟩
set_option maxRecDepth 8192 in
set_option maxHeartbeats 4000000 in
theorem fresh_run1 : ∀ op ∈ (run1 : List (HloOp τ sig (Elt F))), op.fresh = ∅ := by
  intro _ h; unfold run1 at h; (repeat (cases h with | head => rfl | tail _ h => ?_)); exact nomatch h

set_option maxRecDepth 8192 in
set_option maxHeartbeats 4000000 in
theorem sub_run2 : (run2 : List (HloOp τ sig (Elt F))).Forall fun op => op.bufs ⊆ tcRefs τ sig :=
  ⟨nullary_bufs_sub .., unary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub ..⟩
set_option maxRecDepth 8192 in
set_option maxHeartbeats 4000000 in
theorem fresh_run2 : ∀ op ∈ (run2 : List (HloOp τ sig (Elt F))), op.fresh = ∅ := by
  intro _ h; unfold run2 at h; (repeat (cases h with | head => rfl | tail _ h => ?_)); exact nomatch h

set_option maxRecDepth 8192 in
set_option maxHeartbeats 4000000 in
theorem sub_run3 : (run3 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub ..⟩
set_option maxRecDepth 8192 in
set_option maxHeartbeats 4000000 in
theorem fresh_run3 : ∀ op ∈ (run3 : List (HloOp τ sig (Elt F))), op.fresh = ∅ := by
  intro _ h; unfold run3 at h; (repeat (cases h with | head => rfl | tail _ h => ?_)); exact nomatch h

set_option maxRecDepth 8192 in
set_option maxHeartbeats 4000000 in
theorem sub_run4 : (run4 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub .., unary_bufs_sub ..⟩
set_option maxRecDepth 8192 in
set_option maxHeartbeats 4000000 in
theorem fresh_run4 : ∀ op ∈ (run4 : List (HloOp τ sig (Elt F))), op.fresh = ∅ := by
  intro _ h; unfold run4 at h; (repeat (cases h with | head => rfl | tail _ h => ?_)); exact nomatch h

set_option maxRecDepth 8192 in
set_option maxHeartbeats 4000000 in
theorem sub_run5 : (run5 : List (HloOp τ sig (Elt F))).Forall fun op => op.bufs ⊆ tcRefs τ sig :=
  ⟨binary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub .., unary_bufs_sub .., binary_bufs_sub .., binary_bufs_sub ..⟩
set_option maxRecDepth 8192 in
set_option maxHeartbeats 4000000 in
theorem fresh_run5 : ∀ op ∈ (run5 : List (HloOp τ sig (Elt F))), op.fresh = ∅ := by
  intro _ h; unfold run5 at h; (repeat (cases h with | head => rfl | tail _ h => ?_)); exact nomatch h

set_option maxRecDepth 8192 in
set_option maxHeartbeats 4000000 in
theorem sub_run6 : (run6 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub ..⟩
set_option maxRecDepth 8192 in
set_option maxHeartbeats 4000000 in
theorem fresh_run6 : ∀ op ∈ (run6 : List (HloOp τ sig (Elt F))), op.fresh = ∅ := by
  intro _ h; unfold run6 at h; (repeat (cases h with | head => rfl | tail _ h => ?_)); exact nomatch h

set_option maxRecDepth 8192 in
set_option maxHeartbeats 4000000 in
theorem sub_run7 : (run7 : List (HloOp τ sig (Elt F))).Forall fun op => op.bufs ⊆ tcRefs τ sig :=
  ⟨reshape_bufs_sub .., binary_bufs_sub .., unary_bufs_sub .., unary_bufs_sub .., binary_bufs_sub ..⟩
set_option maxRecDepth 8192 in
set_option maxHeartbeats 4000000 in
theorem fresh_run7 : ∀ op ∈ (run7 : List (HloOp τ sig (Elt F))), op.fresh = ∅ := by
  intro _ h; unfold run7 at h; (repeat (cases h with | head => rfl | tail _ h => ?_)); exact nomatch h

set_option maxRecDepth 8192 in
set_option maxHeartbeats 4000000 in
theorem sub_run8 : (run8 : List (HloOp τ sig (Elt F))).Forall fun op => op.bufs ⊆ tcRefs τ sig :=
  ⟨nullary_bufs_sub .., unary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub ..⟩
set_option maxRecDepth 8192 in
set_option maxHeartbeats 4000000 in
theorem fresh_run8 : ∀ op ∈ (run8 : List (HloOp τ sig (Elt F))), op.fresh = ∅ := by
  intro _ h; unfold run8 at h; (repeat (cases h with | head => rfl | tail _ h => ?_)); exact nomatch h

set_option maxRecDepth 8192 in
set_option maxHeartbeats 4000000 in
theorem sub_run9 : (run9 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub ..⟩
set_option maxRecDepth 8192 in
set_option maxHeartbeats 4000000 in
theorem fresh_run9 : ∀ op ∈ (run9 : List (HloOp τ sig (Elt F))), op.fresh = ∅ := by
  intro _ h; unfold run9 at h; (repeat (cases h with | head => rfl | tail _ h => ?_)); exact nomatch h

set_option maxRecDepth 8192 in
set_option maxHeartbeats 4000000 in
theorem sub_run10 : (run10 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩
set_option maxRecDepth 8192 in
set_option maxHeartbeats 4000000 in
theorem fresh_run10 : ∀ op ∈ (run10 : List (HloOp τ sig (Elt F))), op.fresh = ∅ := by
  intro _ h; unfold run10 at h; (repeat (cases h with | head => rfl | tail _ h => ?_)); exact nomatch h

set_option maxRecDepth 8192 in
set_option maxHeartbeats 4000000 in
theorem sub_run11 : (run11 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub ..⟩
set_option maxRecDepth 8192 in
set_option maxHeartbeats 4000000 in
theorem fresh_run11 : ∀ op ∈ (run11 : List (HloOp τ sig (Elt F))), op.fresh = ∅ := by
  intro _ h; unfold run11 at h; (repeat (cases h with | head => rfl | tail _ h => ?_)); exact nomatch h

set_option maxRecDepth 8192 in
set_option maxHeartbeats 4000000 in
theorem sub_run12 : (run12 : List (HloOp τ sig (Elt F))).Forall fun op => op.bufs ⊆ tcRefs τ sig :=
  ⟨binary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub ..⟩
set_option maxRecDepth 8192 in
set_option maxHeartbeats 4000000 in
theorem fresh_run12 : ∀ op ∈ (run12 : List (HloOp τ sig (Elt F))), op.fresh = ∅ := by
  intro _ h; unfold run12 at h; (repeat (cases h with | head => rfl | tail _ h => ?_)); exact nomatch h

set_option maxRecDepth 8192 in
set_option maxHeartbeats 4000000 in
theorem sub_run13 : (run13 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub .., binary_bufs_sub ..⟩
set_option maxRecDepth 8192 in
set_option maxHeartbeats 4000000 in
theorem fresh_run13 : ∀ op ∈ (run13 : List (HloOp τ sig (Elt F))), op.fresh = ∅ := by
  intro _ h; unfold run13 at h; (repeat (cases h with | head => rfl | tail _ h => ?_)); exact nomatch h

set_option maxRecDepth 8192 in
set_option maxHeartbeats 4000000 in
theorem sub_run14 : (run14 : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub ..⟩
set_option maxRecDepth 8192 in
set_option maxHeartbeats 4000000 in
theorem fresh_run14 : ∀ op ∈ (run14 : List (HloOp τ sig (Elt F))), op.fresh = ∅ := by
  intro _ h; unfold run14 at h; (repeat (cases h with | head => rfl | tail _ h => ?_)); exact nomatch h

set_option maxRecDepth 8192 in
set_option maxHeartbeats 4000000 in
theorem sub_run15 : (run15 : List (HloOp τ sig (Elt F))).Forall fun op => op.bufs ⊆ tcRefs τ sig :=
  ⟨reshape_bufs_sub .., unary_bufs_sub .., reshape_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩
set_option maxRecDepth 8192 in
set_option maxHeartbeats 4000000 in
theorem fresh_run15 : ∀ op ∈ (run15 : List (HloOp τ sig (Elt F))), op.fresh = ∅ := by
  intro _ h; unfold run15 at h; (repeat (cases h with | head => rfl | tail _ h => ?_)); exact nomatch h

/-- A property of every operation of every run is a property of every operation of the reference. -/
theorem all_ops (P : HloOp τ sig (Elt F) → Prop)
    (h0 : ∀ op ∈ (run0 : List (HloOp τ sig (Elt F))), P op)
    (h1 : ∀ op ∈ (run1 : List (HloOp τ sig (Elt F))), P op)
    (h2 : ∀ op ∈ (run2 : List (HloOp τ sig (Elt F))), P op)
    (h3 : ∀ op ∈ (run3 : List (HloOp τ sig (Elt F))), P op)
    (h4 : ∀ op ∈ (run4 : List (HloOp τ sig (Elt F))), P op)
    (h5 : ∀ op ∈ (run5 : List (HloOp τ sig (Elt F))), P op)
    (h6 : ∀ op ∈ (run6 : List (HloOp τ sig (Elt F))), P op)
    (h7 : ∀ op ∈ (run7 : List (HloOp τ sig (Elt F))), P op)
    (h8 : ∀ op ∈ (run8 : List (HloOp τ sig (Elt F))), P op)
    (h9 : ∀ op ∈ (run9 : List (HloOp τ sig (Elt F))), P op)
    (h10 : ∀ op ∈ (run10 : List (HloOp τ sig (Elt F))), P op)
    (h11 : ∀ op ∈ (run11 : List (HloOp τ sig (Elt F))), P op)
    (h12 : ∀ op ∈ (run12 : List (HloOp τ sig (Elt F))), P op)
    (h13 : ∀ op ∈ (run13 : List (HloOp τ sig (Elt F))), P op)
    (h14 : ∀ op ∈ (run14 : List (HloOp τ sig (Elt F))), P op)
    (h15 : ∀ op ∈ (run15 : List (HloOp τ sig (Elt F))), P op) :
    ∀ op ∈ (ops : List (HloOp τ sig (Elt F))), P op := by
  intro op h
  simp only [ops, opsA, opsB, opsC, opsD, opsE, List.mem_append, or_assoc] at h
  rcases h with h | h | h | h | h | h | h | h | h | h | h | h | h | h | h | h
  · exact h0 op h
  · exact h1 op h
  · exact h2 op h
  · exact h3 op h
  · exact h4 op h
  · exact h5 op h
  · exact h6 op h
  · exact h7 op h
  · exact h8 op h
  · exact h9 op h
  · exact h10 op h
  · exact h11 op h
  · exact h12 op h
  · exact h13 op h
  · exact h14 op h
  · exact h15 op h

theorem ops_sub : (ops : List (HloOp τ sig (Elt F))).Forall fun op => op.bufs ⊆ tcRefs τ sig :=
  List.forall_iff_forall_mem.mpr (all_ops _
    (List.forall_iff_forall_mem.mp sub_run0)
    (List.forall_iff_forall_mem.mp sub_run1)
    (List.forall_iff_forall_mem.mp sub_run2)
    (List.forall_iff_forall_mem.mp sub_run3)
    (List.forall_iff_forall_mem.mp sub_run4)
    (List.forall_iff_forall_mem.mp sub_run5)
    (List.forall_iff_forall_mem.mp sub_run6)
    (List.forall_iff_forall_mem.mp sub_run7)
    (List.forall_iff_forall_mem.mp sub_run8)
    (List.forall_iff_forall_mem.mp sub_run9)
    (List.forall_iff_forall_mem.mp sub_run10)
    (List.forall_iff_forall_mem.mp sub_run11)
    (List.forall_iff_forall_mem.mp sub_run12)
    (List.forall_iff_forall_mem.mp sub_run13)
    (List.forall_iff_forall_mem.mp sub_run14)
    (List.forall_iff_forall_mem.mp sub_run15))

theorem ops_fresh : ∀ op ∈ (ops : List (HloOp τ sig (Elt F))), op.fresh = ∅ :=
  all_ops _ fresh_run0 fresh_run1 fresh_run2 fresh_run3 fresh_run4 fresh_run5 fresh_run6 fresh_run7 fresh_run8 fresh_run9 fresh_run10 fresh_run11 fresh_run12 fresh_run13 fresh_run14 fresh_run15

/-- Running two stretches one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

end Cert.ReferenceIdeal.RefRun

end
-- ==== Proof.RefKeep.lean ====
/-
  What each stretch of the reference leaves untouched: a stretch changes only the buffers its operations write, so
  the argument arrays, and the intermediate results later stretches read, come through the stretches that do not
  write them unchanged.
-/
import proofs.«146362_j55078660603958_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each stretch leaves untouched -/

set_option maxRecDepth 8192 in
set_option maxHeartbeats 40000000 in
theorem keepA_main_arg0 (V : Valuation τ sig (Elt F)) : after opsA V (Proc.devRef .tc main_arg0) = V (Proc.devRef .tc main_arg0) := by
  unfold opsA run0
  simp only [List.cons_append, List.nil_append]
  after_results_simp

set_option maxRecDepth 8192 in
set_option maxHeartbeats 40000000 in
theorem keepA_main_arg1 (V : Valuation τ sig (Elt F)) : after opsA V (Proc.devRef .tc main_arg1) = V (Proc.devRef .tc main_arg1) := by
  unfold opsA run0
  simp only [List.cons_append, List.nil_append]
  after_results_simp

set_option maxRecDepth 8192 in
set_option maxHeartbeats 40000000 in
theorem keepA_main_arg2 (V : Valuation τ sig (Elt F)) : after opsA V (Proc.devRef .tc main_arg2) = V (Proc.devRef .tc main_arg2) := by
  unfold opsA run0
  simp only [List.cons_append, List.nil_append]
  after_results_simp

set_option maxRecDepth 8192 in
set_option maxHeartbeats 40000000 in
theorem keepA_main_arg3 (V : Valuation τ sig (Elt F)) : after opsA V (Proc.devRef .tc main_arg3) = V (Proc.devRef .tc main_arg3) := by
  unfold opsA run0
  simp only [List.cons_append, List.nil_append]
  after_results_simp

set_option maxRecDepth 8192 in
set_option maxHeartbeats 40000000 in
theorem keepA_main_arg4 (V : Valuation τ sig (Elt F)) : after opsA V (Proc.devRef .tc main_arg4) = V (Proc.devRef .tc main_arg4) := by
  unfold opsA run0
  simp only [List.cons_append, List.nil_append]
  after_results_simp

set_option maxRecDepth 8192 in
set_option maxHeartbeats 40000000 in
theorem keepA_main_arg5 (V : Valuation τ sig (Elt F)) : after opsA V (Proc.devRef .tc main_arg5) = V (Proc.devRef .tc main_arg5) := by
  unfold opsA run0
  simp only [List.cons_append, List.nil_append]
  after_results_simp

set_option maxRecDepth 8192 in
set_option maxHeartbeats 40000000 in
theorem keepA_main_arg6 (V : Valuation τ sig (Elt F)) : after opsA V (Proc.devRef .tc main_arg6) = V (Proc.devRef .tc main_arg6) := by
  unfold opsA run0
  simp only [List.cons_append, List.nil_append]
  after_results_simp

set_option maxRecDepth 8192 in
set_option maxHeartbeats 40000000 in
theorem keepA_main_arg7 (V : Valuation τ sig (Elt F)) : after opsA V (Proc.devRef .tc main_arg7) = V (Proc.devRef .tc main_arg7) := by
  unfold opsA run0
  simp only [List.cons_append, List.nil_append]
  after_results_simp

set_option maxRecDepth 8192 in
set_option maxHeartbeats 40000000 in
theorem keepA_main_arg8 (V : Valuation τ sig (Elt F)) : after opsA V (Proc.devRef .tc main_arg8) = V (Proc.devRef .tc main_arg8) := by
  unfold opsA run0
  simp only [List.cons_append, List.nil_append]
  after_results_simp

set_option maxRecDepth 8192 in
set_option maxHeartbeats 40000000 in
theorem keepA_main_arg9 (V : Valuation τ sig (Elt F)) : after opsA V (Proc.devRef .tc main_arg9) = V (Proc.devRef .tc main_arg9) := by
  unfold opsA run0
  simp only [List.cons_append, List.nil_append]
  after_results_simp

set_option maxRecDepth 8192 in
set_option maxHeartbeats 40000000 in
theorem keepA_main_arg10 (V : Valuation τ sig (Elt F)) : after opsA V (Proc.devRef .tc main_arg10) = V (Proc.devRef .tc main_arg10) := by
  unfold opsA run0
  simp only [List.cons_append, List.nil_append]
  after_results_simp

set_option maxRecDepth 8192 in
set_option maxHeartbeats 40000000 in
theorem keepA_main_arg11 (V : Valuation τ sig (Elt F)) : after opsA V (Proc.devRef .tc main_arg11) = V (Proc.devRef .tc main_arg11) := by
  unfold opsA run0
  simp only [List.cons_append, List.nil_append]
  after_results_simp

set_option maxRecDepth 8192 in
set_option maxHeartbeats 40000000 in
theorem keepA_main_arg12 (V : Valuation τ sig (Elt F)) : after opsA V (Proc.devRef .tc main_arg12) = V (Proc.devRef .tc main_arg12) := by
  unfold opsA run0
  simp only [List.cons_append, List.nil_append]
  after_results_simp

set_option maxRecDepth 8192 in
set_option maxHeartbeats 40000000 in
theorem keepA_main_arg13 (V : Valuation τ sig (Elt F)) : after opsA V (Proc.devRef .tc main_arg13) = V (Proc.devRef .tc main_arg13) := by
  unfold opsA run0
  simp only [List.cons_append, List.nil_append]
  after_results_simp

set_option maxRecDepth 8192 in
set_option maxHeartbeats 40000000 in
theorem keepB_main_arg0 (V : Valuation τ sig (Elt F)) : after opsB V (Proc.devRef .tc main_arg0) = V (Proc.devRef .tc main_arg0) := by
  unfold opsB run1
  simp only [List.cons_append, List.nil_append]
  after_results_simp

set_option maxRecDepth 8192 in
set_option maxHeartbeats 40000000 in
theorem keepB_main_arg1 (V : Valuation τ sig (Elt F)) : after opsB V (Proc.devRef .tc main_arg1) = V (Proc.devRef .tc main_arg1) := by
  unfold opsB run1
  simp only [List.cons_append, List.nil_append]
  after_results_simp

set_option maxRecDepth 8192 in
set_option maxHeartbeats 40000000 in
theorem keepB_main_arg2 (V : Valuation τ sig (Elt F)) : after opsB V (Proc.devRef .tc main_arg2) = V (Proc.devRef .tc main_arg2) := by
  unfold opsB run1
  simp only [List.cons_append, List.nil_append]
  after_results_simp

set_option maxRecDepth 8192 in
set_option maxHeartbeats 40000000 in
theorem keepB_main_arg3 (V : Valuation τ sig (Elt F)) : after opsB V (Proc.devRef .tc main_arg3) = V (Proc.devRef .tc main_arg3) := by
  unfold opsB run1
  simp only [List.cons_append, List.nil_append]
  after_results_simp

set_option maxRecDepth 8192 in
set_option maxHeartbeats 40000000 in
theorem keepB_main_arg4 (V : Valuation τ sig (Elt F)) : after opsB V (Proc.devRef .tc main_arg4) = V (Proc.devRef .tc main_arg4) := by
  unfold opsB run1
  simp only [List.cons_append, List.nil_append]
  after_results_simp

set_option maxRecDepth 8192 in
set_option maxHeartbeats 40000000 in
theorem keepB_main_arg5 (V : Valuation τ sig (Elt F)) : after opsB V (Proc.devRef .tc main_arg5) = V (Proc.devRef .tc main_arg5) := by
  unfold opsB run1
  simp only [List.cons_append, List.nil_append]
  after_results_simp

set_option maxRecDepth 8192 in
set_option maxHeartbeats 40000000 in
theorem keepB_main_arg6 (V : Valuation τ sig (Elt F)) : after opsB V (Proc.devRef .tc main_arg6) = V (Proc.devRef .tc main_arg6) := by
  unfold opsB run1
  simp only [List.cons_append, List.nil_append]
  after_results_simp

set_option maxRecDepth 8192 in
set_option maxHeartbeats 40000000 in
theorem keepB_main_arg7 (V : Valuation τ sig (Elt F)) : after opsB V (Proc.devRef .tc main_arg7) = V (Proc.devRef .tc main_arg7) := by
  unfold opsB run1
  simp only [List.cons_append, List.nil_append]
  after_results_simp

set_option maxRecDepth 8192 in
set_option maxHeartbeats 40000000 in
theorem keepB_main_arg8 (V : Valuation τ sig (Elt F)) : after opsB V (Proc.devRef .tc main_arg8) = V (Proc.devRef .tc main_arg8) := by
  unfold opsB run1
  simp only [List.cons_append, List.nil_append]
  after_results_simp

set_option maxRecDepth 8192 in
set_option maxHeartbeats 40000000 in
theorem keepB_main_arg9 (V : Valuation τ sig (Elt F)) : after opsB V (Proc.devRef .tc main_arg9) = V (Proc.devRef .tc main_arg9) := by
  unfold opsB run1
  simp only [List.cons_append, List.nil_append]
  after_results_simp

set_option maxRecDepth 8192 in
set_option maxHeartbeats 40000000 in
theorem keepB_main_arg10 (V : Valuation τ sig (Elt F)) : after opsB V (Proc.devRef .tc main_arg10) = V (Proc.devRef .tc main_arg10) := by
  unfold opsB run1
  simp only [List.cons_append, List.nil_append]
  after_results_simp

set_option maxRecDepth 8192 in
set_option maxHeartbeats 40000000 in
theorem keepB_main_arg11 (V : Valuation τ sig (Elt F)) : after opsB V (Proc.devRef .tc main_arg11) = V (Proc.devRef .tc main_arg11) := by
  unfold opsB run1
  simp only [List.cons_append, List.nil_append]
  after_results_simp

set_option maxRecDepth 8192 in
set_option maxHeartbeats 40000000 in
theorem keepB_main_arg12 (V : Valuation τ sig (Elt F)) : after opsB V (Proc.devRef .tc main_arg12) = V (Proc.devRef .tc main_arg12) := by
  unfold opsB run1
  simp only [List.cons_append, List.nil_append]
  after_results_simp

set_option maxRecDepth 8192 in
set_option maxHeartbeats 40000000 in
theorem keepB_main_arg13 (V : Valuation τ sig (Elt F)) : after opsB V (Proc.devRef .tc main_arg13) = V (Proc.devRef .tc main_arg13) := by
  unfold opsB run1
  simp only [List.cons_append, List.nil_append]
  after_results_simp

set_option maxRecDepth 8192 in
set_option maxHeartbeats 40000000 in
theorem keepC_main_arg0 (V : Valuation τ sig (Elt F)) : after opsC V (Proc.devRef .tc main_arg0) = V (Proc.devRef .tc main_arg0) := by
  unfold opsC run2 run3 run4 run5
  simp only [List.cons_append, List.nil_append]
  after_results_simp

set_option maxRecDepth 8192 in
set_option maxHeartbeats 40000000 in
theorem keepC_main_arg1 (V : Valuation τ sig (Elt F)) : after opsC V (Proc.devRef .tc main_arg1) = V (Proc.devRef .tc main_arg1) := by
  unfold opsC run2 run3 run4 run5
  simp only [List.cons_append, List.nil_append]
  after_results_simp

set_option maxRecDepth 8192 in
set_option maxHeartbeats 40000000 in
theorem keepC_main_arg2 (V : Valuation τ sig (Elt F)) : after opsC V (Proc.devRef .tc main_arg2) = V (Proc.devRef .tc main_arg2) := by
  unfold opsC run2 run3 run4 run5
  simp only [List.cons_append, List.nil_append]
  after_results_simp

set_option maxRecDepth 8192 in
set_option maxHeartbeats 40000000 in
theorem keepC_main_arg3 (V : Valuation τ sig (Elt F)) : after opsC V (Proc.devRef .tc main_arg3) = V (Proc.devRef .tc main_arg3) := by
  unfold opsC run2 run3 run4 run5
  simp only [List.cons_append, List.nil_append]
  after_results_simp

set_option maxRecDepth 8192 in
set_option maxHeartbeats 40000000 in
theorem keepC_main_arg4 (V : Valuation τ sig (Elt F)) : after opsC V (Proc.devRef .tc main_arg4) = V (Proc.devRef .tc main_arg4) := by
  unfold opsC run2 run3 run4 run5
  simp only [List.cons_append, List.nil_append]
  after_results_simp

set_option maxRecDepth 8192 in
set_option maxHeartbeats 40000000 in
theorem keepC_main_arg5 (V : Valuation τ sig (Elt F)) : after opsC V (Proc.devRef .tc main_arg5) = V (Proc.devRef .tc main_arg5) := by
  unfold opsC run2 run3 run4 run5
  simp only [List.cons_append, List.nil_append]
  after_results_simp

set_option maxRecDepth 8192 in
set_option maxHeartbeats 40000000 in
theorem keepC_main_arg6 (V : Valuation τ sig (Elt F)) : after opsC V (Proc.devRef .tc main_arg6) = V (Proc.devRef .tc main_arg6) := by
  unfold opsC run2 run3 run4 run5
  simp only [List.cons_append, List.nil_append]
  after_results_simp

set_option maxRecDepth 8192 in
set_option maxHeartbeats 40000000 in
theorem keepC_main_arg7 (V : Valuation τ sig (Elt F)) : after opsC V (Proc.devRef .tc main_arg7) = V (Proc.devRef .tc main_arg7) := by
  unfold opsC run2 run3 run4 run5
  simp only [List.cons_append, List.nil_append]
  after_results_simp

set_option maxRecDepth 8192 in
set_option maxHeartbeats 40000000 in
theorem keepC_main_arg8 (V : Valuation τ sig (Elt F)) : after opsC V (Proc.devRef .tc main_arg8) = V (Proc.devRef .tc main_arg8) := by
  unfold opsC run2 run3 run4 run5
  simp only [List.cons_append, List.nil_append]
  after_results_simp

set_option maxRecDepth 8192 in
set_option maxHeartbeats 40000000 in
theorem keepC_main_arg9 (V : Valuation τ sig (Elt F)) : after opsC V (Proc.devRef .tc main_arg9) = V (Proc.devRef .tc main_arg9) := by
  unfold opsC run2 run3 run4 run5
  simp only [List.cons_append, List.nil_append]
  after_results_simp

set_option maxRecDepth 8192 in
set_option maxHeartbeats 40000000 in
theorem keepC_main_arg10 (V : Valuation τ sig (Elt F)) : after opsC V (Proc.devRef .tc main_arg10) = V (Proc.devRef .tc main_arg10) := by
  unfold opsC run2 run3 run4 run5
  simp only [List.cons_append, List.nil_append]
  after_results_simp

set_option maxRecDepth 8192 in
set_option maxHeartbeats 40000000 in
theorem keepC_main_arg11 (V : Valuation τ sig (Elt F)) : after opsC V (Proc.devRef .tc main_arg11) = V (Proc.devRef .tc main_arg11) := by
  unfold opsC run2 run3 run4 run5
  simp only [List.cons_append, List.nil_append]
  after_results_simp

set_option maxRecDepth 8192 in
set_option maxHeartbeats 40000000 in
theorem keepC_main_arg12 (V : Valuation τ sig (Elt F)) : after opsC V (Proc.devRef .tc main_arg12) = V (Proc.devRef .tc main_arg12) := by
  unfold opsC run2 run3 run4 run5
  simp only [List.cons_append, List.nil_append]
  after_results_simp

set_option maxRecDepth 8192 in
set_option maxHeartbeats 40000000 in
theorem keepC_main_arg13 (V : Valuation τ sig (Elt F)) : after opsC V (Proc.devRef .tc main_arg13) = V (Proc.devRef .tc main_arg13) := by
  unfold opsC run2 run3 run4 run5
  simp only [List.cons_append, List.nil_append]
  after_results_simp

set_option maxRecDepth 8192 in
set_option maxHeartbeats 40000000 in
theorem keepD_main_arg0 (V : Valuation τ sig (Elt F)) : after opsD V (Proc.devRef .tc main_arg0) = V (Proc.devRef .tc main_arg0) := by
  unfold opsD run6 run7
  simp only [List.cons_append, List.nil_append]
  after_results_simp

set_option maxRecDepth 8192 in
set_option maxHeartbeats 40000000 in
theorem keepD_main_arg1 (V : Valuation τ sig (Elt F)) : after opsD V (Proc.devRef .tc main_arg1) = V (Proc.devRef .tc main_arg1) := by
  unfold opsD run6 run7
  simp only [List.cons_append, List.nil_append]
  after_results_simp

set_option maxRecDepth 8192 in
set_option maxHeartbeats 40000000 in
theorem keepD_main_arg2 (V : Valuation τ sig (Elt F)) : after opsD V (Proc.devRef .tc main_arg2) = V (Proc.devRef .tc main_arg2) := by
  unfold opsD run6 run7
  simp only [List.cons_append, List.nil_append]
  after_results_simp

set_option maxRecDepth 8192 in
set_option maxHeartbeats 40000000 in
theorem keepD_main_arg3 (V : Valuation τ sig (Elt F)) : after opsD V (Proc.devRef .tc main_arg3) = V (Proc.devRef .tc main_arg3) := by
  unfold opsD run6 run7
  simp only [List.cons_append, List.nil_append]
  after_results_simp

set_option maxRecDepth 8192 in
set_option maxHeartbeats 40000000 in
theorem keepD_main_arg4 (V : Valuation τ sig (Elt F)) : after opsD V (Proc.devRef .tc main_arg4) = V (Proc.devRef .tc main_arg4) := by
  unfold opsD run6 run7
  simp only [List.cons_append, List.nil_append]
  after_results_simp

set_option maxRecDepth 8192 in
set_option maxHeartbeats 40000000 in
theorem keepD_main_arg5 (V : Valuation τ sig (Elt F)) : after opsD V (Proc.devRef .tc main_arg5) = V (Proc.devRef .tc main_arg5) := by
  unfold opsD run6 run7
  simp only [List.cons_append, List.nil_append]
  after_results_simp

set_option maxRecDepth 8192 in
set_option maxHeartbeats 40000000 in
theorem keepD_main_arg6 (V : Valuation τ sig (Elt F)) : after opsD V (Proc.devRef .tc main_arg6) = V (Proc.devRef .tc main_arg6) := by
  unfold opsD run6 run7
  simp only [List.cons_append, List.nil_append]
  after_results_simp

set_option maxRecDepth 8192 in
set_option maxHeartbeats 40000000 in
theorem keepD_main_arg7 (V : Valuation τ sig (Elt F)) : after opsD V (Proc.devRef .tc main_arg7) = V (Proc.devRef .tc main_arg7) := by
  unfold opsD run6 run7
  simp only [List.cons_append, List.nil_append]
  after_results_simp

set_option maxRecDepth 8192 in
set_option maxHeartbeats 40000000 in
theorem keepD_main_arg8 (V : Valuation τ sig (Elt F)) : after opsD V (Proc.devRef .tc main_arg8) = V (Proc.devRef .tc main_arg8) := by
  unfold opsD run6 run7
  simp only [List.cons_append, List.nil_append]
  after_results_simp

set_option maxRecDepth 8192 in
set_option maxHeartbeats 40000000 in
theorem keepD_main_arg9 (V : Valuation τ sig (Elt F)) : after opsD V (Proc.devRef .tc main_arg9) = V (Proc.devRef .tc main_arg9) := by
  unfold opsD run6 run7
  simp only [List.cons_append, List.nil_append]
  after_results_simp

set_option maxRecDepth 8192 in
set_option maxHeartbeats 40000000 in
theorem keepD_main_arg10 (V : Valuation τ sig (Elt F)) : after opsD V (Proc.devRef .tc main_arg10) = V (Proc.devRef .tc main_arg10) := by
  unfold opsD run6 run7
  simp only [List.cons_append, List.nil_append]
  after_results_simp

set_option maxRecDepth 8192 in
set_option maxHeartbeats 40000000 in
theorem keepD_main_arg11 (V : Valuation τ sig (Elt F)) : after opsD V (Proc.devRef .tc main_arg11) = V (Proc.devRef .tc main_arg11) := by
  unfold opsD run6 run7
  simp only [List.cons_append, List.nil_append]
  after_results_simp

set_option maxRecDepth 8192 in
set_option maxHeartbeats 40000000 in
theorem keepD_main_arg12 (V : Valuation τ sig (Elt F)) : after opsD V (Proc.devRef .tc main_arg12) = V (Proc.devRef .tc main_arg12) := by
  unfold opsD run6 run7
  simp only [List.cons_append, List.nil_append]
  after_results_simp

set_option maxRecDepth 8192 in
set_option maxHeartbeats 40000000 in
theorem keepD_main_arg13 (V : Valuation τ sig (Elt F)) : after opsD V (Proc.devRef .tc main_arg13) = V (Proc.devRef .tc main_arg13) := by
  unfold opsD run6 run7
  simp only [List.cons_append, List.nil_append]
  after_results_simp

set_option maxRecDepth 8192 in
set_option maxHeartbeats 40000000 in
theorem keepE_main_arg0 (V : Valuation τ sig (Elt F)) : after opsE V (Proc.devRef .tc main_arg0) = V (Proc.devRef .tc main_arg0) := by
  unfold opsE run8 run9 run10 run11 run12 run13 run14 run15
  simp only [List.cons_append, List.nil_append]
  after_results_simp

set_option maxRecDepth 8192 in
set_option maxHeartbeats 40000000 in
theorem keepE_main_arg1 (V : Valuation τ sig (Elt F)) : after opsE V (Proc.devRef .tc main_arg1) = V (Proc.devRef .tc main_arg1) := by
  unfold opsE run8 run9 run10 run11 run12 run13 run14 run15
  simp only [List.cons_append, List.nil_append]
  after_results_simp

set_option maxRecDepth 8192 in
set_option maxHeartbeats 40000000 in
theorem keepE_main_arg2 (V : Valuation τ sig (Elt F)) : after opsE V (Proc.devRef .tc main_arg2) = V (Proc.devRef .tc main_arg2) := by
  unfold opsE run8 run9 run10 run11 run12 run13 run14 run15
  simp only [List.cons_append, List.nil_append]
  after_results_simp

set_option maxRecDepth 8192 in
set_option maxHeartbeats 40000000 in
theorem keepE_main_arg3 (V : Valuation τ sig (Elt F)) : after opsE V (Proc.devRef .tc main_arg3) = V (Proc.devRef .tc main_arg3) := by
  unfold opsE run8 run9 run10 run11 run12 run13 run14 run15
  simp only [List.cons_append, List.nil_append]
  after_results_simp

set_option maxRecDepth 8192 in
set_option maxHeartbeats 40000000 in
theorem keepE_main_arg4 (V : Valuation τ sig (Elt F)) : after opsE V (Proc.devRef .tc main_arg4) = V (Proc.devRef .tc main_arg4) := by
  unfold opsE run8 run9 run10 run11 run12 run13 run14 run15
  simp only [List.cons_append, List.nil_append]
  after_results_simp

set_option maxRecDepth 8192 in
set_option maxHeartbeats 40000000 in
theorem keepE_main_arg5 (V : Valuation τ sig (Elt F)) : after opsE V (Proc.devRef .tc main_arg5) = V (Proc.devRef .tc main_arg5) := by
  unfold opsE run8 run9 run10 run11 run12 run13 run14 run15
  simp only [List.cons_append, List.nil_append]
  after_results_simp

set_option maxRecDepth 8192 in
set_option maxHeartbeats 40000000 in
theorem keepE_main_arg6 (V : Valuation τ sig (Elt F)) : after opsE V (Proc.devRef .tc main_arg6) = V (Proc.devRef .tc main_arg6) := by
  unfold opsE run8 run9 run10 run11 run12 run13 run14 run15
  simp only [List.cons_append, List.nil_append]
  after_results_simp

set_option maxRecDepth 8192 in
set_option maxHeartbeats 40000000 in
theorem keepE_main_arg7 (V : Valuation τ sig (Elt F)) : after opsE V (Proc.devRef .tc main_arg7) = V (Proc.devRef .tc main_arg7) := by
  unfold opsE run8 run9 run10 run11 run12 run13 run14 run15
  simp only [List.cons_append, List.nil_append]
  after_results_simp

set_option maxRecDepth 8192 in
set_option maxHeartbeats 40000000 in
theorem keepE_main_arg8 (V : Valuation τ sig (Elt F)) : after opsE V (Proc.devRef .tc main_arg8) = V (Proc.devRef .tc main_arg8) := by
  unfold opsE run8 run9 run10 run11 run12 run13 run14 run15
  simp only [List.cons_append, List.nil_append]
  after_results_simp

set_option maxRecDepth 8192 in
set_option maxHeartbeats 40000000 in
theorem keepE_main_arg9 (V : Valuation τ sig (Elt F)) : after opsE V (Proc.devRef .tc main_arg9) = V (Proc.devRef .tc main_arg9) := by
  unfold opsE run8 run9 run10 run11 run12 run13 run14 run15
  simp only [List.cons_append, List.nil_append]
  after_results_simp

set_option maxRecDepth 8192 in
set_option maxHeartbeats 40000000 in
theorem keepE_main_arg10 (V : Valuation τ sig (Elt F)) : after opsE V (Proc.devRef .tc main_arg10) = V (Proc.devRef .tc main_arg10) := by
  unfold opsE run8 run9 run10 run11 run12 run13 run14 run15
  simp only [List.cons_append, List.nil_append]
  after_results_simp

set_option maxRecDepth 8192 in
set_option maxHeartbeats 40000000 in
theorem keepE_main_arg11 (V : Valuation τ sig (Elt F)) : after opsE V (Proc.devRef .tc main_arg11) = V (Proc.devRef .tc main_arg11) := by
  unfold opsE run8 run9 run10 run11 run12 run13 run14 run15
  simp only [List.cons_append, List.nil_append]
  after_results_simp

set_option maxRecDepth 8192 in
set_option maxHeartbeats 40000000 in
theorem keepE_main_arg12 (V : Valuation τ sig (Elt F)) : after opsE V (Proc.devRef .tc main_arg12) = V (Proc.devRef .tc main_arg12) := by
  unfold opsE run8 run9 run10 run11 run12 run13 run14 run15
  simp only [List.cons_append, List.nil_append]
  after_results_simp

set_option maxRecDepth 8192 in
set_option maxHeartbeats 40000000 in
theorem keepE_main_arg13 (V : Valuation τ sig (Elt F)) : after opsE V (Proc.devRef .tc main_arg13) = V (Proc.devRef .tc main_arg13) := by
  unfold opsE run8 run9 run10 run11 run12 run13 run14 run15
  simp only [List.cons_append, List.nil_append]
  after_results_simp

set_option maxRecDepth 8192 in
set_option maxHeartbeats 40000000 in
theorem keepB_main_v16 (V : Valuation τ sig (Elt F)) : after opsB V (Proc.devRef .tc main_v16) = V (Proc.devRef .tc main_v16) := by
  unfold opsB run1
  simp only [List.cons_append, List.nil_append]
  after_results_simp

set_option maxRecDepth 8192 in
set_option maxHeartbeats 40000000 in
theorem keepC_main_v17 (V : Valuation τ sig (Elt F)) : after opsC V (Proc.devRef .tc main_v17) = V (Proc.devRef .tc main_v17) := by
  unfold opsC run2 run3 run4 run5
  simp only [List.cons_append, List.nil_append]
  after_results_simp

set_option maxRecDepth 8192 in
set_option maxHeartbeats 40000000 in
theorem keepD_main_v17 (V : Valuation τ sig (Elt F)) : after opsD V (Proc.devRef .tc main_v17) = V (Proc.devRef .tc main_v17) := by
  unfold opsD run6 run7
  simp only [List.cons_append, List.nil_append]
  after_results_simp

end Cert.ReferenceIdeal.RefRun

end
-- ==== Proof.RefRun.lean ====
/-
  The reference program's run, read back as a value.

  Each stretch of the reference, run from arbitrary contents of the buffers, leaves in its last buffer one function
  of the network of the contents it reads.  Run one after the other from the launch memory they leave the whole
  network of the argument arrays in the result buffer, and the arguments unchanged.
-/
import proofs.«146362_j55078660603958_1_alg».proof.Proof.RefFacts
import proofs.«146362_j55078660603958_1_alg».proof.Proof.RefKeep
import proofs.«146362_j55078660603958_1_alg».proof.Proof.Network

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each stretch computes -/

set_option maxRecDepth 8192 in
set_option maxHeartbeats 40000000 in
theorem valA (V : Valuation τ sig (Elt Ideal)) :
    after (opsA (F := Ideal)) V (Proc.devRef .tc main_v16)
      = Network.shared (V (Proc.devRef .tc main_arg0)) (V (Proc.devRef .tc main_arg2)) (V (Proc.devRef .tc main_arg3)) := by
  unfold opsA run0
  simp only [List.cons_append, List.nil_append]
  after_results_simp <;> rfl

set_option maxRecDepth 8192 in
set_option maxHeartbeats 40000000 in
theorem valB (V : Valuation τ sig (Elt Ideal)) :
    after (opsB (F := Ideal)) V (Proc.devRef .tc main_v17) = Network.oneHot (V (Proc.devRef .tc main_arg1)) := by
  unfold opsB run1
  simp only [List.cons_append, List.nil_append]
  after_results_simp <;> rfl

set_option maxRecDepth 8192 in
set_option maxHeartbeats 40000000 in
theorem valC (V : Valuation τ sig (Elt Ideal)) :
    after (opsC (F := Ideal)) V (Proc.devRef .tc main_v106)
      = Network.sum1 (V (Proc.devRef .tc main_v16)) (V (Proc.devRef .tc main_v17)) (V (Proc.devRef .tc main_arg4)) (V (Proc.devRef .tc main_arg5)) := by
  unfold opsC run2 run3 run4 run5
  simp only [List.cons_append, List.nil_append]
  after_results_simp <;> rfl

set_option maxRecDepth 8192 in
set_option maxHeartbeats 40000000 in
theorem valD (V : Valuation τ sig (Elt Ideal)) :
    after (opsD (F := Ideal)) V (Proc.devRef .tc main_v123)
      = Network.shared (V (Proc.devRef .tc main_v106)) (V (Proc.devRef .tc main_arg6)) (V (Proc.devRef .tc main_arg7)) := by
  unfold opsD run6 run7
  simp only [List.cons_append, List.nil_append]
  after_results_simp <;> rfl

set_option maxRecDepth 8192 in
set_option maxHeartbeats 40000000 in
theorem valE (V : Valuation τ sig (Elt Ideal)) :
    after (opsE (F := Ideal)) V (Proc.devRef .tc main_v282)
      = Network.squash (Network.sum2 (V (Proc.devRef .tc main_v123)) (V (Proc.devRef .tc main_v17)) (V (Proc.devRef .tc main_arg8)) (V (Proc.devRef .tc main_arg9))
          (V (Proc.devRef .tc main_arg10)) (V (Proc.devRef .tc main_arg11)) (V (Proc.devRef .tc main_arg12)) (V (Proc.devRef .tc main_arg13))) := by
  unfold opsE run8 run9 run10 run11 run12 run13 run14 run15
  simp only [List.cons_append, List.nil_append]
  after_results_simp <;> rfl

/-! ## The whole run -/

set_option maxHeartbeats 4000000 in
/-- After all five stretches the result buffer holds the network of the argument arrays. -/
theorem value (m : (ℓ : Loc nD τ sig) → Buf (Elt Ideal) ℓ) (c : Dev nD) :
    after (ops (F := Ideal)) (launchContents m c) (Proc.devRef .tc main_v282)
      = Network.network (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) := by
  unfold ops
  simp only [after_append, valE, valD, valC, valB, valA, keepA_main_arg0, keepA_main_arg1, keepA_main_arg2, keepA_main_arg3, keepA_main_arg4, keepA_main_arg5, keepA_main_arg6, keepA_main_arg7, keepA_main_arg8, keepA_main_arg9, keepA_main_arg10, keepA_main_arg11, keepA_main_arg12, keepA_main_arg13, keepB_main_arg0, keepB_main_arg1, keepB_main_arg2, keepB_main_arg3, keepB_main_arg4, keepB_main_arg5, keepB_main_arg6, keepB_main_arg7, keepB_main_arg8, keepB_main_arg9, keepB_main_arg10, keepB_main_arg11, keepB_main_arg12, keepB_main_arg13, keepC_main_arg0, keepC_main_arg1, keepC_main_arg2, keepC_main_arg3, keepC_main_arg4, keepC_main_arg5, keepC_main_arg6, keepC_main_arg7, keepC_main_arg8, keepC_main_arg9, keepC_main_arg10, keepC_main_arg11, keepC_main_arg12, keepC_main_arg13, keepD_main_arg0, keepD_main_arg1, keepD_main_arg2, keepD_main_arg3, keepD_main_arg4, keepD_main_arg5, keepD_main_arg6, keepD_main_arg7, keepD_main_arg8, keepD_main_arg9, keepD_main_arg10, keepD_main_arg11, keepD_main_arg12, keepD_main_arg13, keepE_main_arg0, keepE_main_arg1, keepE_main_arg2, keepE_main_arg3, keepE_main_arg4, keepE_main_arg5, keepE_main_arg6, keepE_main_arg7, keepE_main_arg8, keepE_main_arg9, keepE_main_arg10, keepE_main_arg11, keepE_main_arg12, keepE_main_arg13, keepB_main_v16, keepC_main_v17, keepD_main_v17]
  unfold Network.network Network.stage2 Network.stage1
  rfl

theorem kept_main_arg0 (m : (ℓ : Loc nD τ sig) → Buf (Elt F) ℓ) (c : Dev nD) :
    after (ops (F := F)) (launchContents m c) (Proc.devRef .tc main_arg0) = m ((c.tc : Thread nD τ).loc main_arg0) := by
  unfold ops
  simp only [after_append, keepA_main_arg0, keepB_main_arg0, keepC_main_arg0, keepD_main_arg0, keepE_main_arg0]
  rfl

theorem kept_main_arg1 (m : (ℓ : Loc nD τ sig) → Buf (Elt F) ℓ) (c : Dev nD) :
    after (ops (F := F)) (launchContents m c) (Proc.devRef .tc main_arg1) = m ((c.tc : Thread nD τ).loc main_arg1) := by
  unfold ops
  simp only [after_append, keepA_main_arg1, keepB_main_arg1, keepC_main_arg1, keepD_main_arg1, keepE_main_arg1]
  rfl

theorem kept_main_arg2 (m : (ℓ : Loc nD τ sig) → Buf (Elt F) ℓ) (c : Dev nD) :
    after (ops (F := F)) (launchContents m c) (Proc.devRef .tc main_arg2) = m ((c.tc : Thread nD τ).loc main_arg2) := by
  unfold ops
  simp only [after_append, keepA_main_arg2, keepB_main_arg2, keepC_main_arg2, keepD_main_arg2, keepE_main_arg2]
  rfl

theorem kept_main_arg3 (m : (ℓ : Loc nD τ sig) → Buf (Elt F) ℓ) (c : Dev nD) :
    after (ops (F := F)) (launchContents m c) (Proc.devRef .tc main_arg3) = m ((c.tc : Thread nD τ).loc main_arg3) := by
  unfold ops
  simp only [after_append, keepA_main_arg3, keepB_main_arg3, keepC_main_arg3, keepD_main_arg3, keepE_main_arg3]
  rfl

theorem kept_main_arg4 (m : (ℓ : Loc nD τ sig) → Buf (Elt F) ℓ) (c : Dev nD) :
    after (ops (F := F)) (launchContents m c) (Proc.devRef .tc main_arg4) = m ((c.tc : Thread nD τ).loc main_arg4) := by
  unfold ops
  simp only [after_append, keepA_main_arg4, keepB_main_arg4, keepC_main_arg4, keepD_main_arg4, keepE_main_arg4]
  rfl

theorem kept_main_arg5 (m : (ℓ : Loc nD τ sig) → Buf (Elt F) ℓ) (c : Dev nD) :
    after (ops (F := F)) (launchContents m c) (Proc.devRef .tc main_arg5) = m ((c.tc : Thread nD τ).loc main_arg5) := by
  unfold ops
  simp only [after_append, keepA_main_arg5, keepB_main_arg5, keepC_main_arg5, keepD_main_arg5, keepE_main_arg5]
  rfl

theorem kept_main_arg6 (m : (ℓ : Loc nD τ sig) → Buf (Elt F) ℓ) (c : Dev nD) :
    after (ops (F := F)) (launchContents m c) (Proc.devRef .tc main_arg6) = m ((c.tc : Thread nD τ).loc main_arg6) := by
  unfold ops
  simp only [after_append, keepA_main_arg6, keepB_main_arg6, keepC_main_arg6, keepD_main_arg6, keepE_main_arg6]
  rfl

theorem kept_main_arg7 (m : (ℓ : Loc nD τ sig) → Buf (Elt F) ℓ) (c : Dev nD) :
    after (ops (F := F)) (launchContents m c) (Proc.devRef .tc main_arg7) = m ((c.tc : Thread nD τ).loc main_arg7) := by
  unfold ops
  simp only [after_append, keepA_main_arg7, keepB_main_arg7, keepC_main_arg7, keepD_main_arg7, keepE_main_arg7]
  rfl

theorem kept_main_arg8 (m : (ℓ : Loc nD τ sig) → Buf (Elt F) ℓ) (c : Dev nD) :
    after (ops (F := F)) (launchContents m c) (Proc.devRef .tc main_arg8) = m ((c.tc : Thread nD τ).loc main_arg8) := by
  unfold ops
  simp only [after_append, keepA_main_arg8, keepB_main_arg8, keepC_main_arg8, keepD_main_arg8, keepE_main_arg8]
  rfl

theorem kept_main_arg9 (m : (ℓ : Loc nD τ sig) → Buf (Elt F) ℓ) (c : Dev nD) :
    after (ops (F := F)) (launchContents m c) (Proc.devRef .tc main_arg9) = m ((c.tc : Thread nD τ).loc main_arg9) := by
  unfold ops
  simp only [after_append, keepA_main_arg9, keepB_main_arg9, keepC_main_arg9, keepD_main_arg9, keepE_main_arg9]
  rfl

theorem kept_main_arg10 (m : (ℓ : Loc nD τ sig) → Buf (Elt F) ℓ) (c : Dev nD) :
    after (ops (F := F)) (launchContents m c) (Proc.devRef .tc main_arg10) = m ((c.tc : Thread nD τ).loc main_arg10) := by
  unfold ops
  simp only [after_append, keepA_main_arg10, keepB_main_arg10, keepC_main_arg10, keepD_main_arg10, keepE_main_arg10]
  rfl

theorem kept_main_arg11 (m : (ℓ : Loc nD τ sig) → Buf (Elt F) ℓ) (c : Dev nD) :
    after (ops (F := F)) (launchContents m c) (Proc.devRef .tc main_arg11) = m ((c.tc : Thread nD τ).loc main_arg11) := by
  unfold ops
  simp only [after_append, keepA_main_arg11, keepB_main_arg11, keepC_main_arg11, keepD_main_arg11, keepE_main_arg11]
  rfl

theorem kept_main_arg12 (m : (ℓ : Loc nD τ sig) → Buf (Elt F) ℓ) (c : Dev nD) :
    after (ops (F := F)) (launchContents m c) (Proc.devRef .tc main_arg12) = m ((c.tc : Thread nD τ).loc main_arg12) := by
  unfold ops
  simp only [after_append, keepA_main_arg12, keepB_main_arg12, keepC_main_arg12, keepD_main_arg12, keepE_main_arg12]
  rfl

theorem kept_main_arg13 (m : (ℓ : Loc nD τ sig) → Buf (Elt F) ℓ) (c : Dev nD) :
    after (ops (F := F)) (launchContents m c) (Proc.devRef .tc main_arg13) = m ((c.tc : Thread nD τ).loc main_arg13) := by
  unfold ops
  simp only [after_append, keepA_main_arg13, keepB_main_arg13, keepC_main_arg13, keepD_main_arg13, keepE_main_arg13]
  rfl

/-- From any memory, every weakly fair execution of the reference terminates with the network of the argument arrays
    in its result buffer and with the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v282)
        = Network.network (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v282).trans (value m c),
      (h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c),
      (h c main_arg10).trans (kept_main_arg10 m c),
      (h c main_arg11).trans (kept_main_arg11 m c),
      (h c main_arg12).trans (kept_main_arg12 m c),
      (h c main_arg13).trans (kept_main_arg13 m c)⟩)
    (run_seq scopedRefs_eq scopedSems_eq defs main (fun _ => ops) main_eq (fun _ => ops_sub) m ρ (fun _ => ops_fresh))

end Cert.ReferenceIdeal.RefRun

end
-- ==== Proof.lean ====
/-
  The certificate: the kernel program and the reference compute one network.

  Both programs are read at the ideal values, where a float is an extended real, every operation is the exact one and a
  change of float format is the identity.  The reference, a straight line of host operations, leaves in its result
  the network of its argument arrays: two shared dense blocks and two masked sums over the four task branches, the
  second with the heads and the quotient 1 / (1 + exp (−z)).  The kernel program computes the same network in two
  launches over blocks of 512 rows; each row of the result depends on that row of the input alone, so a launch's
  blocks are the blocks of one whole-array stage, and the four blocks tile the rows.  The operations agree one by one:
  a matrix product into a zero accumulator is the host's product, the logistic function is that quotient, the task
  mask computed by comparing the task column with t is column t of the one-hot array.  No law of arithmetic is used
  beyond these identities, so the finiteness of the inputs is not needed for the value claim.
  The three frame claims are the programs' runs with the results dropped; the idealization rewrote nothing, so its
  claim is trivial.
-/
import proofs.«146362_j55078660603958_1_alg».proof.Defs
import proofs.«146362_j55078660603958_1_alg».proof.Proof.Gen.Kernel
import proofs.«146362_j55078660603958_1_alg».proof.Proof.Gen.Kernel.Skeleton
import proofs.«146362_j55078660603958_1_alg».proof.Proof.Gen.Kernel.Launch
import proofs.«146362_j55078660603958_1_alg».proof.Proof.Gen.Kernel.Points
import proofs.«146362_j55078660603958_1_alg».proof.Proof.Gen.Kernel.Frame
import proofs.«146362_j55078660603958_1_alg».proof.Proof.Gen.KernelIdeal
import proofs.«146362_j55078660603958_1_alg».proof.Proof.Gen.KernelIdeal.Skeleton
import proofs.«146362_j55078660603958_1_alg».proof.Proof.Gen.KernelIdeal.Launch
import proofs.«146362_j55078660603958_1_alg».proof.Proof.Gen.KernelIdeal.Points
import proofs.«146362_j55078660603958_1_alg».proof.Proof.Gen.KernelIdeal.Frame
import proofs.«146362_j55078660603958_1_alg».proof.Proof.Gen.ReferenceIdeal
import proofs.«146362_j55078660603958_1_alg».proof.Proof.Gen.Pre_finite_inputs
import proofs.«146362_j55078660603958_1_alg».proof.Proof.KernelRun
import proofs.«146362_j55078660603958_1_alg».proof.Proof.KernelValue
import proofs.«146362_j55078660603958_1_alg».proof.Proof.RefRun
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_k : Cert.frame_Kernel :=
  fun m ρ _ => Cert.Kernel.Gen.frame m ρ

/-- So does its reading at the ideal values. -/
theorem frame_ki : Cert.frame_KernelIdeal :=
  fun m ρ _ => Cert.KernelIdeal.Gen.frame m ρ

/-- The reference runs and leaves its arguments unchanged: its run with the result dropped. -/
theorem frame_ri : Cert.frame_ReferenceIdeal :=
  fun m ρ _ => (θ_run Cert.ReferenceIdeal.defs _ _).mono (fun _ h c => (h c).2) (Cert.ReferenceIdeal.RefRun.run m ρ)

/-- The idealization rewrote no operation. -/
theorem preserves : Cert.preserves_Kernel_KernelIdeal := trivial

/-- From memories that agree on the arguments, the kernel program's result array and the reference's both end at
    the network of the argument arrays. -/
theorem algebraic : Cert.algebraic_KernelIdeal_ReferenceIdeal := by
  intro m ρ m' ρ' _ hagree
  refine ⟨fun c => Cert.KernelIdeal.NetValue.G2 m c, ?_, ?_⟩
  · exact (θ_run Cert.KernelIdeal.defs _ _).mono
      (fun r h c => ⟨(h c).1.trans ((Cert.KernelIdeal.RunValue.result_eq m ρ c).trans (Cert.KernelIdeal.NetValue.final1 m ρ c)), (h c).2⟩)
      (Cert.KernelIdeal.RunValue.run_main m ρ)
  · refine (θ_run Cert.ReferenceIdeal.defs _ _).mono (fun _ h c => ⟨(h c).1.trans ?_, (h c).2⟩)
      (Cert.ReferenceIdeal.RefRun.run m' ρ')
    obtain ⟨a0, a1, a2, a3, a4, a5, a6, a7, a8, a9, a10, a11, a12, a13⟩ := hagree c
    rw [a0, a1, a2, a3, a4, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
